-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v25) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x1024x4096 : Shape := ⟨3, ![4, 1024, 4096]⟩
abbrev S4096x64 : Shape := ⟨2, ![4096, 64]⟩
abbrev S64 : Shape := ⟨1, ![64]⟩
abbrev S64x4096 : Shape := ⟨2, ![64, 4096]⟩
abbrev S4096x4032 : Shape := ⟨2, ![4096, 4032]⟩
abbrev S4032 : Shape := ⟨1, ![4032]⟩
abbrev S4032x4096 : Shape := ⟨2, ![4032, 4096]⟩
abbrev S4096x4 : Shape := ⟨2, ![4096, 4]⟩
abbrev S4 : Shape := ⟨1, ![4]⟩
abbrev S4x4096 : Shape := ⟨2, ![4, 4096]⟩
abbrev S4x4 : Shape := ⟨2, ![4, 4]⟩
abbrev S4096 : Shape := ⟨1, ![4096]⟩
abbrev S_ : Shape := ⟨0, ![]⟩

class Facts : Prop where
  bcast_S_S4x1024x4096 : S_.BroadcastsInDim S4x1024x4096 (![] : Fin 0 → Fin S4x1024x4096.rank)
  reducesTo_S4x1024x4096_S_d0_1_2 : S4x1024x4096.ReducesTo [0, 1, 2] S_
  h_S_ : 0 < S_.numel
  bcast_S_S4096x64 : S_.BroadcastsInDim S4096x64 (![] : Fin 0 → Fin S4096x64.rank)
  reducesTo_S4096x64_S_d0_1 : S4096x64.ReducesTo [0, 1] S_
  bcast_S_S64 : S_.BroadcastsInDim S64 (![] : Fin 0 → Fin S64.rank)
  reducesTo_S64_S_d0 : S64.ReducesTo [0] S_
  bcast_S_S64x4096 : S_.BroadcastsInDim S64x4096 (![] : Fin 0 → Fin S64x4096.rank)
  reducesTo_S64x4096_S_d0_1 : S64x4096.ReducesTo [0, 1] S_
  bcast_S_S4096x4032 : S_.BroadcastsInDim S4096x4032 (![] : Fin 0 → Fin S4096x4032.rank)
  reducesTo_S4096x4032_S_d0_1 : S4096x4032.ReducesTo [0, 1] S_
  bcast_S_S4032 : S_.BroadcastsInDim S4032 (![] : Fin 0 → Fin S4032.rank)
  reducesTo_S4032_S_d0 : S4032.ReducesTo [0] S_
  bcast_S_S4032x4096 : S_.BroadcastsInDim S4032x4096 (![] : Fin 0 → Fin S4032x4096.rank)
  reducesTo_S4032x4096_S_d0_1 : S4032x4096.ReducesTo [0, 1] S_
  bcast_S_S4096x4 : S_.BroadcastsInDim S4096x4 (![] : Fin 0 → Fin S4096x4.rank)
  reducesTo_S4096x4_S_d0_1 : S4096x4.ReducesTo [0, 1] S_
  bcast_S_S4 : S_.BroadcastsInDim S4 (![] : Fin 0 → Fin S4.rank)
  reducesTo_S4_S_d0 : S4.ReducesTo [0] S_
  bcast_S_S4x4096 : S_.BroadcastsInDim S4x4096 (![] : Fin 0 → Fin S4x4096.rank)
  reducesTo_S4x4096_S_d0_1 : S4x4096.ReducesTo [0, 1] S_
  bcast_S_S4x4 : S_.BroadcastsInDim S4x4 (![] : Fin 0 → Fin S4x4.rank)
  reducesTo_S4x4_S_d0_1 : S4x4.ReducesTo [0, 1] S_
  bcast_S_S4096 : S_.BroadcastsInDim S4096 (![] : Fin 0 → Fin S4096.rank)
  reducesTo_S4096_S_d0 : S4096.ReducesTo [0] S_

variable [Facts]

def fn_part4 {F : FTy → Type} [FloatOps F] (main_arg14 : FVec F S4096 .f32) (main_v63 : IVec S_ 1) (main_v67 : IVec S_ 1) : IVec S_ 1 :=
  let main_v68 : IVec S_ 1 := andi main_v63 main_v67
  let main_v69 : FVec F S4096 .f32 := Host.absf main_arg14
  let main_cst_26 : FVec F S_ .f32 := constant S_ .f32 0x7F800000#32
  let main_v70 : FVec F S4096 .f32 := broadcastInDim S4096 ![] bcast_S_S4096 main_cst_26
  let main_v71 : IVec S4096 1 := cmpf .olt main_v69 main_v70
  let main_c_27 : IVec S_ 1 := constantI S_ 1 1#1
  let main_v72 : IVec S_ 1 := (fun x v => Host.reduce IntOp.andi x v reducesTo_S4096_S_d0 h_S_) main_v71 main_c_27
  let main_v73 : IVec S_ 1 := andi main_v68 main_v72
  main_v73

def fn_part3 {F : FTy → Type} [FloatOps F] (main_arg11 : FVec F S64 .f32) (main_arg12 : FVec F S4 .f32) (main_arg13 : FVec F S4x4 .f32) (main_arg14 : FVec F S4096 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64 .f32 := Host.absf main_arg11
  let main_cst_20 : FVec F S_ .f32 := constant S_ .f32 0x7F800000#32
  let main_v55 : FVec F S64 .f32 := broadcastInDim S64 ![] bcast_S_S64 main_cst_20
  let main_v56 : IVec S64 1 := cmpf .olt main_v54 main_v55
  let main_c_21 : IVec S_ 1 := constantI S_ 1 1#1
  let main_v57 : IVec S_ 1 := (fun x v => Host.reduce IntOp.andi x v reducesTo_S64_S_d0 h_S_) main_v56 main_c_21
  let main_v58 : IVec S_ 1 := andi main_v53 main_v57
  let main_v59 : FVec F S4 .f32 := Host.absf main_arg12
  let main_cst_22 : FVec F S_ .f32 := constant S_ .f32 0x7F800000#32
  let main_v60 : FVec F S4 .f32 := broadcastInDim S4 ![] bcast_S_S4 main_cst_22
  let main_v61 : IVec S4 1 := cmpf .olt main_v59 main_v60
  let main_c_23 : IVec S_ 1 := constantI S_ 1 1#1
  let main_v62 : IVec S_ 1 := (fun x v => Host.reduce IntOp.andi x v reducesTo_S4_S_d0 h_S_) main_v61 main_c_23
  let main_v63 : IVec S_ 1 := andi main_v58 main_v62
  let main_v64 : FVec F S4x4 .f32 := Host.absf main_arg13
  let main_cst_24 : FVec F S_ .f32 := constant S_ .f32 0x7F800000#32
  let main_v65 : FVec F S4x4 .f32 := broadcastInDim S4x4 ![] bcast_S_S4x4 main_cst_24
  let main_v66 : IVec S4x4 1 := cmpf .olt main_v64 main_v65
  let main_c_25 : IVec S_ 1 := constantI S_ 1 1#1
  let main_v67 : IVec S_ 1 := (fun x v => Host.reduce IntOp.andi x v reducesTo_S4x4_S_d0_1 h_S_) main_v66 main_c_25
  fn_part4 (F := F) main_arg14 main_v63 main_v67

def fn_part2 {F : FTy → Type} [FloatOps F] (main_arg7 : FVec F S4096x4 .f32) (main_arg8 : FVec F S4 .f32) (main_arg9 : FVec F S4x4096 .f32) (main_arg10 : FVec F S64 .f32) (main_arg11 : FVec F S64 .f32) (main_arg12 : FVec F S4 .f32) (main_arg13 : FVec F S4x4 .f32) (main_arg14 : FVec F S4096 .f32) (main_v33 : IVec S_ 1) : IVec S_ 1 :=
  let main_v34 : FVec F S4096x4 .f32 := Host.absf main_arg7
  let main_cst_12 : FVec F S_ .f32 := constant S_ .f32 0x7F800000#32
  let main_v35 : FVec F S4096x4 .f32 := broadcastInDim S4096x4 ![] bcast_S_S4096x4 main_cst_12
  let main_v36 : IVec S4096x4 1 := cmpf .olt main_v34 main_v35
  let main_c_13 : IVec S_ 1 := constantI S_ 1 1#1
  let main_v37 : IVec S_ 1 := (fun x v => Host.reduce IntOp.andi x v reducesTo_S4096x4_S_d0_1 h_S_) main_v36 main_c_13
  let main_v38 : IVec S_ 1 := andi main_v33 main_v37
  let main_v39 : FVec F S4 .f32 := Host.absf main_arg8
  let main_cst_14 : FVec F S_ .f32 := constant S_ .f32 0x7F800000#32
  let main_v40 : FVec F S4 .f32 := broadcastInDim S4 ![] bcast_S_S4 main_cst_14
  let main_v41 : IVec S4 1 := cmpf .olt main_v39 main_v40
  let main_c_15 : IVec S_ 1 := constantI S_ 1 1#1
  let main_v42 : IVec S_ 1 := (fun x v => Host.reduce IntOp.andi x v reducesTo_S4_S_d0 h_S_) main_v41 main_c_15
  let main_v43 : IVec S_ 1 := andi main_v38 main_v42
  let main_v44 : FVec F S4x4096 .f32 := Host.absf main_arg9
  let main_cst_16 : FVec F S_ .f32 := constant S_ .f32 0x7F800000#32
  let main_v45 : FVec F S4x4096 .f32 := broadcastInDim S4x4096 ![] bcast_S_S4x4096 main_cst_16
  let main_v46 : IVec S4x4096 1 := cmpf .olt main_v44 main_v45
  let main_c_17 : IVec S_ 1 := constantI S_ 1 1#1
  let main_v47 : IVec S_ 1 := (fun x v => Host.reduce IntOp.andi x v reducesTo_S4x4096_S_d0_1 h_S_) main_v46 main_c_17
  let main_v48 : IVec S_ 1 := andi main_v43 main_v47
  let main_v49 : FVec F S64 .f32 := Host.absf main_arg10
  let main_cst_18 : FVec F S_ .f32 := constant S_ .f32 0x7F800000#32
  let main_v50 : FVec F S64 .f32 := broadcastInDim S64 ![] bcast_S_S64 main_cst_18
  fn_part3 (F := F) main_arg11 main_arg12 main_arg13 main_arg14 main_v48 main_v49 main_v50

def fn_part1 {F : FTy → Type} [FloatOps F] (main_arg4 : FVec F S4096x4032 .f32) (main_arg5 : FVec F S4032 .f32) (main_arg6 : FVec F S4032x4096 .f32) (main_arg7 : FVec F S4096x4 .f32) (main_arg8 : FVec F S4 .f32) (main_arg9 : FVec F S4x4096 .f32) (main_arg10 : FVec F S64 .f32) (main_arg11 : FVec F S64 .f32) (main_arg12 : FVec F S4 .f32) (main_arg13 : FVec F S4x4 .f32) (main_arg14 : FVec F S4096 .f32) (main_v13 : IVec S_ 1) (main_v16 : IVec S64x4096 1) : IVec S_ 1 :=
  let main_c_5 : IVec S_ 1 := constantI S_ 1 1#1
  let main_v17 : IVec S_ 1 := (fun x v => Host.reduce IntOp.andi x v reducesTo_S64x4096_S_d0_1 h_S_) main_v16 main_c_5
  let main_v18 : IVec S_ 1 := andi main_v13 main_v17
  let main_v19 : FVec F S4096x4032 .f32 := Host.absf main_arg4
  let main_cst_6 : FVec F S_ .f32 := constant S_ .f32 0x7F800000#32
  let main_v20 : FVec F S4096x4032 .f32 := broadcastInDim S4096x4032 ![] bcast_S_S4096x4032 main_cst_6
  let main_v21 : IVec S4096x4032 1 := cmpf .olt main_v19 main_v20
  let main_c_7 : IVec S_ 1 := constantI S_ 1 1#1
  let main_v22 : IVec S_ 1 := (fun x v => Host.reduce IntOp.andi x v reducesTo_S4096x4032_S_d0_1 h_S_) main_v21 main_c_7
  let main_v23 : IVec S_ 1 := andi main_v18 main_v22
  let main_v24 : FVec F S4032 .f32 := Host.absf main_arg5
  let main_cst_8 : FVec F S_ .f32 := constant S_ .f32 0x7F800000#32
  let main_v25 : FVec F S4032 .f32 := broadcastInDim S4032 ![] bcast_S_S4032 main_cst_8
  let main_v26 : IVec S4032 1 := cmpf .olt main_v24 main_v25
  let main_c_9 : IVec S_ 1 := constantI S_ 1 1#1
  let main_v27 : IVec S_ 1 := (fun x v => Host.reduce IntOp.andi x v reducesTo_S4032_S_d0 h_S_) main_v26 main_c_9
  let main_v28 : IVec S_ 1 := andi main_v23 main_v27
  let main_v29 : FVec F S4032x4096 .f32 := Host.absf main_arg6
  let main_cst_10 : FVec F S_ .f32 := constant S_ .f32 0x7F800000#32
  let main_v30 : FVec F S4032x4096 .f32 := broadcastInDim S4032x4096 ![] bcast_S_S4032x4096 main_cst_10
  let main_v31 : IVec S4032x4096 1 := cmpf .olt main_v29 main_v30
  let main_c_11 : IVec S_ 1 := constantI S_ 1 1#1
  let main_v32 : IVec S_ 1 := (fun x v => Host.reduce IntOp.andi x v reducesTo_S4032x4096_S_d0_1 h_S_) main_v31 main_c_11
  let main_v33 : IVec S_ 1 := andi main_v28 main_v32
  fn_part2 (F := F) main_arg7 main_arg8 main_arg9 main_arg10 main_arg11 main_arg12 main_arg13 main_arg14 main_v33

def fn {F : FTy → Type} [FloatOps F] (main_arg0 : FVec F S4x1024x4096 .f32) (main_arg1 : FVec F S4096x64 .f32) (main_arg2 : FVec F S64 .f32) (main_arg3 : FVec F S64x4096 .f32) (main_arg4 : FVec F S4096x4032 .f32) (main_arg5 : FVec F S4032 .f32) (main_arg6 : FVec F S4032x4096 .f32) (main_arg7 : FVec F S4096x4 .f32) (main_arg8 : FVec F S4 .f32) (main_arg9 : FVec F S4x4096 .f32) (main_arg10 : FVec F S64 .f32) (main_arg11 : FVec F S64 .f32) (main_arg12 : FVec F S4 .f32) (main_arg13 : FVec F S4x4 .f32) (main_arg14 : FVec F S4096 .f32) : IVec S_ 1 :=
  let main_v0 : FVec F S4x1024x4096 .f32 := Host.absf main_arg0
  let main_cst : FVec F S_ .f32 := constant S_ .f32 0x7F800000#32
  let main_v1 : FVec F S4x1024x4096 .f32 := broadcastInDim S4x1024x4096 ![] bcast_S_S4x1024x4096 main_cst
  let main_v2 : IVec S4x1024x4096 1 := cmpf .olt main_v0 main_v1
  let main_c : IVec S_ 1 := constantI S_ 1 1#1
  let main_v3 : IVec S_ 1 := (fun x v => Host.reduce IntOp.andi x v reducesTo_S4x1024x4096_S_d0_1_2 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x4096 .f32 := Host.absf main_arg3
  let main_cst_4 : FVec F S_ .f32 := constant S_ .f32 0x7F800000#32
  let main_v15 : FVec F S64x4096 .f32 := broadcastInDim S64x4096 ![] bcast_S_S64x4096 main_cst_4
  let main_v16 : IVec S64x4096 1 := cmpf .olt main_v14 main_v15
  fn_part1 (F := F) main_arg4 main_arg5 main_arg6 main_arg7 main_arg8 main_arg9 main_arg10 main_arg11 main_arg12 main_arg13 main_arg14 main_v13 main_v16
-- ==== Kernel.lean ====
abbrev S4x1024x4096 : Shape := ⟨3, ![4, 1024, 4096]⟩
abbrev S4096x64 : Shape := ⟨2, ![4096, 64]⟩
abbrev S64 : Shape := ⟨1, ![64]⟩
abbrev S64x4096 : Shape := ⟨2, ![64, 4096]⟩
abbrev S4096x4032 : Shape := ⟨2, ![4096, 4032]⟩
abbrev S4032 : Shape := ⟨1, ![4032]⟩
abbrev S4032x4096 : Shape := ⟨2, ![4032, 4096]⟩
abbrev S4096x4 : Shape := ⟨2, ![4096, 4]⟩
abbrev S4 : Shape := ⟨1, ![4]⟩
abbrev S4x4096 : Shape := ⟨2, ![4, 4096]⟩
abbrev S4x4 : Shape := ⟨2, ![4, 4]⟩
abbrev S4096 : Shape := ⟨1, ![4096]⟩
abbrev S_ : Shape := ⟨0, ![]⟩
abbrev S1x64 : Shape := ⟨2, ![1, 64]⟩
abbrev S1x4032 : Shape := ⟨2, ![1, 4032]⟩
abbrev S1x4 : Shape := ⟨2, ![1, 4]⟩
abbrev S4096x124 : Shape := ⟨2, ![4096, 124]⟩
abbrev S4096x4224 : Shape := ⟨2, ![4096, 4224]⟩
abbrev S124x4096 : Shape := ⟨2, ![124, 4096]⟩
abbrev S4224x4096 : Shape := ⟨2, ![4224, 4096]⟩
abbrev S4096x4096 : Shape := ⟨2, ![4096, 4096]⟩
abbrev S1x4096 : Shape := ⟨2, ![1, 4096]⟩
abbrev S1024x256 : Shape := ⟨2, ![1024, 256]⟩
abbrev S4224x256 : Shape := ⟨2, ![4224, 256]⟩
abbrev S1024x4224 : Shape := ⟨2, ![1024, 4224]⟩
abbrev S512x384 : Shape := ⟨2, ![512, 384]⟩
abbrev S4096x384 : Shape := ⟨2, ![4096, 384]⟩
abbrev S512x4096 : Shape := ⟨2, ![512, 4096]⟩

abbrev nBuf : Space → Nat
  | .hbm => 54
  | .vmem => 15
  | .smem => 0
  | _ => 0

abbrev bufTy : (tb : Table) → Fin (tcTables nBuf tb) → BufTy
  | .hbm, ⟨0, _⟩ => ⟨S4x1024x4096, .f32⟩
  | .hbm, ⟨1, _⟩ => ⟨S4096x64, .f32⟩
  | .hbm, ⟨2, _⟩ => ⟨S64, .f32⟩
  | .hbm, ⟨3, _⟩ => ⟨S64x4096, .f32⟩
  | .hbm, ⟨4, _⟩ => ⟨S4096x4032, .f32⟩
  | .hbm, ⟨5, _⟩ => ⟨S4032, .f32⟩
  | .hbm, ⟨6, _⟩ => ⟨S4032x4096, .f32⟩
  | .hbm, ⟨7, _⟩ => ⟨S4096x4, .f32⟩
  | .hbm, ⟨8, _⟩ => ⟨S4, .f32⟩
  | .hbm, ⟨9, _⟩ => ⟨S4x4096, .f32⟩
  | .hbm, ⟨10, _⟩ => ⟨S64, .f32⟩
  | .hbm, ⟨11, _⟩ => ⟨S64, .f32⟩
  | .hbm, ⟨12, _⟩ => ⟨S4, .f32⟩
  | .hbm, ⟨13, _⟩ => ⟨S4x4, .f32⟩
  | .hbm, ⟨14, _⟩ => ⟨S4096, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S1x4032, .f32⟩
  | .hbm, ⟨24, _⟩ => ⟨S4096x4032, .f32⟩
  | .hbm, ⟨25, _⟩ => ⟨S4096x4032, .f32⟩
  | .hbm, ⟨26, _⟩ => ⟨S_, .f32⟩
  | .hbm, ⟨27, _⟩ => ⟨S4, .f32⟩
  | .hbm, ⟨28, _⟩ => ⟨S4, .f32⟩
  | .hbm, ⟨29, _⟩ => ⟨S1x4, .f32⟩
  | .hbm, ⟨30, _⟩ => ⟨S4096x4, .f32⟩
  | .hbm, ⟨31, _⟩ => ⟨S4096x4, .f32⟩
  | .hbm, ⟨32, _⟩ => ⟨S1x4, .f32⟩
  | .hbm, ⟨33, _⟩ => ⟨S4096x4, .f32⟩
  | .hbm, ⟨34, _⟩ => ⟨S4096x4, .f32⟩
  | .hbm, ⟨35, _⟩ => ⟨S4096x4, .f32⟩
  | .hbm, ⟨36, _⟩ => ⟨S_, .bf16⟩
  | .hbm, ⟨37, _⟩ => ⟨S4096x124, .bf16⟩
  | .hbm, ⟨38, _⟩ => ⟨S4096x64, .bf16⟩
  | .hbm, ⟨39, _⟩ => ⟨S4096x4032, .bf16⟩
  | .hbm, ⟨40, _⟩ => ⟨S4096x4, .bf16⟩
  | .hbm, ⟨41, _⟩ => ⟨S4096x4224, .bf16⟩
  | .hbm, ⟨42, _⟩ => ⟨S_, .bf16⟩
  | .hbm, ⟨43, _⟩ => ⟨S124x4096, .bf16⟩
  | .hbm, ⟨44, _⟩ => ⟨S64x4096, .bf16⟩
  | .hbm, ⟨45, _⟩ => ⟨S4032x4096, .bf16⟩
  | .hbm, ⟨46, _⟩ => ⟨S4x4096, .bf16⟩
  | .hbm, ⟨47, _⟩ => ⟨S4224x4096, .bf16⟩
  | .hbm, ⟨48, _⟩ => ⟨S4096x4096, .f32⟩
  | .hbm, ⟨49, _⟩ => ⟨S4096x4096, .bf16⟩
  | .hbm, ⟨50, _⟩ => ⟨S1x4096, .f32⟩
  | .hbm, ⟨51, _⟩ => ⟨S4096x4224, .bf16⟩
  | .hbm, ⟨52, _⟩ => ⟨S4096x4096, .f32⟩
  | .hbm, ⟨53, _⟩ => ⟨S4x1024x4096, .f32⟩
  | .local _ .vmem, ⟨0, _⟩ => ⟨S1024x256, .bf16⟩
  | .local _ .vmem, ⟨1, _⟩ => ⟨S1024x256, .bf16⟩
  | .local _ .vmem, ⟨2, _⟩ => ⟨S4224x256, .bf16⟩
  | .local _ .vmem, ⟨3, _⟩ => ⟨S4224x256, .bf16⟩
  | .local _ .vmem, ⟨4, _⟩ => ⟨S1024x4224, .bf16⟩
  | .local _ .vmem, ⟨5, _⟩ => ⟨S1024x4224, .bf16⟩
  | .local _ .vmem, ⟨6, _⟩ => ⟨S1024x4224, .f32⟩
  | .local _ .vmem, ⟨7, _⟩ => ⟨S512x384, .bf16⟩
  | .local _ .vmem, ⟨8, _⟩ => ⟨S512x384, .bf16⟩
  | .local _ .vmem, ⟨9, _⟩ => ⟨S4096x384, .bf16⟩
  | .local _ .vmem, ⟨10, _⟩ => ⟨S4096x384, .bf16⟩
  | .local _ .vmem, ⟨11, _⟩ => ⟨S1x4096, .f32⟩
  | .local _ .vmem, ⟨12, _⟩ => ⟨S512x4096, .f32⟩
  | .local _ .vmem, ⟨13, _⟩ => ⟨S512x4096, .f32⟩
  | .local _ .vmem, ⟨14, _⟩ => ⟨S512x4096, .f32⟩
  | _, _ => ⟨S4x1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_cst : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_call1_cst : Ref sig .tc := ⟨.hbm, 26, rfl⟩
abbrev main_call1_v0 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_cst : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_cst_0 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨2, ![4, 16], ![false, false]⟩

def k0_cond2 (i : grid0.Coords) : BitVec 1 :=
  let arg1 : BitVec 32 := BitVec.ofNat 32 (i 1).val
  let c15_i32 : BitVec 32 := 15#32
  let v13 : BitVec 1 := Scalar.cmpi .eq arg1 c15_i32
  let v14 : BitVec 32 := Scalar.extui v13
  let c0_i32_8 : BitVec 32 := 0#32
  let v15 : BitVec 1 := Scalar.cmpi .ne v14 c0_i32_8
  v15

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x4224 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 11], ![false, false]⟩

def k1_cond2 (i : grid1.Coords) : BitVec 1 :=
  let arg1 : BitVec 32 := BitVec.ofNat 32 (i 1).val
  let c10_i32 : BitVec 32 := 10#32
  let v13 : BitVec 1 := Scalar.cmpi .eq arg1 c10_i32
  let v14 : BitVec 32 := Scalar.extui v13
  let c0_i32_8 : BitVec 32 := 0#32
  let v15 : BitVec 1 := Scalar.cmpi .ne v14 c0_i32_8
  v15

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S512x384 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S4096x384 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S512x4096 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S4032_S1x4032_1 : S4032.BroadcastsInDim S1x4032 (![1] : Fin 1 → Fin S1x4032.rank)
  bcast_S1x4032_S4096x4032_0_1 : S1x4032.BroadcastsInDim S4096x4032 (![0, 1] : Fin 2 → Fin S4096x4032.rank)
  bcast_S_S4 : S_.BroadcastsInDim S4 (![] : Fin 0 → Fin S4.rank)
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S_S4096x124 : S_.BroadcastsInDim S4096x124 (![] : Fin 0 → Fin S4096x124.rank)
  bitsLt_bf16_f32 : FTy.bits .bf16 < FTy.bits .f32
  concatenates_S4096x64_S4096x4032_S4096x4_S4096x124_S4096x4224_d1 : Shape.Concatenates [S4096x64, S4096x4032, S4096x4, S4096x124] S4096x4224 1
  bcast_S_S124x4096 : S_.BroadcastsInDim S124x4096 (![] : Fin 0 → Fin S124x4096.rank)
  concatenates_S64x4096_S4032x4096_S4x4096_S124x4096_S4224x4096_d0 : Shape.Concatenates [S64x4096, S4032x4096, S4x4096, S124x4096] S4224x4096 0
  shapeCasts_S4x1024x4096_S4096x4096 : S4x1024x4096.ShapeCasts S4096x4096
  shapeCasts_S4096_S1x4096 : S4096.ShapeCasts S1x4096
  inb_S1024x4224_S1024x4224_0_0 : ∀ a, (![0, 0] : Fin 2 → Nat) a + S1024x4224.size a ≤ S1024x4224.size a
  h_S1024x4224 : 0 < S1024x4224.numel
  shapeCasts_S1024x4224_S1024x4224 : S1024x4224.ShapeCasts S1024x4224
  inb_S1024x256_S1024x256_0_0 : ∀ a, (![0, 0] : Fin 2 → Nat) a + S1024x256.size a ≤ S1024x256.size a
  h_S1024x256 : 0 < S1024x256.numel
  shapeCasts_S1024x256_S1024x256 : S1024x256.ShapeCasts S1024x256
  inb_S4224x256_S4224x256_0_0 : ∀ a, (![0, 0] : Fin 2 → Nat) a + S4224x256.size a ≤ S4224x256.size a
  h_S4224x256 : 0 < S4224x256.numel
  shapeCasts_S4224x256_S4224x256 : S4224x256.ShapeCasts S4224x256
  packedbf16_S1024x4224_S1024x4224_0_0 : (Rect.unit (s := S1024x4224) ![0, 0] S1024x4224.size inb_S1024x4224_S1024x4224_0_0).PackedRows (EltTy.packing .bf16)
  inb_S512x4096_S512x4096_0_0 : ∀ a, (![0, 0] : Fin 2 → Nat) a + S512x4096.size a ≤ S512x4096.size a
  h_S512x4096 : 0 < S512x4096.numel
  shapeCasts_S512x4096_S512x4096 : S512x4096.ShapeCasts S512x4096
  inb_S512x384_S512x384_0_0 : ∀ a, (![0, 0] : Fin 2 → Nat) a + S512x384.size a ≤ S512x384.size a
  h_S512x384 : 0 < S512x384.numel
  shapeCasts_S512x384_S512x384 : S512x384.ShapeCasts S512x384
  inb_S4096x384_S4096x384_0_0 : ∀ a, (![0, 0] : Fin 2 → Nat) a + S4096x384.size a ≤ S4096x384.size a
  h_S4096x384 : 0 < S4096x384.numel
  shapeCasts_S4096x384_S4096x384 : S4096x384.ShapeCasts S4096x384
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S512x4096 : S1x4096.Broadcasts S512x4096
  shapeCasts_S4096x4096_S4x1024x4096 : S4096x4096.ShapeCasts S4x1024x4096
  dot_S4096x4_S4x4_S4096x4_1_0_0_1_n_n_wf : DotDims.WF S4096x4 S4x4 S4096x4 [1] [0] [0] [1] [] []
  dot_S1024x256_S4224x256_S1024x4224_1_1_0_0_n_n_wf : DotDims.WF S1024x256 S4224x256 S1024x4224 [1] [1] [0] [0] [] []
  dot_S512x384_S4096x384_S512x4096_1_1_0_0_n_n_wf : DotDims.WF S512x384 S4096x384 S512x4096 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S4096x4096.size a
  hwx0_0 : ∀ i : grid0.Coords, EltTy.bits .bf16 = 32 ∨ (Rect.block (s := S4096x4096) S1024x256.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4224x256.size a ≤ S4224x4096.size a
  hwx0_1 : ∀ i : grid0.Coords, EltTy.bits .bf16 = 32 ∨ (Rect.block (s := S4224x4096) S4224x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x4224.size a ≤ S4096x4224.size a
  hwx0_2 : ∀ i : grid0.Coords, EltTy.bits .bf16 = 32 ∨ (Rect.block (s := S4096x4224) S1024x4224.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x384.size a ≤ S4096x4224.size a
  hwx1_0 : ∀ i : grid1.Coords, EltTy.bits .bf16 = 32 ∨ (Rect.block (s := S4096x4224) S512x384.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x384.size a ≤ S4096x4224.size a
  hwx1_1 : ∀ i : grid1.Coords, EltTy.bits .bf16 = 32 ∨ (Rect.block (s := S4096x4224) S4096x384.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S512x4096.size a ≤ S4096x4096.size a
  hwx1_3 : ∀ i : grid1.Coords, EltTy.bits .f32 = 32 ∨ (Rect.block (s := S4096x4096) S512x4096.size (cc1_transform_3 i) (hinb1_3 i)).WholeWords (EltTy.packing .f32)

variable [Facts₀]

def dot_S4096x4_S4x4_S4096x4_1_0_0_1_n_n : DotDims S4096x4 S4x4 S4096x4 where
  lhsContracting := [1]
  rhsContracting := [0]
  lhsNonContracting := [0]
  rhsNonContracting := [1]
  lhsBatch := []
  rhsBatch := []
  wf := dot_S4096x4_S4x4_S4096x4_1_0_0_1_n_n_wf
def dot_S1024x256_S4224x256_S1024x4224_1_1_0_0_n_n : DotDims S1024x256 S4224x256 S1024x4224 where
  lhsContracting := [1]
  rhsContracting := [1]
  lhsNonContracting := [0]
  rhsNonContracting := [0]
  lhsBatch := []
  rhsBatch := []
  wf := dot_S1024x256_S4224x256_S1024x4224_1_1_0_0_n_n_wf
def dot_S512x384_S4096x384_S512x4096_1_1_0_0_n_n : DotDims S512x384 S4096x384 S512x4096 where
  lhsContracting := [1]
  rhsContracting := [1]
  lhsNonContracting := [0]
  rhsNonContracting := [0]
  lhsBatch := []
  rhsBatch := []
  wf := dot_S512x384_S4096x384_S512x4096_1_1_0_0_n_n_wf

abbrev win0_0 : Pipeline.Window sig grid0 :=
  Pipeline.Window.ofSpec (Memref.whole main_v28) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v26) S4224x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S1024x4224.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

abbrev win1_0 : Pipeline.Window sig grid1 :=
  Pipeline.Window.ofSpec (Memref.whole main_v30) S512x384.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v21) S4096x384.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v29) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v31) S512x4096.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S4x1024x4096 : Shape := ⟨3, ![4, 1024, 4096]⟩
abbrev S4096x64 : Shape := ⟨2, ![4096, 64]⟩
abbrev S64 : Shape := ⟨1, ![64]⟩
abbrev S64x4096 : Shape := ⟨2, ![64, 4096]⟩
abbrev S4096x4032 : Shape := ⟨2, ![4096, 4032]⟩
abbrev S4032 : Shape := ⟨1, ![4032]⟩
abbrev S4032x4096 : Shape := ⟨2, ![4032, 4096]⟩
abbrev S4096x4 : Shape := ⟨2, ![4096, 4]⟩
abbrev S4 : Shape := ⟨1, ![4]⟩
abbrev S4x4096 : Shape := ⟨2, ![4, 4096]⟩
abbrev S4x4 : Shape := ⟨2, ![4, 4]⟩
abbrev S4096 : Shape := ⟨1, ![4096]⟩
abbrev S_ : Shape := ⟨0, ![]⟩
abbrev S1x64 : Shape := ⟨2, ![1, 64]⟩
abbrev S4096x4096 : Shape := ⟨2, ![4096, 4096]⟩
abbrev S1x4032 : Shape := ⟨2, ![1, 4032]⟩
abbrev S1x4 : Shape := ⟨2, ![1, 4]⟩
abbrev S1x1x4096 : Shape := ⟨3, ![1, 1, 4096]⟩

abbrev nBuf : Space → Nat
  | .hbm => 45
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S4096x64, .f32⟩
  | .hbm, ⟨2, _⟩ => ⟨S64, .f32⟩
  | .hbm, ⟨3, _⟩ => ⟨S64x4096, .f32⟩
  | .hbm, ⟨4, _⟩ => ⟨S4096x4032, .f32⟩
  | .hbm, ⟨5, _⟩ => ⟨S4032, .f32⟩
  | .hbm, ⟨6, _⟩ => ⟨S4032x4096, .f32⟩
  | .hbm, ⟨7, _⟩ => ⟨S4096x4, .f32⟩
  | .hbm, ⟨8, _⟩ => ⟨S4, .f32⟩
  | .hbm, ⟨9, _⟩ => ⟨S4x4096, .f32⟩
  | .hbm, ⟨10, _⟩ => ⟨S64, .f32⟩
  | .hbm, ⟨11, _⟩ => ⟨S64, .f32⟩
  | .hbm, ⟨12, _⟩ => ⟨S4, .f32⟩
  | .hbm, ⟨13, _⟩ => ⟨S4x4, .f32⟩
  | .hbm, ⟨14, _⟩ => ⟨S4096, .f32⟩
  | .hbm, ⟨15, _⟩ => ⟨S64, .f32⟩
  | .hbm, ⟨16, _⟩ => ⟨S64, .f32⟩
  | .hbm, ⟨17, _⟩ => ⟨S_, .f32⟩
  | .hbm, ⟨18, _⟩ => ⟨S64, .f32⟩
  | .hbm, ⟨19, _⟩ => ⟨S64, .f32⟩
  | .hbm, ⟨20, _⟩ => ⟨S1x64, .f32⟩
  | .hbm, ⟨21, _⟩ => ⟨S4096x64, .f32⟩
  | .hbm, ⟨22, _⟩ => ⟨S4096x64, .f32⟩
  | .hbm, ⟨23, _⟩ => ⟨S4096x4096, .f32⟩
  | .hbm, ⟨24, _⟩ => ⟨S1x4032, .f32⟩
  | .hbm, ⟨25, _⟩ => ⟨S4096x4032, .f32⟩
  | .hbm, ⟨26, _⟩ => ⟨S4096x4032, .f32⟩
  | .hbm, ⟨27, _⟩ => ⟨S4096x4096, .f32⟩
  | .hbm, ⟨28, _⟩ => ⟨S1x4, .f32⟩
  | .hbm, ⟨29, _⟩ => ⟨S4096x4, .f32⟩
  | .hbm, ⟨30, _⟩ => ⟨S4096x4, .f32⟩
  | .hbm, ⟨31, _⟩ => ⟨S_, .f32⟩
  | .hbm, ⟨32, _⟩ => ⟨S4, .f32⟩
  | .hbm, ⟨33, _⟩ => ⟨S4, .f32⟩
  | .hbm, ⟨34, _⟩ => ⟨S1x4, .f32⟩
  | .hbm, ⟨35, _⟩ => ⟨S4096x4, .f32⟩
  | .hbm, ⟨36, _⟩ => ⟨S4096x4, .f32⟩
  | .hbm, ⟨37, _⟩ => ⟨S4096x4, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S4x1024x4096, .f32⟩
  | .hbm, ⟨42, _⟩ => ⟨S1x1x4096, .f32⟩
  | .hbm, ⟨43, _⟩ => ⟨S4x1024x4096, .f32⟩
  | .hbm, ⟨44, _⟩ => ⟨S4x1024x4096, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_cst : Ref sig .tc := ⟨.hbm, 17, rfl⟩
abbrev main_call0_v0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_call1_cst : Ref sig .tc := ⟨.hbm, 31, rfl⟩
abbrev main_call1_v0 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩

abbrev nD : Nat := 1
abbrev τ : Topo := Topo.v7x

variable {F : FTy → Type} [FloatOps F]

class Facts₀ : Prop where
  bcast_S_S64 : S_.BroadcastsInDim S64 (![] : Fin 0 → Fin S64.rank)
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S4032_S1x4032_1 : S4032.BroadcastsInDim S1x4032 (![1] : Fin 1 → Fin S1x4032.rank)
  bcast_S1x4032_S4096x4032_0_1 : S1x4032.BroadcastsInDim S4096x4032 (![0, 1] : Fin 2 → Fin S4096x4032.rank)
  bcast_S4_S1x4_1 : S4.BroadcastsInDim S1x4 (![1] : Fin 1 → Fin S1x4.rank)
  bcast_S1x4_S4096x4_0_1 : S1x4.BroadcastsInDim S4096x4 (![0, 1] : Fin 2 → Fin S4096x4.rank)
  bcast_S_S4 : S_.BroadcastsInDim S4 (![] : Fin 0 → Fin S4.rank)
  bcast_S4096_S1x1x4096_2 : S4096.BroadcastsInDim S1x1x4096 (![2] : Fin 1 → Fin S1x1x4096.rank)
  bcast_S1x1x4096_S4x1024x4096_0_1_2 : S1x1x4096.BroadcastsInDim S4x1024x4096 (![0, 1, 2] : Fin 3 → Fin S4x1024x4096.rank)
  dot_S4096x64_S64x4096_S4096x4096_1_0_0_1_n_n_wf : DotDims.WF S4096x64 S64x4096 S4096x4096 [1] [0] [0] [1] [] []
  dot_S4096x4032_S4032x4096_S4096x4096_1_0_0_1_n_n_wf : DotDims.WF S4096x4032 S4032x4096 S4096x4096 [1] [0] [0] [1] [] []
  dot_S4096x4_S4x4_S4096x4_1_0_0_1_n_n_wf : DotDims.WF S4096x4 S4x4 S4096x4 [1] [0] [0] [1] [] []
  dot_S4096x4_S4x4096_S4096x4096_1_0_0_1_n_n_wf : DotDims.WF S4096x4 S4x4096 S4096x4096 [1] [0] [0] [1] [] []
  dot_S4x1024x4096_S4096x4096_S4x1024x4096_2_1_01_0_n_n_wf : DotDims.WF S4x1024x4096 S4096x4096 S4x1024x4096 [2] [1] [0, 1] [0] [] []

variable [Facts₀]

def dot_S4096x64_S64x4096_S4096x4096_1_0_0_1_n_n : DotDims S4096x64 S64x4096 S4096x4096 where
  lhsContracting := [1]
  rhsContracting := [0]
  lhsNonContracting := [0]
  rhsNonContracting := [1]
  lhsBatch := []
  rhsBatch := []
  wf := dot_S4096x64_S64x4096_S4096x4096_1_0_0_1_n_n_wf
def dot_S4096x4032_S4032x4096_S4096x4096_1_0_0_1_n_n : DotDims S4096x4032 S4032x4096 S4096x4096 where
  lhsContracting := [1]
  rhsContracting := [0]
  lhsNonContracting := [0]
  rhsNonContracting := [1]
  lhsBatch := []
  rhsBatch := []
  wf := dot_S4096x4032_S4032x4096_S4096x4096_1_0_0_1_n_n_wf
def dot_S4096x4_S4x4_S4096x4_1_0_0_1_n_n : DotDims S4096x4 S4x4 S4096x4 where
  lhsContracting := [1]
  rhsContracting := [0]
  lhsNonContracting := [0]
  rhsNonContracting := [1]
  lhsBatch := []
  rhsBatch := []
  wf := dot_S4096x4_S4x4_S4096x4_1_0_0_1_n_n_wf
def dot_S4096x4_S4x4096_S4096x4096_1_0_0_1_n_n : DotDims S4096x4 S4x4096 S4096x4096 where
  lhsContracting := [1]
  rhsContracting := [0]
  lhsNonContracting := [0]
  rhsNonContracting := [1]
  lhsBatch := []
  rhsBatch := []
  wf := dot_S4096x4_S4x4096_S4096x4096_1_0_0_1_n_n_wf
def dot_S4x1024x4096_S4096x4096_S4x1024x4096_2_1_01_0_n_n : DotDims S4x1024x4096 S4096x4096 S4x1024x4096 where
  lhsContracting := [2]
  rhsContracting := [1]
  lhsNonContracting := [0, 1]
  rhsNonContracting := [0]
  lhsBatch := []
  rhsBatch := []
  wf := dot_S4x1024x4096_S4096x4096_S4x1024x4096_2_1_01_0_n_n_wf

class Facts : Prop extends Facts₀ where

variable [Facts]
-- ==== Proof.WordSide.Sched.lean ====
/-
  The schedule of the two matrix-product kernels in closed form. Each kernel walks a grid (i, k) with k innermost;
  its accumulator is reset when k = 0, added to at every k, and written to the output block when k is the last
  index. Here: at which grid points each of the two conditions holds, where the output window is idle and where
  it is written back, and the names of the staging and scratch memrefs the body is called with.
-/
import proofs.«173439_j75874892251349_2_alg».proof.Proof.Gen.Kernel.Launch
import proofs.«173439_j75874892251349_2_alg».proof.Proof.Gen.Kernel.Skeleton
import proofs.«173439_j75874892251349_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## First kernel: grid 4 × 16, point t = 16 i + k -/

/-- k = 0, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- k = 15, as the body computes it. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from k = 15 the output block is neither stored into nor written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4224x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4224 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x4224 .f32 := Memref.whole cc0_scratch0
abbrev VS0 : View sig .tc .vmem S1024x4224 .f32 := scM0.view
abbrev VO0 : View sig .tc .vmem S1024x4224 .bf16 := (Memref.whole cc0_stg2_0 : Memref sig .tc .vmem S1024x4224 .bf16).view

/-! ## Second kernel: grid 8 × 11, point t = 11 i + k -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S512x384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x384 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x4096 .f32 := win1_3.stage (cfg1.slots t 3)
abbrev hs1_3 (t : Fin cfg1.N) : (ms1_3 t).IsWhole := hstage1_3 ((cfg1.slots t 3).cast nbuf1_3)
abbrev scM1 : Memref sig .tc .vmem S512x4096 .f32 := Memref.whole cc1_scratch0
abbrev VS1 : View sig .tc .vmem S512x4096 .f32 := scM1.view
abbrev VO1 : View sig .tc .vmem S512x4096 .f32 := (Memref.whole cc1_stg3_0 : Memref sig .tc .vmem S512x4096 .f32).view

end Cert.Kernel.Reg

end
-- ==== Proof.WordSide.Run0A.lean ====
/-
  The first kernel's body at a point with k = 0 (and k not the last): the accumulator is overwritten with zeros and
  then with zeros plus the product of the two input blocks; the output block is not touched. What the accumulator
  ends with is found by running the body symbolically: the list of stored pieces is the witness.
-/
import proofs.«173439_j75874892251349_2_alg».proof.Proof.WordSide.Sched

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : cond0_0 i) (hc1 : ¬cond0_1 i)
    (x0 : Vec F S1024x256 .bf16) (x1 : Vec F S4224x256 .bf16) :
    { LS0 : List (View.Piece (Elt F) S1024x4224 .f32) //
      ∀ (xi2 : Vec F S1024x4224 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Reg

end
-- ==== Proof.WordSide.Run0B.lean ====
/-
  The first kernel's body at a point with 0 < k < 15: the accumulator, holding what the point before left, gets the
  product of the two input blocks added; the output block is not touched.
-/
import proofs.«173439_j75874892251349_2_alg».proof.Proof.WordSide.Run0A

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : ¬cond0_1 i)
    (x0 : Vec F S1024x256 .bf16) (x1 : Vec F S4224x256 .bf16) (xs0 : Vec F S1024x4224 .f32) :
    { LS0 : List (View.Piece (Elt F) S1024x4224 .f32) //
      ∀ (xi2 : Vec F S1024x4224 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.Kernel.Reg

end
-- ==== Proof.WordSide.Run0C.lean ====
/-
  The first kernel's body at a point with k = 15: the accumulator gets the last product added, and its contents,
  narrowed to the output's format, are stored as the output block.
-/
import proofs.«173439_j75874892251349_2_alg».proof.Proof.WordSide.Run0B

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i)
    (x0 : Vec F S1024x256 .bf16) (x1 : Vec F S4224x256 .bf16) (xs0 : Vec F S1024x4224 .f32) :
    Σ' (L2 : List (View.Piece (Elt F) S1024x4224 .bf16)), { LS0 : List (View.Piece (Elt F) S1024x4224 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.Kernel.Reg

end
-- ==== Proof.WordSide.Acc0.lean ====
/-
  The first matrix product, point by point. The kernel walks the grid (i, k), k innermost. Its accumulator holds,
  after the point (i, k), the sum over k' ≤ k of the products of row block i of the left factor with column block k'
  of both factors; the output block i is written once, at k = 15, from the accumulator. This module states what the
  accumulator and the output's staging buffer hold after each point (by recursion on the point: the case k = 0
  starts afresh, the others continue from the point before), the invariant that carries the accumulator from one
  point to the next beside the buffers the kernel never touches, and the obligation of the body at every point.
-/
import proofs.«173439_j75874892251349_2_alg».proof.Proof.WordSide.Run0C

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The input blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not, whatever proof data has the
    region's arrays and leaves the inputs in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The scoped buffers: the accumulator, and the rest the kernel never touches -/

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- Every scoped buffer but the staging buffers and the accumulator, at some contents. -/
abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; try rfl

/-! ## What each case leaves -/

theorem scover0_A (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : cond0_0 i) (hc1 : ¬cond0_1 i) (x0 : Vec F S1024x256 .bf16) (x1 : Vec F S4224x256 .bf16) (y : S1024x4224.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024x4224.size (by sl_kernel_rfl) y
/-- The accumulator after a point with k = 0. -/
def sout0_A (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : cond0_0 i) (hc1 : ¬cond0_1 i) (x0 : Vec F S1024x256 .bf16) (x1 : Vec F S4224x256 .bf16) : Vec F S1024x4224 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : ¬cond0_1 i) (x0 : Vec F S1024x256 .bf16) (x1 : Vec F S4224x256 .bf16) (xs0 : Vec F S1024x4224 .f32) (y : S1024x4224.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x4224.size (by sl_kernel_rfl) y
/-- The accumulator after a point with 0 < k < 15, from what the point before left. -/
def sout0_B (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : ¬cond0_1 i) (x0 : Vec F S1024x256 .bf16) (x1 : Vec F S4224x256 .bf16) (xs0 : Vec F S1024x4224 .f32) : Vec F S1024x4224 .f32 :=
  VS0.read (Elt F) (VS0.writes (Elt F) VS0.junk (kernelRun0_B c i arg2 harg2 arg3 harg3 arg4 harg4 arg5 harg5 hc0 hc1 x0 x1 xs0).1)

theorem scover0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) (y : S1024x4224.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x4224.size (by sl_kernel_rfl) y
/-- The accumulator after a point with k = 15. -/
def sout0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) : Vec F S1024x4224 .f32 :=
  VS0.read (Elt F) (VS0.writes (Elt F) VS0.junk (kernelRun0_C c i arg2 harg2 arg3 harg3 arg4 harg4 arg5 harg5 hc0 hc1 x0 x1 xs0).2.1)
theorem cover0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) (y : S1024x4224.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x4224.size (by sl_kernel_rfl) y
/-- The output's staging buffer after a point with k = 15. -/
def out0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) : Vec F S1024x4224 .bf16 :=
  VO0.read (Elt F) (VO0.writes (Elt F) VO0.junk (kernelRun0_C c i arg2 harg2 arg3 harg3 arg4 harg4 arg5 harg5 hc0 hc1 x0 x1 xs0).1)

/-- What the output's staging buffer is said to hold at a point that does not store into it: never consulted. -/
def idleOut0 : Vec F S1024x4224 .bf16 := VO0.read (Elt F) VO0.junk

/-! ## The accumulation, by recursion on the point -/

/-- After the body at position `n`: the output's staging buffer and the accumulator. -/
def outsAt0 (c : Dev nD) : (n : ℕ) → n < cfg0.N → Vec F S1024x4224 .bf16 × Vec F S1024x4224 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h1 : (n + 1) % 16 = 15 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else if h0 : (n + 1) % 16 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_neg h1).trans ((dif_pos h0).trans rfl)

theorem outsAt0_B (c : Dev nD) (t : Fin cfg0.N) (h0 : ¬t.val % 16 = 0) (h1 : ¬t.val % 16 = 15) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans ((dif_neg h0).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant between points -/

/-- Before position `n`: at the first point every scoped buffer at anything; afterwards the accumulator at what the
    point before left, the untouched scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS0_castSucc V c t, PhiS0_pos V c _ _ hz]
    iintro ⟨⟨⟨HS0, Hrest⟩, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_C c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [outsAt0_A V c t h0 h1]
      unfold sout0_A; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := fun hz => h0 (by rw [hz])
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- Before the first point the invariant holds every scoped buffer and the generator register at anything. -/
theorem Phi0_first (c : Dev nD) : (dat0 V c).Φ 0 = Pipeline.ΦA spec0 c := rfl

/-- After the last point the invariant gives that back: the accumulator's contents are forgotten. -/
theorem Phi0_last (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, Hrest⟩, Hg⟩
  isplitl [HS0 Hrest]
  · isplitl [HS0]; · iexists _; iexact HS0
    iexact Hrest
  iexact Hg

end Cert.Kernel.Reg

end
-- ==== Proof.WordSide.Run1A.lean ====
/-
  The second kernel's body at a point with k = 0: the accumulator is overwritten with zeros and then with the product
  of the two input blocks; the bias block is held but not read, the output block is not touched.
-/
import proofs.«173439_j75874892251349_2_alg».proof.Proof.WordSide.Run0C

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : cond1_0 i) (hc1 : ¬cond1_1 i)
    (x0 : Vec F S512x384 .bf16) (x1 : Vec F S4096x384 .bf16) (x2 : Vec F S1x4096 .f32) :
    { LS0 : List (View.Piece (Elt F) S512x4096 .f32) //
      ∀ (xi3 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_bias_kernel i arg2 harg2 arg3 harg3 arg4 harg4 arg5 harg5 arg6 harg6) K } := by
  refine ⟨?_, fun xi3 E K => ?run⟩
  case run =>
    simp only [cc1__mm_bias_kernel_eq_skeleton]; unfold cc1__mm_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg

end
-- ==== Proof.WordSide.Run1B.lean ====
/-
  The second kernel's body at a point with 0 < k < 10: the accumulator gets the product of the two input blocks added.
-/
import proofs.«173439_j75874892251349_2_alg».proof.Proof.WordSide.Run1A

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : ¬cond1_1 i)
    (x0 : Vec F S512x384 .bf16) (x1 : Vec F S4096x384 .bf16) (x2 : Vec F S1x4096 .f32) (xs0 : Vec F S512x4096 .f32) :
    { LS0 : List (View.Piece (Elt F) S512x4096 .f32) //
      ∀ (xi3 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_bias_kernel i arg2 harg2 arg3 harg3 arg4 harg4 arg5 harg5 arg6 harg6) K } := by
  refine ⟨?_, fun xi3 E K => ?run⟩
  case run =>
    simp only [cc1__mm_bias_kernel_eq_skeleton]; unfold cc1__mm_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.Kernel.Reg

end
-- ==== Proof.WordSide.Run1C.lean ====
/-
  The second kernel's body at a point with k = 10: the accumulator gets the last product added, and its contents plus
  the bias row, repeated down the rows, are stored as the output block.
-/
import proofs.«173439_j75874892251349_2_alg».proof.Proof.WordSide.Run1B

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i)
    (x0 : Vec F S512x384 .bf16) (x1 : Vec F S4096x384 .bf16) (x2 : Vec F S1x4096 .f32) (xs0 : Vec F S512x4096 .f32) :
    Σ' (L3 : List (View.Piece (Elt F) S512x4096 .f32)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_bias_kernel i arg2 harg2 arg3 harg3 arg4 harg4 arg5 harg5 arg6 harg6) K } := by
  refine ⟨?_, ?_, fun E K => ?run⟩
  case run =>
    simp only [cc1__mm_bias_kernel_eq_skeleton]; unfold cc1__mm_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.Kernel.Reg

end
-- ==== Proof.WordSide.Acc1.lean ====
/-
  The second matrix product, point by point. The kernel walks the grid (i, k), k innermost. Its accumulator holds,
  after the point (i, k), the sum over k' ≤ k of the products of row block i of the first product with column block k'
  of both factors; the output block i is written once, at k = 10, as the accumulator plus the bias row. This module states what the
  accumulator and the output's staging buffer hold after each point (by recursion on the point: the case k = 0
  starts afresh, the others continue from the point before), the invariant that carries the accumulator from one
  point to the next beside the buffers the kernel never touches, and the obligation of the body at every point.
-/
import proofs.«173439_j75874892251349_2_alg».proof.Proof.WordSide.Run1C

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The input blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not, whatever proof data has the
    region's arrays and leaves the inputs in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The scoped buffers: the accumulator, and the rest the kernel never touches -/

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Every scoped buffer but the staging buffers and the accumulator, at some contents. -/
abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-! ## What each case leaves -/

theorem scover1_A (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : cond1_0 i) (hc1 : ¬cond1_1 i) (x0 : Vec F S512x384 .bf16) (x1 : Vec F S4096x384 .bf16) (x2 : Vec F S1x4096 .f32) (y : S512x4096.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S512x4096.size (by sl_kernel_rfl) y
/-- The accumulator after a point with k = 0. -/
def sout1_A (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : cond1_0 i) (hc1 : ¬cond1_1 i) (x0 : Vec F S512x384 .bf16) (x1 : Vec F S4096x384 .bf16) (x2 : Vec F S1x4096 .f32) : Vec F S512x4096 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : ¬cond1_1 i) (x0 : Vec F S512x384 .bf16) (x1 : Vec F S4096x384 .bf16) (x2 : Vec F S1x4096 .f32) (xs0 : Vec F S512x4096 .f32) (y : S512x4096.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S512x4096.size (by sl_kernel_rfl) y
/-- The accumulator after a point with 0 < k < 10, from what the point before left. -/
def sout1_B (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : ¬cond1_1 i) (x0 : Vec F S512x384 .bf16) (x1 : Vec F S4096x384 .bf16) (x2 : Vec F S1x4096 .f32) (xs0 : Vec F S512x4096 .f32) : Vec F S512x4096 .f32 :=
  VS1.read (Elt F) (VS1.writes (Elt F) VS1.junk (kernelRun1_B c i arg2 harg2 arg3 harg3 arg4 harg4 arg5 harg5 arg6 harg6 hc0 hc1 x0 x1 x2 xs0).1)

theorem scover1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) (y : S512x4096.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S512x4096.size (by sl_kernel_rfl) y
/-- The accumulator after a point with k = 10. -/
def sout1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) : Vec F S512x4096 .f32 :=
  VS1.read (Elt F) (VS1.writes (Elt F) VS1.junk (kernelRun1_C c i arg2 harg2 arg3 harg3 arg4 harg4 arg5 harg5 arg6 harg6 hc0 hc1 x0 x1 x2 xs0).2.1)
theorem cover1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) (y : S512x4096.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S512x4096.size (by sl_kernel_rfl) y
/-- The output's staging buffer after a point with k = 10. -/
def out1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) : Vec F S512x4096 .f32 :=
  VO1.read (Elt F) (VO1.writes (Elt F) VO1.junk (kernelRun1_C c i arg2 harg2 arg3 harg3 arg4 harg4 arg5 harg5 arg6 harg6 hc0 hc1 x0 x1 x2 xs0).1)

/-- What the output's staging buffer is said to hold at a point that does not store into it: never consulted. -/
def idleOut1 : Vec F S512x4096 .f32 := VO1.read (Elt F) VO1.junk

/-! ## The accumulation, by recursion on the point -/

/-- After the body at position `n`: the output's staging buffer and the accumulator. -/
def outsAt1 (c : Dev nD) : (n : ℕ) → n < cfg1.N → Vec F S512x4096 .f32 × Vec F S512x4096 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : (n + 1) % 11 = 10 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else if h0 : (n + 1) % 11 = 0 then
      (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 11 = 0) (h1 : ¬t.val % 11 = 10) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_neg h1).trans ((dif_pos h0).trans rfl)

theorem outsAt1_B (c : Dev nD) (t : Fin cfg1.N) (h0 : ¬t.val % 11 = 0) (h1 : ¬t.val % 11 = 10) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans ((dif_neg h0).trans rfl)

theorem outsAt1_C (c : Dev nD) (t : Fin cfg1.N) (h0 : ¬t.val % 11 = 0) (h1 : t.val % 11 = 10) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant between points -/

/-- Before position `n`: at the first point every scoped buffer at anything; afterwards the accumulator at what the
    point before left, the untouched scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 88 := lt_of_lt_of_eq t.isLt (show cfg1.N = 88 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 11 = 10
  · have h0 : ¬t.val % 11 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C sout1_C; (try dsimp only)
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩⟩
    iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 11 = 0
    · rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun hz => h0 (by rw [hz])
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- Before the first point the invariant holds every scoped buffer and the generator register at anything. -/
theorem Phi1_first (c : Dev nD) : (dat1 V c).Φ 0 = Pipeline.ΦA spec1 c := rfl

/-- After the last point the invariant gives that back: the accumulator's contents are forgotten. -/
theorem Phi1_last (c : Dev nD) : (dat1 V c).Φ (Fin.last cfg1.N) ⊢ Pipeline.ΦA spec1 c := by
  have hne : (Fin.last cfg1.N).val ≠ 0 := by rw [Fin.val_last]; have : cfg1.N = 88 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hrest⟩, Hg⟩
  isplitl [HS0 Hrest]
  · isplitl [HS0]; · iexists _; iexact HS0
    iexact Hrest
  iexact Hg

end Cert.Kernel.Reg

end
-- ==== Proof.WordSide.Regs.lean ====
/-
  The whole program as a sequence of eight segments: five stretches of host operations that build the two stacked
  factors, the flattened input and the bias row; the first matrix product; the second; and the final reshape. Between
  segments every unscoped buffer of the core is held at named contents: the host stretches' by their operations, a
  product's output array at what its write-backs leave. From the one run over the segments: every weakly fair
  execution terminates, and every unscoped buffer ends at the last boundary's contents — which gives both that the
  arguments end as launched and what the result buffer holds.
-/
import proofs.«173439_j75874892251349_2_alg».proof.Proof.WordSide.Acc0
import proofs.«173439_j75874892251349_2_alg».proof.Proof.WordSide.Acc1
import proofs.«173439_j75874892251349_2_alg».proof.Proof.Gen.Kernel.Regions

set_option maxRecDepth 16384

noncomputable section

namespace Cert.Kernel.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries around the two products -/

/-- What the first product finds: the contents after the five host stretches, read at the TensorCore's references. -/
abbrev Vr5 : (c : Dev nD) → (b : Ref sig .tc) → Buf (Elt F) ((c : Thread nD τ).loc b) := fun c b => V5 m c b

/-- At region 0's exit: its arrays at what the pipeline leaves (the inputs as entered, the output's write-backs
    folded), every other buffer as entered. -/
def W6 (c : Dev nD) : Valuation τ sig (Elt F) :=
  Pipeline.withArrays spec0 c (V5 m c) fun w => (dat0 (Vr5 m) c).arrAt w cfg0.N
theorem W6_arr (c : Dev nD) (w : Fin cfg0.W) :
    W6 m c (Proc.devRef .tc (Pipeline.arrRef spec0 w)) = (dat0 (Vr5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
/-- The same read at the TensorCore's references. -/
abbrev Vr6 : (c : Dev nD) → (b : Ref sig .tc) → Buf (Elt F) ((c : Thread nD τ).loc b) := fun c b => W6 m c b
theorem hF0 (c : Dev nD) (w : Fin cfg0.W) : (dat0 (Vr5 m) c).arrAt w cfg0.N = Vr6 m c (Pipeline.arrRef spec0 w) :=
  (W6_arr m c w).symm
theorem hrest0 (c : Dev nD) : ∀ b, b ∉ Finset.univ.image (Pipeline.arrRef spec0) → Vr6 m c b = Vr5 m c b :=
  fun b hb => W6_of_ne m c b fun w e => hb (Finset.mem_image.mpr ⟨w, Finset.mem_univ _, e⟩)

/-- At region 1's exit: its arrays at what the pipeline leaves (the inputs as entered, the output's write-backs
    folded), every other buffer as entered. -/
def W7 (c : Dev nD) : Valuation τ sig (Elt F) :=
  Pipeline.withArrays spec1 c (W6 m c) fun w => (dat1 (Vr6 m) c).arrAt w cfg1.N
theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the TensorCore's references. -/
abbrev Vr7 : (c : Dev nD) → (b : Ref sig .tc) → Buf (Elt F) ((c : Thread nD τ).loc b) := fun c b => W7 m c b
theorem hF1 (c : Dev nD) (w : Fin cfg1.W) : (dat1 (Vr6 m) c).arrAt w cfg1.N = Vr7 m c (Pipeline.arrRef spec1 w) :=
  (W7_arr m c w).symm
theorem hrest1 (c : Dev nD) : ∀ b, b ∉ Finset.univ.image (Pipeline.arrRef spec1) → Vr7 m c b = Vr6 m c b :=
  fun b hb => W7_of_ne m c b fun w e => hb (Finset.mem_image.mpr ⟨w, Finset.mem_univ _, e⟩)

/-- After the final reshape. -/
abbrev W8 (c : Dev nD) : Valuation τ sig (Elt F) := StableHlo.after hostOps2 (W7 m c)

/-! ## The arguments end as launched: no host operation writes one and no product has one among its arrays -/

theorem W8_main_arg0 (c : Dev nD) : W8 m c (Proc.devRef .tc main_arg0) = m ((c : Thread nD τ).loc main_arg0) :=
  (StableHlo.after_of_writes_sub hostOps2 _ hostOps2_writes (by decide : main_arg0 ∉ hostOps2_W)).trans <|
  (W7_of_ne m c main_arg0 (by decide)).trans <| (W6_of_ne m c main_arg0 (by decide)).trans <|
  (V5_of m c main_arg0 (by decide)).trans <| (V4_of m c main_arg0 (by decide)).trans <| (V3_of m c main_arg0 (by decide)).trans <|
  (V2_of m c main_arg0 (by decide)).trans <| (V1_of m c main_arg0 (by decide)).trans rfl
theorem W8_main_arg1 (c : Dev nD) : W8 m c (Proc.devRef .tc main_arg1) = m ((c : Thread nD τ).loc main_arg1) :=
  (StableHlo.after_of_writes_sub hostOps2 _ hostOps2_writes (by decide : main_arg1 ∉ hostOps2_W)).trans <|
  (W7_of_ne m c main_arg1 (by decide)).trans <| (W6_of_ne m c main_arg1 (by decide)).trans <|
  (V5_of m c main_arg1 (by decide)).trans <| (V4_of m c main_arg1 (by decide)).trans <| (V3_of m c main_arg1 (by decide)).trans <|
  (V2_of m c main_arg1 (by decide)).trans <| (V1_of m c main_arg1 (by decide)).trans rfl
theorem W8_main_arg2 (c : Dev nD) : W8 m c (Proc.devRef .tc main_arg2) = m ((c : Thread nD τ).loc main_arg2) :=
  (StableHlo.after_of_writes_sub hostOps2 _ hostOps2_writes (by decide : main_arg2 ∉ hostOps2_W)).trans <|
  (W7_of_ne m c main_arg2 (by decide)).trans <| (W6_of_ne m c main_arg2 (by decide)).trans <|
  (V5_of m c main_arg2 (by decide)).trans <| (V4_of m c main_arg2 (by decide)).trans <| (V3_of m c main_arg2 (by decide)).trans <|
  (V2_of m c main_arg2 (by decide)).trans <| (V1_of m c main_arg2 (by decide)).trans rfl
theorem W8_main_arg3 (c : Dev nD) : W8 m c (Proc.devRef .tc main_arg3) = m ((c : Thread nD τ).loc main_arg3) :=
  (StableHlo.after_of_writes_sub hostOps2 _ hostOps2_writes (by decide : main_arg3 ∉ hostOps2_W)).trans <|
  (W7_of_ne m c main_arg3 (by decide)).trans <| (W6_of_ne m c main_arg3 (by decide)).trans <|
  (V5_of m c main_arg3 (by decide)).trans <| (V4_of m c main_arg3 (by decide)).trans <| (V3_of m c main_arg3 (by decide)).trans <|
  (V2_of m c main_arg3 (by decide)).trans <| (V1_of m c main_arg3 (by decide)).trans rfl
theorem W8_main_arg4 (c : Dev nD) : W8 m c (Proc.devRef .tc main_arg4) = m ((c : Thread nD τ).loc main_arg4) :=
  (StableHlo.after_of_writes_sub hostOps2 _ hostOps2_writes (by decide : main_arg4 ∉ hostOps2_W)).trans <|
  (W7_of_ne m c main_arg4 (by decide)).trans <| (W6_of_ne m c main_arg4 (by decide)).trans <|
  (V5_of m c main_arg4 (by decide)).trans <| (V4_of m c main_arg4 (by decide)).trans <| (V3_of m c main_arg4 (by decide)).trans <|
  (V2_of m c main_arg4 (by decide)).trans <| (V1_of m c main_arg4 (by decide)).trans rfl
theorem W8_main_arg5 (c : Dev nD) : W8 m c (Proc.devRef .tc main_arg5) = m ((c : Thread nD τ).loc main_arg5) :=
  (StableHlo.after_of_writes_sub hostOps2 _ hostOps2_writes (by decide : main_arg5 ∉ hostOps2_W)).trans <|
  (W7_of_ne m c main_arg5 (by decide)).trans <| (W6_of_ne m c main_arg5 (by decide)).trans <|
  (V5_of m c main_arg5 (by decide)).trans <| (V4_of m c main_arg5 (by decide)).trans <| (V3_of m c main_arg5 (by decide)).trans <|
  (V2_of m c main_arg5 (by decide)).trans <| (V1_of m c main_arg5 (by decide)).trans rfl
theorem W8_main_arg6 (c : Dev nD) : W8 m c (Proc.devRef .tc main_arg6) = m ((c : Thread nD τ).loc main_arg6) :=
  (StableHlo.after_of_writes_sub hostOps2 _ hostOps2_writes (by decide : main_arg6 ∉ hostOps2_W)).trans <|
  (W7_of_ne m c main_arg6 (by decide)).trans <| (W6_of_ne m c main_arg6 (by decide)).trans <|
  (V5_of m c main_arg6 (by decide)).trans <| (V4_of m c main_arg6 (by decide)).trans <| (V3_of m c main_arg6 (by decide)).trans <|
  (V2_of m c main_arg6 (by decide)).trans <| (V1_of m c main_arg6 (by decide)).trans rfl
theorem W8_main_arg7 (c : Dev nD) : W8 m c (Proc.devRef .tc main_arg7) = m ((c : Thread nD τ).loc main_arg7) :=
  (StableHlo.after_of_writes_sub hostOps2 _ hostOps2_writes (by decide : main_arg7 ∉ hostOps2_W)).trans <|
  (W7_of_ne m c main_arg7 (by decide)).trans <| (W6_of_ne m c main_arg7 (by decide)).trans <|
  (V5_of m c main_arg7 (by decide)).trans <| (V4_of m c main_arg7 (by decide)).trans <| (V3_of m c main_arg7 (by decide)).trans <|
  (V2_of m c main_arg7 (by decide)).trans <| (V1_of m c main_arg7 (by decide)).trans rfl
theorem W8_main_arg8 (c : Dev nD) : W8 m c (Proc.devRef .tc main_arg8) = m ((c : Thread nD τ).loc main_arg8) :=
  (StableHlo.after_of_writes_sub hostOps2 _ hostOps2_writes (by decide : main_arg8 ∉ hostOps2_W)).trans <|
  (W7_of_ne m c main_arg8 (by decide)).trans <| (W6_of_ne m c main_arg8 (by decide)).trans <|
  (V5_of m c main_arg8 (by decide)).trans <| (V4_of m c main_arg8 (by decide)).trans <| (V3_of m c main_arg8 (by decide)).trans <|
  (V2_of m c main_arg8 (by decide)).trans <| (V1_of m c main_arg8 (by decide)).trans rfl
theorem W8_main_arg9 (c : Dev nD) : W8 m c (Proc.devRef .tc main_arg9) = m ((c : Thread nD τ).loc main_arg9) :=
  (StableHlo.after_of_writes_sub hostOps2 _ hostOps2_writes (by decide : main_arg9 ∉ hostOps2_W)).trans <|
  (W7_of_ne m c main_arg9 (by decide)).trans <| (W6_of_ne m c main_arg9 (by decide)).trans <|
  (V5_of m c main_arg9 (by decide)).trans <| (V4_of m c main_arg9 (by decide)).trans <| (V3_of m c main_arg9 (by decide)).trans <|
  (V2_of m c main_arg9 (by decide)).trans <| (V1_of m c main_arg9 (by decide)).trans rfl
theorem W8_main_arg10 (c : Dev nD) : W8 m c (Proc.devRef .tc main_arg10) = m ((c : Thread nD τ).loc main_arg10) :=
  (StableHlo.after_of_writes_sub hostOps2 _ hostOps2_writes (by decide : main_arg10 ∉ hostOps2_W)).trans <|
  (W7_of_ne m c main_arg10 (by decide)).trans <| (W6_of_ne m c main_arg10 (by decide)).trans <|
  (V5_of m c main_arg10 (by decide)).trans <| (V4_of m c main_arg10 (by decide)).trans <| (V3_of m c main_arg10 (by decide)).trans <|
  (V2_of m c main_arg10 (by decide)).trans <| (V1_of m c main_arg10 (by decide)).trans rfl
theorem W8_main_arg11 (c : Dev nD) : W8 m c (Proc.devRef .tc main_arg11) = m ((c : Thread nD τ).loc main_arg11) :=
  (StableHlo.after_of_writes_sub hostOps2 _ hostOps2_writes (by decide : main_arg11 ∉ hostOps2_W)).trans <|
  (W7_of_ne m c main_arg11 (by decide)).trans <| (W6_of_ne m c main_arg11 (by decide)).trans <|
  (V5_of m c main_arg11 (by decide)).trans <| (V4_of m c main_arg11 (by decide)).trans <| (V3_of m c main_arg11 (by decide)).trans <|
  (V2_of m c main_arg11 (by decide)).trans <| (V1_of m c main_arg11 (by decide)).trans rfl
theorem W8_main_arg12 (c : Dev nD) : W8 m c (Proc.devRef .tc main_arg12) = m ((c : Thread nD τ).loc main_arg12) :=
  (StableHlo.after_of_writes_sub hostOps2 _ hostOps2_writes (by decide : main_arg12 ∉ hostOps2_W)).trans <|
  (W7_of_ne m c main_arg12 (by decide)).trans <| (W6_of_ne m c main_arg12 (by decide)).trans <|
  (V5_of m c main_arg12 (by decide)).trans <| (V4_of m c main_arg12 (by decide)).trans <| (V3_of m c main_arg12 (by decide)).trans <|
  (V2_of m c main_arg12 (by decide)).trans <| (V1_of m c main_arg12 (by decide)).trans rfl
theorem W8_main_arg13 (c : Dev nD) : W8 m c (Proc.devRef .tc main_arg13) = m ((c : Thread nD τ).loc main_arg13) :=
  (StableHlo.after_of_writes_sub hostOps2 _ hostOps2_writes (by decide : main_arg13 ∉ hostOps2_W)).trans <|
  (W7_of_ne m c main_arg13 (by decide)).trans <| (W6_of_ne m c main_arg13 (by decide)).trans <|
  (V5_of m c main_arg13 (by decide)).trans <| (V4_of m c main_arg13 (by decide)).trans <| (V3_of m c main_arg13 (by decide)).trans <|
  (V2_of m c main_arg13 (by decide)).trans <| (V1_of m c main_arg13 (by decide)).trans rfl
theorem W8_main_arg14 (c : Dev nD) : W8 m c (Proc.devRef .tc main_arg14) = m ((c : Thread nD τ).loc main_arg14) :=
  (StableHlo.after_of_writes_sub hostOps2 _ hostOps2_writes (by decide : main_arg14 ∉ hostOps2_W)).trans <|
  (W7_of_ne m c main_arg14 (by decide)).trans <| (W6_of_ne m c main_arg14 (by decide)).trans <|
  (V5_of m c main_arg14 (by decide)).trans <| (V4_of m c main_arg14 (by decide)).trans <| (V3_of m c main_arg14 (by decide)).trans <|
  (V2_of m c main_arg14 (by decide)).trans <| (V1_of m c main_arg14 (by decide)).trans rfl

/-! ## The proof data family and the thread state -/

/-- Each product's proof data at its region's entry contents: a literal match on the pipeline's number. -/
def pdats : (p : Fin 2) → (c : Dev nD) → Dat τ (Elt F) Unit ℕ (UR sig nD τ) ℕ (Pipeline.pin (pcfgs (F := F)) adm p) c
  | ⟨0, _⟩ => fun c => dat0 (Vr5 m) c
  | ⟨1, _⟩ => fun c => dat1 (Vr6 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m c) ∗ ∃ r, prngReg c r)

/-! ## The two products as segments -/

set_option backward.isDefEq.respectTransparency.types false in
/-- Region 0 over the thread state: entered from every unscoped buffer at the contents before it, left with its
    arrays at what the write-backs leave and every other buffer as entered; the generator register into the
    invariant and out; the accumulator's contents forgotten at the exit; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vr5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (Vr5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr5 m c) (Vr6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what the write-backs leave and every other buffer as entered; the generator register into the
    invariant and out; the accumulator's contents forgotten at the exit; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (Vr6 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (Vr7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .region (reg1 m),
    .host (hseg hostOps2 hostOps2_sub hostOps2_fresh (W7 m)) ]
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m c) ∗ R c) : sProp 𝕄)
          ⊢ iprop(Tₙ m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c),
    (h c _ (mem_uc main_arg13 (by decide))).trans (W8_main_arg13 m c),
    (h c _ (mem_uc main_arg14 (by decide))).trans (W8_main_arg14 m c)⟩) (run_all m ρ)

/-- THE RESULT: beside the frame, the result buffer ends at the last boundary's contents. -/
theorem run_result : θ_run defs (onTc (τ := τ) (main (F := F))) ⟨m, fun _ => 0, ρ⟩ (fun r => ∀ c : Dev nD,
      r.2.mem ((c.tc : Thread nD τ).loc main_v32) = W8 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v32 (by decide)), (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c),
    (h c _ (mem_uc main_arg13 (by decide))).trans (W8_main_arg13 m c),
    (h c _ (mem_uc main_arg14 (by decide))).trans (W8_main_arg14 m c)⟩) (run_all m ρ)

end Cert.Kernel.Reg

end
-- ==== Proof.IdealSide.Sched.lean ====
/-
  The schedule of the two matrix-product kernels in closed form. Each kernel walks a grid (i, k) with k innermost;
  its accumulator is reset when k = 0, added to at every k, and written to the output block when k is the last
  index. Here: at which grid points each of the two conditions holds, where the output window is idle and where
  it is written back, and the names of the staging and scratch memrefs the body is called with.
-/
import proofs.«173439_j75874892251349_2_alg».proof.Proof.Gen.KernelIdeal.Launch
import proofs.«173439_j75874892251349_2_alg».proof.Proof.Gen.KernelIdeal.Skeleton
import proofs.«173439_j75874892251349_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## First kernel: grid 4 × 16, point t = 16 i + k -/

/-- k = 0, as the body computes it. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 16 = 0 :=
  (by decide +kernel : ∀ t : Fin grid0.N, cond0_0 (grid0.coords t) ↔ t.val % 16 = 0)
/-- k = 15, as the body computes it. -/
abbrev cond0_1 (i : grid0.Coords) : Prop := k0_cond2 i = 1#1
theorem hcond0_1 : ∀ t : Fin cfg0.N, cond0_1 (grid0.coords t) ↔ t.val % 16 = 15 :=
  (by decide +kernel : ∀ t : Fin grid0.N, cond0_1 (grid0.coords t) ↔ t.val % 16 = 15)

theorem liveAt0_0 : ∀ t : Fin cfg0.N, cfg0.idle 0 (grid0.coords t) = false := by decide +kernel
theorem liveAt0_1 : ∀ t : Fin cfg0.N, cfg0.idle 1 (grid0.coords t) = false := by decide +kernel
/-- Away from k = 15 the output block is neither stored into nor written back. -/
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

abbrev ms0_0 (t : Fin cfg0.N) : Memref sig .tc .vmem S1024x256 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S4224x256 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x4224 .bf16 := win0_2.stage (cfg0.slots t 2)
abbrev hs0_2 (t : Fin cfg0.N) : (ms0_2 t).IsWhole := hstage0_2 ((cfg0.slots t 2).cast nbuf0_2)
/-- The accumulator: a whole scoped buffer of the kernel's own. -/
abbrev scM0 : Memref sig .tc .vmem S1024x4224 .f32 := Memref.whole cc0_scratch0
abbrev VS0 : View sig .tc .vmem S1024x4224 .f32 := scM0.view
abbrev VO0 : View sig .tc .vmem S1024x4224 .bf16 := (Memref.whole cc0_stg2_0 : Memref sig .tc .vmem S1024x4224 .bf16).view

/-! ## Second kernel: grid 8 × 11, point t = 11 i + k -/

abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 11 = 0 :=
  (by decide +kernel : ∀ t : Fin grid1.N, cond1_0 (grid1.coords t) ↔ t.val % 11 = 0)
abbrev cond1_1 (i : grid1.Coords) : Prop := k1_cond2 i = 1#1
theorem hcond1_1 : ∀ t : Fin cfg1.N, cond1_1 (grid1.coords t) ↔ t.val % 11 = 10 :=
  (by decide +kernel : ∀ t : Fin grid1.N, cond1_1 (grid1.coords t) ↔ t.val % 11 = 10)

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
theorem liveAt1_3 : ∀ t : Fin cfg1.N, cond1_1 (grid1.coords t) → cfg1.idle 3 (grid1.coords t) = false := by decide +kernel

abbrev ms1_0 (t : Fin cfg1.N) : Memref sig .tc .vmem S512x384 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S4096x384 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S512x4096 .f32 := win1_3.stage (cfg1.slots t 3)
abbrev hs1_3 (t : Fin cfg1.N) : (ms1_3 t).IsWhole := hstage1_3 ((cfg1.slots t 3).cast nbuf1_3)
abbrev scM1 : Memref sig .tc .vmem S512x4096 .f32 := Memref.whole cc1_scratch0
abbrev VS1 : View sig .tc .vmem S512x4096 .f32 := scM1.view
abbrev VO1 : View sig .tc .vmem S512x4096 .f32 := (Memref.whole cc1_stg3_0 : Memref sig .tc .vmem S512x4096 .f32).view

end Cert.KernelIdeal.Reg

end
-- ==== Proof.IdealSide.Run0A.lean ====
/-
  The first kernel's body at a point with k = 0 (and k not the last): the accumulator is overwritten with zeros and
  then with zeros plus the product of the two input blocks; the output block is not touched. What the accumulator
  ends with is found by running the body symbolically: the list of stored pieces is the witness.
-/
import proofs.«173439_j75874892251349_2_alg».proof.Proof.IdealSide.Sched

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_A (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : cond0_0 i) (hc1 : ¬cond0_1 i)
    (x0 : Vec F S1024x256 .bf16) (x1 : Vec F S4224x256 .bf16) :
    { LS0 : List (View.Piece (Elt F) S1024x4224 .f32) //
      ∀ (xi2 : Vec F S1024x4224 .bf16) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%ds0, %fs0, -, HS0⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Reg

end
-- ==== Proof.IdealSide.Run0B.lean ====
/-
  The first kernel's body at a point with 0 < k < 15: the accumulator, holding what the point before left, gets the
  product of the two input blocks added; the output block is not touched.
-/
import proofs.«173439_j75874892251349_2_alg».proof.Proof.IdealSide.Run0A

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_B (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : ¬cond0_1 i)
    (x0 : Vec F S1024x256 .bf16) (x1 : Vec F S4224x256 .bf16) (xs0 : Vec F S1024x4224 .f32) :
    { LS0 : List (View.Piece (Elt F) S1024x4224 .f32) //
      ∀ (xi2 : Vec F S1024x4224 .bf16) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, fun xi2 E K => ?run⟩
  case run =>
    simp only [cc0__mm_kernel_eq_skeleton]; unfold cc0__mm_kernel_skel
    unfold owns
    iintro ⟨⟨%f0, %hf0, H0⟩, ⟨%f1, %hf1, H1⟩, ⟨%f2, %hf2, H2⟩, ⟨%fs0, %hfs0, HS0⟩, Hk⟩
    obtain rfl := harg2.eq_unread hf0; obtain rfl := harg3.eq_unread hf1; obtain rfl := harg4.eq_unread hf2; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact HS0

end Cert.KernelIdeal.Reg

end
-- ==== Proof.IdealSide.Run0C.lean ====
/-
  The first kernel's body at a point with k = 15: the accumulator gets the last product added, and its contents,
  narrowed to the output's format, are stored as the output block.
-/
import proofs.«173439_j75874892251349_2_alg».proof.Proof.IdealSide.Run0B

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i)
    (x0 : Vec F S1024x256 .bf16) (x1 : Vec F S4224x256 .bf16) (xs0 : Vec F S1024x4224 .f32) :
    Σ' (L2 : List (View.Piece (Elt F) S1024x4224 .bf16)), { LS0 : List (View.Piece (Elt F) S1024x4224 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0)) -∗ K ⟨⟩))
          ⊢ wp frame (wpE (defs₀ (F := F)) Variants.none c none) E (cc0__mm_kernel i arg2 harg2 arg3 harg3 arg4 harg4 arg5 harg5) K } := by
  refine ⟨?_, ?_, fun E K => ?run⟩
  case run =>
    simp only [cc0__mm_kernel_eq_skeleton]; unfold cc0__mm_kernel_skel
    unfold owns
    iintro ⟨⟨%f0, %hf0, H0⟩, ⟨%f1, %hf1, H1⟩, ⟨%d2, %f2, -, H2⟩, ⟨%fs0, %hfs0, HS0⟩, Hk⟩
    obtain rfl := harg2.eq_unread hf0; obtain rfl := harg3.eq_unread hf1; obtain rfl := harg5.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS0

end Cert.KernelIdeal.Reg

end
-- ==== Proof.IdealSide.Acc0.lean ====
/-
  The first matrix product, point by point. The kernel walks the grid (i, k), k innermost. Its accumulator holds,
  after the point (i, k), the sum over k' ≤ k of the products of row block i of the left factor with column block k'
  of both factors; the output block i is written once, at k = 15, from the accumulator. This module states what the
  accumulator and the output's staging buffer hold after each point (by recursion on the point: the case k = 0
  starts afresh, the others continue from the point before), the invariant that carries the accumulator from one
  point to the next beside the buffers the kernel never touches, and the obligation of the body at every point.
-/
import proofs.«173439_j75874892251349_2_alg».proof.Proof.IdealSide.Run0C

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The input blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input's staging buffer holds its block at every point, fetched there or not, whatever proof data has the
    region's arrays and leaves the inputs in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The scoped buffers: the accumulator, and the rest the kernel never touches -/

theorem scopedRest0_split (c : Dev nD) :
    (Pipeline.scopedRest (Ix := Unit) (Name := ℕ) (U := UR sig nD τ) (Lvl := ℕ) (Val := Elt F) spec0 c : sProp 𝕄)
      = iprop((∃ f : Buf (Elt F) ((c : Thread nD τ).loc cc0_scratch0), ((c : Thread nD τ).loc cc0_scratch0) ↦{fullShare} f)
          ∗ Pipeline.scopedRestBut (Ix := Unit) (Name := ℕ) (U := UR sig nD τ) (Lvl := ℕ) (Val := Elt F) spec0 c [cc0_scratch0]) :=
  Pipeline.scopedRest_split_of_list spec0 c [cc0_scratch0] (by decide) (by decide)

/-- Every scoped buffer but the staging buffers and the accumulator, at some contents. -/
abbrev rest0 (c : Dev nD) : sProp 𝕄 :=
  Pipeline.scopedRestBut (Ix := Unit) (Name := ℕ) (U := UR sig nD τ) (Lvl := ℕ) (Val := Elt F) spec0 c [cc0_scratch0]

theorem PhiA0_eq (c : Dev nD) :
    (Pipeline.ΦA spec0 c : sProp 𝕄)
      = iprop(iprop((∃ d, owns (c : Thread nD τ) scM0 fullShare d) ∗ rest0 c) ∗ (∃ r, prngReg c r)) := by
  unfold Pipeline.ΦA; rw [scopedRest0_split]; simp only [scM0, owns_whole]; try rfl

/-! ## What each case leaves -/

theorem scover0_A (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : cond0_0 i) (hc1 : ¬cond0_1 i) (x0 : Vec F S1024x256 .bf16) (x1 : Vec F S4224x256 .bf16) (y : S1024x4224.Idx) :
    ∃ pc ∈ (kernelRun0_A c i arg2 harg2 arg3 harg3 arg4 harg4 arg5 harg5 hc0 hc1 x0 x1).1, y ∈ pc.1.set :=
  View.cover_of_tiledL (kernelRun0_A c i arg2 harg2 arg3 harg3 arg4 harg4 arg5 harg5 hc0 hc1 x0 x1).1 S1024x4224.size (by sl_kernel_rfl) y
/-- The accumulator after a point with k = 0. -/
def sout0_A (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : cond0_0 i) (hc1 : ¬cond0_1 i) (x0 : Vec F S1024x256 .bf16) (x1 : Vec F S4224x256 .bf16) : Vec F S1024x4224 .f32 :=
  VS0.read (Elt F) (VS0.writes (Elt F) VS0.junk (kernelRun0_A c i arg2 harg2 arg3 harg3 arg4 harg4 arg5 harg5 hc0 hc1 x0 x1).1)

theorem scover0_B (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : ¬cond0_1 i) (x0 : Vec F S1024x256 .bf16) (x1 : Vec F S4224x256 .bf16) (xs0 : Vec F S1024x4224 .f32) (y : S1024x4224.Idx) :
    ∃ pc ∈ (kernelRun0_B c i arg2 harg2 arg3 harg3 arg4 harg4 arg5 harg5 hc0 hc1 x0 x1 xs0).1, y ∈ pc.1.set :=
  View.cover_of_tiledL (kernelRun0_B c i arg2 harg2 arg3 harg3 arg4 harg4 arg5 harg5 hc0 hc1 x0 x1 xs0).1 S1024x4224.size (by sl_kernel_rfl) y
/-- The accumulator after a point with 0 < k < 15, from what the point before left. -/
def sout0_B (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : ¬cond0_1 i) (x0 : Vec F S1024x256 .bf16) (x1 : Vec F S4224x256 .bf16) (xs0 : Vec F S1024x4224 .f32) : Vec F S1024x4224 .f32 :=
  VS0.read (Elt F) (VS0.writes (Elt F) VS0.junk (kernelRun0_B c i arg2 harg2 arg3 harg3 arg4 harg4 arg5 harg5 hc0 hc1 x0 x1 xs0).1)

theorem scover0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) (y : S1024x4224.Idx) :
    ∃ pc ∈ (kernelRun0_C c i arg2 harg2 arg3 harg3 arg4 harg4 arg5 harg5 hc0 hc1 x0 x1 xs0).2.1, y ∈ pc.1.set :=
  View.cover_of_tiledL (kernelRun0_C c i arg2 harg2 arg3 harg3 arg4 harg4 arg5 harg5 hc0 hc1 x0 x1 xs0).2.1 S1024x4224.size (by sl_kernel_rfl) y
/-- The accumulator after a point with k = 15. -/
def sout0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) : Vec F S1024x4224 .f32 :=
  VS0.read (Elt F) (VS0.writes (Elt F) VS0.junk (kernelRun0_C c i arg2 harg2 arg3 harg3 arg4 harg4 arg5 harg5 hc0 hc1 x0 x1 xs0).2.1)
theorem cover0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) (y : S1024x4224.Idx) :
    ∃ pc ∈ (kernelRun0_C c i arg2 harg2 arg3 harg3 arg4 harg4 arg5 harg5 hc0 hc1 x0 x1 xs0).1, y ∈ pc.1.set :=
  View.cover_of_tiledL (kernelRun0_C c i arg2 harg2 arg3 harg3 arg4 harg4 arg5 harg5 hc0 hc1 x0 x1 xs0).1 S1024x4224.size (by sl_kernel_rfl) y
/-- The output's staging buffer after a point with k = 15. -/
def out0_C (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) : Vec F S1024x4224 .bf16 :=
  VO0.read (Elt F) (VO0.writes (Elt F) VO0.junk (kernelRun0_C c i arg2 harg2 arg3 harg3 arg4 harg4 arg5 harg5 hc0 hc1 x0 x1 xs0).1)

/-- What the output's staging buffer is said to hold at a point that does not store into it: never consulted. -/
def idleOut0 : Vec F S1024x4224 .bf16 := VO0.read (Elt F) VO0.junk

/-! ## The accumulation, by recursion on the point -/

/-- After the body at position `n`: the output's staging buffer and the accumulator. -/
def outsAt0 (c : Dev nD) : (n : ℕ) → n < cfg0.N → Vec F S1024x4224 .bf16 × Vec F S1024x4224 .f32
  | 0, hn => (idleOut0, sout0_A c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _) ((hcond0_0 ⟨0, hn⟩).mpr (Nat.zero_mod _)) (fun h => (fun h => by (try dsimp only at h); omega) ((hcond0_1 ⟨0, hn⟩).mp h)) (iblk0 V c 0 ⟨0, hn⟩) (iblk0 V c 1 ⟨0, hn⟩))
  | n + 1, hn =>
    if h1 : (n + 1) % 16 = 15 then
      (out0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2,
       sout0_C c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => (fun h => by (try dsimp only at h); omega) ((hcond0_0 ⟨n + 1, hn⟩).mp h)) ((hcond0_1 ⟨n + 1, hn⟩).mpr h1) (iblk0 V c 0 ⟨n + 1, hn⟩) (iblk0 V c 1 ⟨n + 1, hn⟩) (outsAt0 c n (Nat.lt_of_succ_lt hn)).2)
    else if h0 : (n + 1) % 16 = 0 then
      (idleOut0, sout0_A c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) ((hcond0_0 ⟨n + 1, hn⟩).mpr h0) (fun h => h1 ((hcond0_1 ⟨n + 1, hn⟩).mp h)) (iblk0 V c 0 ⟨n + 1, hn⟩) (iblk0 V c 1 ⟨n + 1, hn⟩))
    else
      (idleOut0, sout0_B c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _) (fun h => h0 ((hcond0_0 ⟨n + 1, hn⟩).mp h)) (fun h => h1 ((hcond0_1 ⟨n + 1, hn⟩).mp h)) (iblk0 V c 0 ⟨n + 1, hn⟩) (iblk0 V c 1 ⟨n + 1, hn⟩) (outsAt0 c n (Nat.lt_of_succ_lt hn)).2)

theorem outsAt0_A (c : Dev nD) (t : Fin cfg0.N) (h0 : t.val % 16 = 0) (h1 : ¬t.val % 16 = 15) :
    outsAt0 V c t.val t.isLt = (idleOut0, sout0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)) := by
  obtain ⟨n, hn⟩ := t
  cases n with
  | zero => exact rfl
  | succ n => exact (dif_neg h1).trans ((dif_pos h0).trans rfl)

theorem outsAt0_B (c : Dev nD) (t : Fin cfg0.N) (h0 : ¬t.val % 16 = 0) (h1 : ¬t.val % 16 = 15) :
    outsAt0 V c t.val t.isLt = (idleOut0, sout0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans ((dif_neg h0).trans rfl)

theorem outsAt0_C (c : Dev nD) (t : Fin cfg0.N) (h0 : ¬t.val % 16 = 0) (h1 : t.val % 16 = 15) :
    outsAt0 V c t.val t.isLt = (out0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2,
      sout0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) (outsAt0 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant between points -/

/-- Before position `n`: at the first point every scoped buffer at anything; afterwards the accumulator at what the
    point before left, the untouched scoped buffers and the generator register at anything. -/
def PhiS0 (c : Dev nD) : (n : ℕ) → n ≤ cfg0.N → sProp 𝕄
  | 0, _ => Pipeline.ΦA spec0 c
  | n + 1, hn => iprop(iprop(owns (c : Thread nD τ) scM0 fullShare ((outsAt0 V c n hn).2) ∗ rest0 c) ∗ (∃ r, prngReg c r))

theorem PhiS0_zero (c : Dev nD) (n : ℕ) (h : n ≤ cfg0.N) (hz : n = 0) : PhiS0 V c n h = Pipeline.ΦA spec0 c := by
  subst hz; rfl
theorem PhiS0_succ (c : Dev nD) (n : ℕ) (hn : n < cfg0.N) :
    PhiS0 V c (n + 1) hn = iprop(iprop(owns (c : Thread nD τ) scM0 fullShare ((outsAt0 V c n hn).2) ∗ rest0 c) ∗ (∃ r, prngReg c r)) := rfl
theorem PhiS0_pos (c : Dev nD) (n : ℕ) (h : n ≤ cfg0.N) (hz : n ≠ 0) :
    PhiS0 V c n h = iprop(iprop(owns (c : Thread nD τ) scM0 fullShare ((outsAt0 V c (n - 1) (by omega)).2) ∗ rest0 c) ∗ (∃ r, prngReg c r)) := by
  cases n with
  | zero => exact absurd rfl hz
  | succ n => rfl

/-! ## The proof data -/

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (outsAt0 V c t.val t.isLt).1
  Φ t := PhiS0 V c t.val (Nat.le_of_lt_succ t.isLt)
  q _ := fullShare
  owed _ := 0

theorem A_eq0 (c : Dev nD) (w : Fin cfg0.W) : (dat0 V c).A w = V c (Pipeline.arrRef spec0 w) := by
  dsimp only [dat0]
theorem PhiS0_castSucc (c : Dev nD) (t : Fin cfg0.N) :
    (dat0 V c).Φ t.castSucc = PhiS0 V c t.val (Nat.le_of_lt t.isLt) := by
  dsimp only [dat0]; simp only [Fin.coe_castSucc]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (outsAt0 V c t.val t.isLt).1 := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation -/

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

def bodyPost0 (c : Dev nD) (t : Fin cfg0.N) : sProp 𝕄 :=
  iprop((dat0 V c).Φ t.succ ∗ (dat0 V c).owesAt () t.succ
    ∗ (dat0 V c).leavesExact 0 t
    ∗ (dat0 V c).leavesExact 1 t
    ∗ (dat0 V c).leavesExact 2 t)

set_option maxHeartbeats 4800000 in
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = PhiS0 V c (t.val + 1) t.isLt from rfl, PhiS0_succ]
  have hN : t.val < 64 := lt_of_lt_of_eq t.isLt (show cfg0.N = 64 from N_0)
  rw [show (dat0 V c).leavesExact 0 t = owns (c : Thread nD τ) (ms0_0 t) fullShare ((dat0 V c).after 0 t) from by
    unfold Dat.leavesExact; rw [liveAt0_0 t], after0_0]
  rw [show (dat0 V c).leavesExact 1 t = owns (c : Thread nD τ) (ms0_1 t) fullShare ((dat0 V c).after 1 t) from by
    unfold Dat.leavesExact; rw [liveAt0_1 t], after0_1]
  by_cases h1 : t.val % 16 = 15
  · have h0 : ¬t.val % 16 = 0 := by omega
    have hz : t.val ≠ 0 := by omega
    rw [show (dat0 V c).leavesExact 2 t = owns (c : Thread nD τ) (ms0_2 t) fullShare ((dat0 V c).after 2 t) from by
      unfold Dat.leavesExact; rw [liveAt0_2 t ((hcond0_1 t).mpr h1)], after0_2]
    rw [outsAt0_C V c t h0 h1]
    unfold out0_C sout0_C; (try dsimp only)
    rw [PhiS0_castSucc V c t, PhiS0_pos V c _ _ hz]
    iintro ⟨⟨⟨HS0, Hrest⟩, Hg⟩, Ho, ⟨%d0, H0⟩, ⟨%d1, H1⟩, ⟨%d2, H2⟩⟩
    iapply ((kernelRun0_C c (grid0.coords t) (ms0_0 t) (hs0_0 t) (ms0_1 t) (hs0_1 t) (ms0_2 t) (hs0_2 t) scM0 (Memref.isWhole_whole _) (fun h => h0 ((hcond0_0 t).mp h)) ((hcond0_1 t).mpr h1) (iblk0 V c 0 t) (iblk0 V c 1 t) _).2.2 Set.univ _)
    isplitl [H0]; · iexact H0
    isplitl [H1]; · iexact H1
    isplitl [H2]; · iexists _; iexact H2
    isplitl [HS0]; · iexact HS0
    iintro ⟨H0, H1, ⟨%e2, H2⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover0_C c _ _ _ _ _ _ _ _ _ _ _ _ _ _)
        iexact Hrest
      iexact Hg
    isplitl [Ho]; · iexact Ho
    isplitl [H0]; · iexact H0
    isplitl [H1]; · iexact H1
    unfold owns; iexists _; isplitr
    swap; · iexact H2
    ipureintro; exact View.read_writes_of_cover _ _ _ _ _ (cover0_C c _ _ _ _ _ _ _ _ _ _ _ _ _ _)
  · rw [Dat.leavesExact_idle (dat0 V c) 2 t (idleAt0_2 t (fun h => h1 ((hcond0_1 t).mp h))) (noFlush0_2 t (fun h => h1 ((hcond0_1 t).mp h)))]
    by_cases h0 : t.val % 16 = 0
    · rw [outsAt0_A V c t h0 h1]
      unfold sout0_A; (try dsimp only)
      by_cases hz : t.val = 0
      · rw [PhiS0_castSucc V c t, PhiS0_zero V c _ _ hz, PhiA0_eq]
        iintro ⟨⟨⟨HS0, Hrest⟩, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexists _; iexact H2
      · rw [PhiS0_castSucc V c t, PhiS0_pos V c _ _ hz]
        iintro ⟨⟨⟨HS0, Hrest⟩, Hg⟩, Ho, ⟨%d0, H0⟩, ⟨%d1, H1⟩, ⟨%d2, H2⟩⟩
        iapply ((kernelRun0_A c (grid0.coords t) (ms0_0 t) (hs0_0 t) (ms0_1 t) (hs0_1 t) (ms0_2 t) (hs0_2 t) scM0 (Memref.isWhole_whole _) ((hcond0_0 t).mpr h0) (fun h => h1 ((hcond0_1 t).mp h)) (iblk0 V c 0 t) (iblk0 V c 1 t)).2 _ Set.univ _)
        isplitl [H0]; · iexact H0
        isplitl [H1]; · iexact H1
        isplitl [H2]; · iexact H2
        isplitl [HS0]; · iexists _; iexact HS0
        iintro ⟨H0, H1, H2, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover0_A c _ _ _ _ _ _ _ _ _ _ _ _ _)
            iexact Hrest
          iexact Hg
        isplitl [Ho]; · iexact Ho
        isplitl [H0]; · iexact H0
        isplitl [H1]; · iexact H1
        iexists _; iexact H2
    · have hz : t.val ≠ 0 := fun hz => h0 (by rw [hz])
      rw [outsAt0_B V c t h0 h1]
      unfold sout0_B; (try dsimp only)
      rw [PhiS0_castSucc V c t, PhiS0_pos V c _ _ hz]
      iintro ⟨⟨⟨HS0, Hrest⟩, Hg⟩, Ho, ⟨%d0, H0⟩, ⟨%d1, H1⟩, ⟨%d2, H2⟩⟩
      iapply ((kernelRun0_B c (grid0.coords t) (ms0_0 t) (hs0_0 t) (ms0_1 t) (hs0_1 t) (ms0_2 t) (hs0_2 t) scM0 (Memref.isWhole_whole _) (fun h => h0 ((hcond0_0 t).mp h)) (fun h => h1 ((hcond0_1 t).mp h)) (iblk0 V c 0 t) (iblk0 V c 1 t) _).2 _ Set.univ _)
      isplitl [H0]; · iexact H0
      isplitl [H1]; · iexact H1
      isplitl [H2]; · iexact H2
      isplitl [HS0]; · iexact HS0
      iintro ⟨H0, H1, H2, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover0_B c _ _ _ _ _ _ _ _ _ _ _ _ _ _)
          iexact Hrest
        iexact Hg
      isplitl [Ho]; · iexact Ho
      isplitl [H0]; · iexact H0
      isplitl [H1]; · iexact H1
      iexists _; iexact H2

theorem body_obligation0 (c : Dev nD) : BodyObligation (dat0 (F := F) V c) (defs₀ (F := F)) Variants.none () Set.univ := fun t => by
  rw [bigSep_W0, bigSep_W0]
  exact sound_body0 V c t

/-- Before the first point the invariant holds every scoped buffer and the generator register at anything. -/
theorem Phi0_first (c : Dev nD) : (dat0 V c).Φ 0 = Pipeline.ΦA spec0 c := rfl

/-- After the last point the invariant gives that back: the accumulator's contents are forgotten. -/
theorem Phi0_last (c : Dev nD) : (dat0 V c).Φ (Fin.last cfg0.N) ⊢ Pipeline.ΦA spec0 c := by
  have hne : (Fin.last cfg0.N).val ≠ 0 := by rw [Fin.val_last]; have : cfg0.N = 64 := N_0; omega
  rw [show (dat0 V c).Φ (Fin.last cfg0.N) = PhiS0 V c (Fin.last cfg0.N).val (Nat.le_of_lt_succ (Fin.last cfg0.N).isLt) from rfl,
    PhiS0_pos V c _ _ hne, PhiA0_eq]
  iintro ⟨⟨HS0, Hrest⟩, Hg⟩
  isplitl [HS0 Hrest]
  · isplitl [HS0]; · iexists _; iexact HS0
    iexact Hrest
  iexact Hg

end Cert.KernelIdeal.Reg

end
-- ==== Proof.IdealSide.Run1A.lean ====
/-
  The second kernel's body at a point with k = 0: the accumulator is overwritten with zeros and then with the product
  of the two input blocks; the bias block is held but not read, the output block is not touched.
-/
import proofs.«173439_j75874892251349_2_alg».proof.Proof.IdealSide.Run0C

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_A (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : cond1_0 i) (hc1 : ¬cond1_1 i)
    (x0 : Vec F S512x384 .bf16) (x1 : Vec F S4096x384 .bf16) (x2 : Vec F S1x4096 .f32) :
    { LS0 : List (View.Piece (Elt F) S512x4096 .f32) //
      ∀ (xi3 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ (∃ d, owns (c : Thread nD τ) arg6 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_bias_kernel i arg2 harg2 arg3 harg3 arg4 harg4 arg5 harg5 arg6 harg6) K } := by
  refine ⟨?_, fun xi3 E K => ?run⟩
  case run =>
    simp only [cc1__mm_bias_kernel_eq_skeleton]; unfold cc1__mm_bias_kernel_skel
    unfold owns
    iintro ⟨⟨%f0, %hf0, H0⟩, ⟨%f1, %hf1, H1⟩, ⟨%f2, %hf2, H2⟩, ⟨%f3, %hf3, H3⟩, ⟨%ds0, %fs0, -, HS0⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg

end
-- ==== Proof.IdealSide.Run1B.lean ====
/-
  The second kernel's body at a point with 0 < k < 10: the accumulator gets the product of the two input blocks added.
-/
import proofs.«173439_j75874892251349_2_alg».proof.Proof.IdealSide.Run1A

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_B (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : ¬cond1_1 i)
    (x0 : Vec F S512x384 .bf16) (x1 : Vec F S4096x384 .bf16) (x2 : Vec F S1x4096 .f32) (xs0 : Vec F S512x4096 .f32) :
    { LS0 : List (View.Piece (Elt F) S512x4096 .f32) //
      ∀ (xi3 : Vec F S512x4096 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3 ∗ owns (c : Thread nD τ) arg6 fullShare xs0
            ∗ (iprop(owns (c : Thread nD τ) arg2 fullShare x0 ∗ owns (c : Thread nD τ) arg3 fullShare x1 ∗ owns (c : Thread nD τ) arg4 fullShare x2 ∗ owns (c : Thread nD τ) arg5 fullShare xi3 ∗ (∃ f, arg6.view.loc (c : Thread nD τ) ↦[arg6.view.set]{fullShare} arg6.view.writes (Elt F) f LS0)) -∗ K ⟨⟩))
          ⊢ wp frame (wpE (defs₀ (F := F)) Variants.none c none) E (cc1__mm_bias_kernel i arg2 harg2 arg3 harg3 arg4 harg4 arg5 harg5 arg6 harg6) K } := by
  refine ⟨?_, fun xi3 E K => ?run⟩
  case run =>
    simp only [cc1__mm_bias_kernel_eq_skeleton]; unfold cc1__mm_bias_kernel_skel
    unfold owns
    iintro ⟨⟨%f0, %hf0, H0⟩, ⟨%f1, %hf1, H1⟩, ⟨%f2, %hf2, H2⟩, ⟨%f3, %hf3, H3⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact HS0

end Cert.KernelIdeal.Reg

end
-- ==== Proof.IdealSide.Run1C.lean ====
/-
  The second kernel's body at a point with k = 10: the accumulator gets the last product added, and its contents plus
  the bias row, repeated down the rows, are stored as the output block.
-/
import proofs.«173439_j75874892251349_2_alg».proof.Proof.IdealSide.Run1B

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 1000000 in
noncomputable def kernelRun1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i)
    (x0 : Vec F S512x384 .bf16) (x1 : Vec F S4096x384 .bf16) (x2 : Vec F S1x4096 .f32) (xs0 : Vec F S512x4096 .f32) :
    Σ' (L3 : List (View.Piece (Elt F) S512x4096 .f32)), { LS0 : List (View.Piece (Elt F) S512x4096 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d) ∗ owns (c : Thread nD τ) arg6 fullShare xs0
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0)) -∗ K ⟨⟩))
          ⊢ wp frame (wpE (defs₀ (F := F)) Variants.none c none) E (cc1__mm_bias_kernel i arg2 harg2 arg3 harg3 arg4 harg4 arg5 harg5 arg6 harg6) K } := by
  refine ⟨?_, ?_, fun E K => ?run⟩
  case run =>
    simp only [cc1__mm_bias_kernel_eq_skeleton]; unfold cc1__mm_bias_kernel_skel
    unfold owns
    iintro ⟨⟨%f0, %hf0, H0⟩, ⟨%f1, %hf1, H1⟩, ⟨%f2, %hf2, H2⟩, ⟨%d3, %f3, -, H3⟩, ⟨%fs0, %hfs0, HS0⟩, Hk⟩
    obtain rfl := harg2.eq_unread hf0; obtain rfl := harg3.eq_unread hf1; obtain rfl := harg4.eq_unread hf2; obtain rfl := harg6.eq_unread hfs0
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    iexists _; iexact HS0

end Cert.KernelIdeal.Reg

end
-- ==== Proof.IdealSide.Acc1.lean ====
/-
  The second matrix product, point by point. The kernel walks the grid (i, k), k innermost. Its accumulator holds,
  after the point (i, k), the sum over k' ≤ k of the products of row block i of the first product with column block k'
  of both factors; the output block i is written once, at k = 10, as the accumulator plus the bias row. This module states what the
  accumulator and the output's staging buffer hold after each point (by recursion on the point: the case k = 0
  starts afresh, the others continue from the point before), the invariant that carries the accumulator from one
  point to the next beside the buffers the kernel never touches, and the obligation of the body at every point.
-/
import proofs.«173439_j75874892251349_2_alg».proof.Proof.IdealSide.Run1C

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

-- the contents of the core's buffers when the region is entered: a parameter
variable (V : (c : Dev nD) → (b : Ref sig .tc) → Buf (Elt F) ((c : Thread nD τ).loc b))

/-! ## The input blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input's staging buffer holds its block at every point, fetched there or not, whatever proof data has the
    region's arrays and leaves the inputs in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The scoped buffers: the accumulator, and the rest the kernel never touches -/

theorem scopedRest1_split (c : Dev nD) :
    (Pipeline.scopedRest (Ix := Unit) (Name := ℕ) (U := UR sig nD τ) (Lvl := ℕ) (Val := Elt F) spec1 c : sProp 𝕄)
      = iprop((∃ f : Buf (Elt F) ((c : Thread nD τ).loc cc1_scratch0), ((c : Thread nD τ).loc cc1_scratch0) ↦{fullShare} f)
          ∗ Pipeline.scopedRestBut (Ix := Unit) (Name := ℕ) (U := UR sig nD τ) (Lvl := ℕ) (Val := Elt F) spec1 c [cc1_scratch0]) :=
  Pipeline.scopedRest_split_of_list spec1 c [cc1_scratch0] (by decide) (by decide)

/-- Every scoped buffer but the staging buffers and the accumulator, at some contents. -/
abbrev rest1 (c : Dev nD) : sProp 𝕄 :=
  Pipeline.scopedRestBut (Ix := Unit) (Name := ℕ) (U := UR sig nD τ) (Lvl := ℕ) (Val := Elt F) spec1 c [cc1_scratch0]

theorem PhiA1_eq (c : Dev nD) :
    (Pipeline.ΦA spec1 c : sProp 𝕄)
      = iprop(iprop((∃ d, owns (c : Thread nD τ) scM1 fullShare d) ∗ rest1 c) ∗ (∃ r, prngReg c r)) := by
  unfold Pipeline.ΦA; rw [scopedRest1_split]; simp only [scM1, owns_whole]; try rfl

/-! ## What each case leaves -/

theorem scover1_A (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : cond1_0 i) (hc1 : ¬cond1_1 i) (x0 : Vec F S512x384 .bf16) (x1 : Vec F S4096x384 .bf16) (x2 : Vec F S1x4096 .f32) (y : S512x4096.Idx) :
    ∃ pc ∈ (kernelRun1_A c i arg2 harg2 arg3 harg3 arg4 harg4 arg5 harg5 arg6 harg6 hc0 hc1 x0 x1 x2).1, y ∈ pc.1.set :=
  View.cover_of_tiledL (kernelRun1_A c i arg2 harg2 arg3 harg3 arg4 harg4 arg5 harg5 arg6 harg6 hc0 hc1 x0 x1 x2).1 S512x4096.size (by sl_kernel_rfl) y
/-- The accumulator after a point with k = 0. -/
def sout1_A (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : cond1_0 i) (hc1 : ¬cond1_1 i) (x0 : Vec F S512x384 .bf16) (x1 : Vec F S4096x384 .bf16) (x2 : Vec F S1x4096 .f32) : Vec F S512x4096 .f32 :=
  VS1.read (Elt F) (VS1.writes (Elt F) VS1.junk (kernelRun1_A c i arg2 harg2 arg3 harg3 arg4 harg4 arg5 harg5 arg6 harg6 hc0 hc1 x0 x1 x2).1)

theorem scover1_B (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : ¬cond1_1 i) (x0 : Vec F S512x384 .bf16) (x1 : Vec F S4096x384 .bf16) (x2 : Vec F S1x4096 .f32) (xs0 : Vec F S512x4096 .f32) (y : S512x4096.Idx) :
    ∃ pc ∈ (kernelRun1_B c i arg2 harg2 arg3 harg3 arg4 harg4 arg5 harg5 arg6 harg6 hc0 hc1 x0 x1 x2 xs0).1, y ∈ pc.1.set :=
  View.cover_of_tiledL (kernelRun1_B c i arg2 harg2 arg3 harg3 arg4 harg4 arg5 harg5 arg6 harg6 hc0 hc1 x0 x1 x2 xs0).1 S512x4096.size (by sl_kernel_rfl) y
/-- The accumulator after a point with 0 < k < 10, from what the point before left. -/
def sout1_B (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : ¬cond1_1 i) (x0 : Vec F S512x384 .bf16) (x1 : Vec F S4096x384 .bf16) (x2 : Vec F S1x4096 .f32) (xs0 : Vec F S512x4096 .f32) : Vec F S512x4096 .f32 :=
  VS1.read (Elt F) (VS1.writes (Elt F) VS1.junk (kernelRun1_B c i arg2 harg2 arg3 harg3 arg4 harg4 arg5 harg5 arg6 harg6 hc0 hc1 x0 x1 x2 xs0).1)

theorem scover1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) (y : S512x4096.Idx) :
    ∃ pc ∈ (kernelRun1_C c i arg2 harg2 arg3 harg3 arg4 harg4 arg5 harg5 arg6 harg6 hc0 hc1 x0 x1 x2 xs0).2.1, y ∈ pc.1.set :=
  View.cover_of_tiledL (kernelRun1_C c i arg2 harg2 arg3 harg3 arg4 harg4 arg5 harg5 arg6 harg6 hc0 hc1 x0 x1 x2 xs0).2.1 S512x4096.size (by sl_kernel_rfl) y
/-- The accumulator after a point with k = 10. -/
def sout1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) : Vec F S512x4096 .f32 :=
  VS1.read (Elt F) (VS1.writes (Elt F) VS1.junk (kernelRun1_C c i arg2 harg2 arg3 harg3 arg4 harg4 arg5 harg5 arg6 harg6 hc0 hc1 x0 x1 x2 xs0).2.1)
theorem cover1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) (y : S512x4096.Idx) :
    ∃ pc ∈ (kernelRun1_C c i arg2 harg2 arg3 harg3 arg4 harg4 arg5 harg5 arg6 harg6 hc0 hc1 x0 x1 x2 xs0).1, y ∈ pc.1.set :=
  View.cover_of_tiledL (kernelRun1_C c i arg2 harg2 arg3 harg3 arg4 harg4 arg5 harg5 arg6 harg6 hc0 hc1 x0 x1 x2 xs0).1 S512x4096.size (by sl_kernel_rfl) y
/-- The output's staging buffer after a point with k = 10. -/
def out1_C (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) : Vec F S512x4096 .f32 :=
  VO1.read (Elt F) (VO1.writes (Elt F) VO1.junk (kernelRun1_C c i arg2 harg2 arg3 harg3 arg4 harg4 arg5 harg5 arg6 harg6 hc0 hc1 x0 x1 x2 xs0).1)

/-- What the output's staging buffer is said to hold at a point that does not store into it: never consulted. -/
def idleOut1 : Vec F S512x4096 .f32 := VO1.read (Elt F) VO1.junk

/-! ## The accumulation, by recursion on the point -/

/-- After the body at position `n`: the output's staging buffer and the accumulator. -/
def outsAt1 (c : Dev nD) : (n : ℕ) → n < cfg1.N → Vec F S512x4096 .f32 × Vec F S512x4096 .f32
  | 0, hn => (idleOut1, sout1_A c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩) (iblk1 V c 1 ⟨0, hn⟩) (iblk1 V c 2 ⟨0, hn⟩))
  | n + 1, hn =>
    if h1 : (n + 1) % 11 = 10 then
      (out1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2,
       sout1_C c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => (fun h => by (try dsimp only at h); omega) ((hcond1_0 ⟨n + 1, hn⟩).mp h)) ((hcond1_1 ⟨n + 1, hn⟩).mpr h1) (iblk1 V c 0 ⟨n + 1, hn⟩) (iblk1 V c 1 ⟨n + 1, hn⟩) (iblk1 V c 2 ⟨n + 1, hn⟩) (outsAt1 c n (Nat.lt_of_succ_lt hn)).2)
    else if h0 : (n + 1) % 11 = 0 then
      (idleOut1, sout1_A c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) ((hcond1_0 ⟨n + 1, hn⟩).mpr h0) (fun h => h1 ((hcond1_1 ⟨n + 1, hn⟩).mp h)) (iblk1 V c 0 ⟨n + 1, hn⟩) (iblk1 V c 1 ⟨n + 1, hn⟩) (iblk1 V c 2 ⟨n + 1, hn⟩))
    else
      (idleOut1, sout1_B c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1 (Memref.isWhole_whole _) (fun h => h0 ((hcond1_0 ⟨n + 1, hn⟩).mp h)) (fun h => h1 ((hcond1_1 ⟨n + 1, hn⟩).mp h)) (iblk1 V c 0 ⟨n + 1, hn⟩) (iblk1 V c 1 ⟨n + 1, hn⟩) (iblk1 V c 2 ⟨n + 1, hn⟩) (outsAt1 c n (Nat.lt_of_succ_lt hn)).2)

theorem outsAt1_A (c : Dev nD) (t : Fin cfg1.N) (h0 : t.val % 11 = 0) (h1 : ¬t.val % 11 = 10) :
    outsAt1 V c t.val t.isLt = (idleOut1, sout1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)) := by
  obtain ⟨n, hn⟩ := t
  cases n with
  | zero => exact rfl
  | succ n => exact (dif_neg h1).trans ((dif_pos h0).trans rfl)

theorem outsAt1_B (c : Dev nD) (t : Fin cfg1.N) (h0 : ¬t.val % 11 = 0) (h1 : ¬t.val % 11 = 10) :
    outsAt1 V c t.val t.isLt = (idleOut1, sout1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h1).trans ((dif_neg h0).trans rfl)

theorem outsAt1_C (c : Dev nD) (t : Fin cfg1.N) (h0 : ¬t.val % 11 = 0) (h1 : t.val % 11 = 10) :
    outsAt1 V c t.val t.isLt = (out1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2,
      sout1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) (outsAt1 V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_pos h1).trans rfl

/-! ## The invariant between points -/

/-- Before position `n`: at the first point every scoped buffer at anything; afterwards the accumulator at what the
    point before left, the untouched scoped buffers and the generator register at anything. -/
def PhiS1 (c : Dev nD) : (n : ℕ) → n ≤ cfg1.N → sProp 𝕄
  | 0, _ => Pipeline.ΦA spec1 c
  | n + 1, hn => iprop(iprop(owns (c : Thread nD τ) scM1 fullShare ((outsAt1 V c n hn).2) ∗ rest1 c) ∗ (∃ r, prngReg c r))

theorem PhiS1_zero (c : Dev nD) (n : ℕ) (h : n ≤ cfg1.N) (hz : n = 0) : PhiS1 V c n h = Pipeline.ΦA spec1 c := by
  subst hz; rfl
theorem PhiS1_succ (c : Dev nD) (n : ℕ) (hn : n < cfg1.N) :
    PhiS1 V c (n + 1) hn = iprop(iprop(owns (c : Thread nD τ) scM1 fullShare ((outsAt1 V c n hn).2) ∗ rest1 c) ∗ (∃ r, prngReg c r)) := rfl
theorem PhiS1_pos (c : Dev nD) (n : ℕ) (h : n ≤ cfg1.N) (hz : n ≠ 0) :
    PhiS1 V c n h = iprop(iprop(owns (c : Thread nD τ) scM1 fullShare ((outsAt1 V c (n - 1) (by omega)).2) ∗ rest1 c) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t.val t.isLt).1
  Φ t := PhiS1 V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS1_castSucc (c : Dev nD) (t : Fin cfg1.N) :
    (dat1 V c).Φ t.castSucc = PhiS1 V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = (outsAt1 V c t.val t.isLt).1 := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS1 V c (t.val + 1) t.isLt from rfl, PhiS1_succ]
  have hN : t.val < 88 := lt_of_lt_of_eq t.isLt (show cfg1.N = 88 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h1 : t.val % 11 = 10
  · have h0 : ¬t.val % 11 = 0 := by omega
    have hz : t.val ≠ 0 := by omega
    rw [show (dat1 V c).leavesExact 3 t = owns (c : Thread nD τ) (ms1_3 t) fullShare ((dat1 V c).after 3 t) from by
      unfold Dat.leavesExact; rw [liveAt1_3 t ((hcond1_1 t).mpr h1)], after1_3]
    rw [outsAt1_C V c t h0 h1]
    unfold out1_C sout1_C; (try dsimp only)
    rw [PhiS1_castSucc V c t, PhiS1_pos V c _ _ hz]
    iintro ⟨⟨⟨HS0, Hrest⟩, Hg⟩, Ho, ⟨%d0, H0⟩, ⟨%d1, H1⟩, ⟨%d2, H2⟩, ⟨%d3, H3⟩⟩
    iapply ((kernelRun1_C c (grid1.coords t) (ms1_0 t) (hs1_0 t) (ms1_1 t) (hs1_1 t) (ms1_2 t) (hs1_2 t) (ms1_3 t) (hs1_3 t) scM1 (Memref.isWhole_whole _) (fun h => h0 ((hcond1_0 t).mp h)) ((hcond1_1 t).mpr h1) (iblk1 V c 0 t) (iblk1 V c 1 t) (iblk1 V c 2 t) _).2.2 Set.univ _)
    isplitl [H0]; · iexact H0
    isplitl [H1]; · iexact H1
    isplitl [H2]; · iexact H2
    isplitl [H3]; · iexists _; iexact H3
    isplitl [HS0]; · iexact HS0
    iintro ⟨H0, H1, H2, ⟨%e3, H3⟩, ⟨%es0, HS0⟩⟩
    isplitl [HS0 Hrest Hg]
    · isplitl [HS0 Hrest]
      · isplitl [HS0]
        · unfold owns; iexists _; isplitr
          swap; · iexact HS0
          ipureintro; exact View.read_writes_of_cover _ _ _ _ _ (scover1_C c _ _ _ _ _ _ _ _ _ _ _ _ _ _ _ _ _)
        iexact Hrest
      iexact Hg
    isplitl [Ho]; · iexact Ho
    isplitl [H0]; · iexact H0
    isplitl [H1]; · iexact H1
    isplitl [H2]; · iexact H2
    unfold owns; iexists _; isplitr
    swap; · iexact H3
    ipureintro; exact View.read_writes_of_cover _ _ _ _ _ (cover1_C c _ _ _ _ _ _ _ _ _ _ _ _ _ _ _ _ _)
  · rw [Dat.leavesExact_idle (dat1 V c) 3 t (idleAt1_3 t (fun h => h1 ((hcond1_1 t).mp h))) (noFlush1_3 t (fun h => h1 ((hcond1_1 t).mp h)))]
    by_cases h0 : t.val % 11 = 0
    · rw [outsAt1_A V c t h0 h1]
      unfold sout1_A; (try dsimp only)
      by_cases hz : t.val = 0
      · rw [PhiS1_castSucc V c t, PhiS1_zero V c _ _ hz, PhiA1_eq]
        iintro ⟨⟨⟨HS0, Hrest⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
      · rw [PhiS1_castSucc V c t, PhiS1_pos V c _ _ hz]
        iintro ⟨⟨⟨HS0, Hrest⟩, Hg⟩, Ho, ⟨%d0, H0⟩, ⟨%d1, H1⟩, ⟨%d2, H2⟩, ⟨%d3, H3⟩⟩
        iapply ((kernelRun1_A c (grid1.coords t) (ms1_0 t) (hs1_0 t) (ms1_1 t) (hs1_1 t) (ms1_2 t) (hs1_2 t) (ms1_3 t) (hs1_3 t) scM1 (Memref.isWhole_whole _) ((hcond1_0 t).mpr h0) (fun h => h1 ((hcond1_1 t).mp h)) (iblk1 V c 0 t) (iblk1 V c 1 t) (iblk1 V c 2 t)).2 _ Set.univ _)
        isplitl [H0]; · iexact H0
        isplitl [H1]; · iexact H1
        isplitl [H2]; · iexact H2
        isplitl [H3]; · iexact H3
        isplitl [HS0]; · iexists _; iexact HS0
        iintro ⟨H0, H1, H2, H3, ⟨%es0, HS0⟩⟩
        isplitl [HS0 Hrest Hg]
        · isplitl [HS0 Hrest]
          · isplitl [HS0]
            · unfold owns; iexists _; isplitr
              swap; · iexact HS0
              ipureintro; exact View.read_writes_of_cover _ _ _ _ _ (scover1_A c _ _ _ _ _ _ _ _ _ _ _ _ _ _ _ _)
            iexact Hrest
          iexact Hg
        isplitl [Ho]; · iexact Ho
        isplitl [H0]; · iexact H0
        isplitl [H1]; · iexact H1
        isplitl [H2]; · iexact H2
        iexists _; iexact H3
    · have hz : t.val ≠ 0 := fun hz => h0 (by rw [hz])
      rw [outsAt1_B V c t h0 h1]
      unfold sout1_B; (try dsimp only)
      rw [PhiS1_castSucc V c t, PhiS1_pos V c _ _ hz]
      iintro ⟨⟨⟨HS0, Hrest⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM1 (Memref.isWhole_whole _) (fun h => h0 ((hcond1_0 t).mp h)) (fun h => h1 ((hcond1_1 t).mp h)) (iblk1 V c 0 t) (iblk1 V c 1 t) (iblk1 V c 2 t) _).2 _ Set.univ _)
      isplitl [H0]; · iexact H0
      isplitl [H1]; · iexact H1
      isplitl [H2]; · iexact H2
      isplitl [H3]; · iexact H3
      isplitl [HS0]; · iexact HS0
      iintro ⟨H0, H1, H2, H3, ⟨%es0, HS0⟩⟩
      isplitl [HS0 Hrest Hg]
      · isplitl [HS0 Hrest]
        · isplitl [HS0]
          · unfold owns; iexists _; isplitr
            swap; · iexact HS0
            ipureintro; exact View.read_writes_of_cover _ _ _ _ _ (scover1_B c _ _ _ _ _ _ _ _ _ _ _ _ _ _ _ _ _)
          iexact Hrest
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- Before the first point the invariant holds every scoped buffer and the generator register at anything. -/
theorem Phi1_first (c : Dev nD) : (dat1 V c).Φ 0 = Pipeline.ΦA spec1 c := rfl

/-- After the last point the invariant gives that back: the accumulator's contents are forgotten. -/
theorem Phi1_last (c : Dev nD) : (dat1 V c).Φ (Fin.last cfg1.N) ⊢ Pipeline.ΦA spec1 c := by
  have hne : (Fin.last cfg1.N).val ≠ 0 := by rw [Fin.val_last]; have : cfg1.N = 88 := N_1; omega
  rw [show (dat1 V c).Φ (Fin.last cfg1.N) = PhiS1 V c (Fin.last cfg1.N).val (Nat.le_of_lt_succ (Fin.last cfg1.N).isLt) from rfl,
    PhiS1_pos V c _ _ hne, PhiA1_eq]
  iintro ⟨⟨HS0, Hrest⟩, Hg⟩
  isplitl [HS0 Hrest]
  · isplitl [HS0]; · iexists _; iexact HS0
    iexact Hrest
  iexact Hg

end Cert.KernelIdeal.Reg

end
-- ==== Proof.IdealSide.Regs.lean ====
/-
  The whole program as a sequence of eight segments: five stretches of host operations that build the two stacked
  factors, the flattened input and the bias row; the first matrix product; the second; and the final reshape. Between
  segments every unscoped buffer of the core is held at named contents: the host stretches' by their operations, a
  product's output array at what its write-backs leave. From the one run over the segments: every weakly fair
  execution terminates, and every unscoped buffer ends at the last boundary's contents — which gives both that the
  arguments end as launched and what the result buffer holds.
-/
import proofs.«173439_j75874892251349_2_alg».proof.Proof.IdealSide.Acc0
import proofs.«173439_j75874892251349_2_alg».proof.Proof.IdealSide.Acc1
import proofs.«173439_j75874892251349_2_alg».proof.Proof.Gen.KernelIdeal.Regions

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at the boundaries around the two products -/

/-- What the first product finds: the contents after the five host stretches, read at the TensorCore's references. -/
abbrev Vr5 : (c : Dev nD) → (b : Ref sig .tc) → Buf (Elt F) ((c : Thread nD τ).loc b) := fun c b => V5 m c b

/-- At region 0's exit: its arrays at what the pipeline leaves (the inputs as entered, the output's write-backs
    folded), every other buffer as entered. -/
def W6 (c : Dev nD) : Valuation τ sig (Elt F) :=
  Pipeline.withArrays spec0 c (V5 m c) fun w => (dat0 (Vr5 m) c).arrAt w cfg0.N
theorem W6_arr (c : Dev nD) (w : Fin cfg0.W) :
    W6 m c (Proc.devRef .tc (Pipeline.arrRef spec0 w)) = (dat0 (Vr5 m) c).arrAt w cfg0.N := by
  unfold W6; exact Pipeline.withArrays_arr spec0 launch0.win.arr_inj c _ _ w
theorem W6_of_ne (c : Dev nD) (b : Ref sig .tc) (hb : ∀ w, Pipeline.arrRef spec0 w ≠ b) :
    W6 m c (Proc.devRef .tc b) = V5 m c (Proc.devRef .tc b) := by
  unfold W6; exact Pipeline.withArrays_of_ne spec0 c _ _ b hb
/-- The same read at the TensorCore's references. -/
abbrev Vr6 : (c : Dev nD) → (b : Ref sig .tc) → Buf (Elt F) ((c : Thread nD τ).loc b) := fun c b => W6 m c b
theorem hF0 (c : Dev nD) (w : Fin cfg0.W) : (dat0 (Vr5 m) c).arrAt w cfg0.N = Vr6 m c (Pipeline.arrRef spec0 w) :=
  (W6_arr m c w).symm
theorem hrest0 (c : Dev nD) : ∀ b, b ∉ Finset.univ.image (Pipeline.arrRef spec0) → Vr6 m c b = Vr5 m c b :=
  fun b hb => W6_of_ne m c b fun w e => hb (Finset.mem_image.mpr ⟨w, Finset.mem_univ _, e⟩)

/-- At region 1's exit: its arrays at what the pipeline leaves (the inputs as entered, the output's write-backs
    folded), every other buffer as entered. -/
def W7 (c : Dev nD) : Valuation τ sig (Elt F) :=
  Pipeline.withArrays spec1 c (W6 m c) fun w => (dat1 (Vr6 m) c).arrAt w cfg1.N
theorem W7_arr (c : Dev nD) (w : Fin cfg1.W) :
    W7 m c (Proc.devRef .tc (Pipeline.arrRef spec1 w)) = (dat1 (Vr6 m) c).arrAt w cfg1.N := by
  unfold W7; exact Pipeline.withArrays_arr spec1 launch1.win.arr_inj c _ _ w
theorem W7_of_ne (c : Dev nD) (b : Ref sig .tc) (hb : ∀ w, Pipeline.arrRef spec1 w ≠ b) :
    W7 m c (Proc.devRef .tc b) = W6 m c (Proc.devRef .tc b) := by
  unfold W7; exact Pipeline.withArrays_of_ne spec1 c _ _ b hb
/-- The same read at the TensorCore's references. -/
abbrev Vr7 : (c : Dev nD) → (b : Ref sig .tc) → Buf (Elt F) ((c : Thread nD τ).loc b) := fun c b => W7 m c b
theorem hF1 (c : Dev nD) (w : Fin cfg1.W) : (dat1 (Vr6 m) c).arrAt w cfg1.N = Vr7 m c (Pipeline.arrRef spec1 w) :=
  (W7_arr m c w).symm
theorem hrest1 (c : Dev nD) : ∀ b, b ∉ Finset.univ.image (Pipeline.arrRef spec1) → Vr7 m c b = Vr6 m c b :=
  fun b hb => W7_of_ne m c b fun w e => hb (Finset.mem_image.mpr ⟨w, Finset.mem_univ _, e⟩)

/-- After the final reshape. -/
abbrev W8 (c : Dev nD) : Valuation τ sig (Elt F) := StableHlo.after hostOps2 (W7 m c)

/-! ## The arguments end as launched: no host operation writes one and no product has one among its arrays -/

theorem W8_main_arg0 (c : Dev nD) : W8 m c (Proc.devRef .tc main_arg0) = m ((c : Thread nD τ).loc main_arg0) :=
  (StableHlo.after_of_writes_sub hostOps2 _ hostOps2_writes (by decide : main_arg0 ∉ hostOps2_W)).trans <|
  (W7_of_ne m c main_arg0 (by decide)).trans <| (W6_of_ne m c main_arg0 (by decide)).trans <|
  (V5_of m c main_arg0 (by decide)).trans <| (V4_of m c main_arg0 (by decide)).trans <| (V3_of m c main_arg0 (by decide)).trans <|
  (V2_of m c main_arg0 (by decide)).trans <| (V1_of m c main_arg0 (by decide)).trans rfl
theorem W8_main_arg1 (c : Dev nD) : W8 m c (Proc.devRef .tc main_arg1) = m ((c : Thread nD τ).loc main_arg1) :=
  (StableHlo.after_of_writes_sub hostOps2 _ hostOps2_writes (by decide : main_arg1 ∉ hostOps2_W)).trans <|
  (W7_of_ne m c main_arg1 (by decide)).trans <| (W6_of_ne m c main_arg1 (by decide)).trans <|
  (V5_of m c main_arg1 (by decide)).trans <| (V4_of m c main_arg1 (by decide)).trans <| (V3_of m c main_arg1 (by decide)).trans <|
  (V2_of m c main_arg1 (by decide)).trans <| (V1_of m c main_arg1 (by decide)).trans rfl
theorem W8_main_arg2 (c : Dev nD) : W8 m c (Proc.devRef .tc main_arg2) = m ((c : Thread nD τ).loc main_arg2) :=
  (StableHlo.after_of_writes_sub hostOps2 _ hostOps2_writes (by decide : main_arg2 ∉ hostOps2_W)).trans <|
  (W7_of_ne m c main_arg2 (by decide)).trans <| (W6_of_ne m c main_arg2 (by decide)).trans <|
  (V5_of m c main_arg2 (by decide)).trans <| (V4_of m c main_arg2 (by decide)).trans <| (V3_of m c main_arg2 (by decide)).trans <|
  (V2_of m c main_arg2 (by decide)).trans <| (V1_of m c main_arg2 (by decide)).trans rfl
theorem W8_main_arg3 (c : Dev nD) : W8 m c (Proc.devRef .tc main_arg3) = m ((c : Thread nD τ).loc main_arg3) :=
  (StableHlo.after_of_writes_sub hostOps2 _ hostOps2_writes (by decide : main_arg3 ∉ hostOps2_W)).trans <|
  (W7_of_ne m c main_arg3 (by decide)).trans <| (W6_of_ne m c main_arg3 (by decide)).trans <|
  (V5_of m c main_arg3 (by decide)).trans <| (V4_of m c main_arg3 (by decide)).trans <| (V3_of m c main_arg3 (by decide)).trans <|
  (V2_of m c main_arg3 (by decide)).trans <| (V1_of m c main_arg3 (by decide)).trans rfl
theorem W8_main_arg4 (c : Dev nD) : W8 m c (Proc.devRef .tc main_arg4) = m ((c : Thread nD τ).loc main_arg4) :=
  (StableHlo.after_of_writes_sub hostOps2 _ hostOps2_writes (by decide : main_arg4 ∉ hostOps2_W)).trans <|
  (W7_of_ne m c main_arg4 (by decide)).trans <| (W6_of_ne m c main_arg4 (by decide)).trans <|
  (V5_of m c main_arg4 (by decide)).trans <| (V4_of m c main_arg4 (by decide)).trans <| (V3_of m c main_arg4 (by decide)).trans <|
  (V2_of m c main_arg4 (by decide)).trans <| (V1_of m c main_arg4 (by decide)).trans rfl
theorem W8_main_arg5 (c : Dev nD) : W8 m c (Proc.devRef .tc main_arg5) = m ((c : Thread nD τ).loc main_arg5) :=
  (StableHlo.after_of_writes_sub hostOps2 _ hostOps2_writes (by decide : main_arg5 ∉ hostOps2_W)).trans <|
  (W7_of_ne m c main_arg5 (by decide)).trans <| (W6_of_ne m c main_arg5 (by decide)).trans <|
  (V5_of m c main_arg5 (by decide)).trans <| (V4_of m c main_arg5 (by decide)).trans <| (V3_of m c main_arg5 (by decide)).trans <|
  (V2_of m c main_arg5 (by decide)).trans <| (V1_of m c main_arg5 (by decide)).trans rfl
theorem W8_main_arg6 (c : Dev nD) : W8 m c (Proc.devRef .tc main_arg6) = m ((c : Thread nD τ).loc main_arg6) :=
  (StableHlo.after_of_writes_sub hostOps2 _ hostOps2_writes (by decide : main_arg6 ∉ hostOps2_W)).trans <|
  (W7_of_ne m c main_arg6 (by decide)).trans <| (W6_of_ne m c main_arg6 (by decide)).trans <|
  (V5_of m c main_arg6 (by decide)).trans <| (V4_of m c main_arg6 (by decide)).trans <| (V3_of m c main_arg6 (by decide)).trans <|
  (V2_of m c main_arg6 (by decide)).trans <| (V1_of m c main_arg6 (by decide)).trans rfl
theorem W8_main_arg7 (c : Dev nD) : W8 m c (Proc.devRef .tc main_arg7) = m ((c : Thread nD τ).loc main_arg7) :=
  (StableHlo.after_of_writes_sub hostOps2 _ hostOps2_writes (by decide : main_arg7 ∉ hostOps2_W)).trans <|
  (W7_of_ne m c main_arg7 (by decide)).trans <| (W6_of_ne m c main_arg7 (by decide)).trans <|
  (V5_of m c main_arg7 (by decide)).trans <| (V4_of m c main_arg7 (by decide)).trans <| (V3_of m c main_arg7 (by decide)).trans <|
  (V2_of m c main_arg7 (by decide)).trans <| (V1_of m c main_arg7 (by decide)).trans rfl
theorem W8_main_arg8 (c : Dev nD) : W8 m c (Proc.devRef .tc main_arg8) = m ((c : Thread nD τ).loc main_arg8) :=
  (StableHlo.after_of_writes_sub hostOps2 _ hostOps2_writes (by decide : main_arg8 ∉ hostOps2_W)).trans <|
  (W7_of_ne m c main_arg8 (by decide)).trans <| (W6_of_ne m c main_arg8 (by decide)).trans <|
  (V5_of m c main_arg8 (by decide)).trans <| (V4_of m c main_arg8 (by decide)).trans <| (V3_of m c main_arg8 (by decide)).trans <|
  (V2_of m c main_arg8 (by decide)).trans <| (V1_of m c main_arg8 (by decide)).trans rfl
theorem W8_main_arg9 (c : Dev nD) : W8 m c (Proc.devRef .tc main_arg9) = m ((c : Thread nD τ).loc main_arg9) :=
  (StableHlo.after_of_writes_sub hostOps2 _ hostOps2_writes (by decide : main_arg9 ∉ hostOps2_W)).trans <|
  (W7_of_ne m c main_arg9 (by decide)).trans <| (W6_of_ne m c main_arg9 (by decide)).trans <|
  (V5_of m c main_arg9 (by decide)).trans <| (V4_of m c main_arg9 (by decide)).trans <| (V3_of m c main_arg9 (by decide)).trans <|
  (V2_of m c main_arg9 (by decide)).trans <| (V1_of m c main_arg9 (by decide)).trans rfl
theorem W8_main_arg10 (c : Dev nD) : W8 m c (Proc.devRef .tc main_arg10) = m ((c : Thread nD τ).loc main_arg10) :=
  (StableHlo.after_of_writes_sub hostOps2 _ hostOps2_writes (by decide : main_arg10 ∉ hostOps2_W)).trans <|
  (W7_of_ne m c main_arg10 (by decide)).trans <| (W6_of_ne m c main_arg10 (by decide)).trans <|
  (V5_of m c main_arg10 (by decide)).trans <| (V4_of m c main_arg10 (by decide)).trans <| (V3_of m c main_arg10 (by decide)).trans <|
  (V2_of m c main_arg10 (by decide)).trans <| (V1_of m c main_arg10 (by decide)).trans rfl
theorem W8_main_arg11 (c : Dev nD) : W8 m c (Proc.devRef .tc main_arg11) = m ((c : Thread nD τ).loc main_arg11) :=
  (StableHlo.after_of_writes_sub hostOps2 _ hostOps2_writes (by decide : main_arg11 ∉ hostOps2_W)).trans <|
  (W7_of_ne m c main_arg11 (by decide)).trans <| (W6_of_ne m c main_arg11 (by decide)).trans <|
  (V5_of m c main_arg11 (by decide)).trans <| (V4_of m c main_arg11 (by decide)).trans <| (V3_of m c main_arg11 (by decide)).trans <|
  (V2_of m c main_arg11 (by decide)).trans <| (V1_of m c main_arg11 (by decide)).trans rfl
theorem W8_main_arg12 (c : Dev nD) : W8 m c (Proc.devRef .tc main_arg12) = m ((c : Thread nD τ).loc main_arg12) :=
  (StableHlo.after_of_writes_sub hostOps2 _ hostOps2_writes (by decide : main_arg12 ∉ hostOps2_W)).trans <|
  (W7_of_ne m c main_arg12 (by decide)).trans <| (W6_of_ne m c main_arg12 (by decide)).trans <|
  (V5_of m c main_arg12 (by decide)).trans <| (V4_of m c main_arg12 (by decide)).trans <| (V3_of m c main_arg12 (by decide)).trans <|
  (V2_of m c main_arg12 (by decide)).trans <| (V1_of m c main_arg12 (by decide)).trans rfl
theorem W8_main_arg13 (c : Dev nD) : W8 m c (Proc.devRef .tc main_arg13) = m ((c : Thread nD τ).loc main_arg13) :=
  (StableHlo.after_of_writes_sub hostOps2 _ hostOps2_writes (by decide : main_arg13 ∉ hostOps2_W)).trans <|
  (W7_of_ne m c main_arg13 (by decide)).trans <| (W6_of_ne m c main_arg13 (by decide)).trans <|
  (V5_of m c main_arg13 (by decide)).trans <| (V4_of m c main_arg13 (by decide)).trans <| (V3_of m c main_arg13 (by decide)).trans <|
  (V2_of m c main_arg13 (by decide)).trans <| (V1_of m c main_arg13 (by decide)).trans rfl
theorem W8_main_arg14 (c : Dev nD) : W8 m c (Proc.devRef .tc main_arg14) = m ((c : Thread nD τ).loc main_arg14) :=
  (StableHlo.after_of_writes_sub hostOps2 _ hostOps2_writes (by decide : main_arg14 ∉ hostOps2_W)).trans <|
  (W7_of_ne m c main_arg14 (by decide)).trans <| (W6_of_ne m c main_arg14 (by decide)).trans <|
  (V5_of m c main_arg14 (by decide)).trans <| (V4_of m c main_arg14 (by decide)).trans <| (V3_of m c main_arg14 (by decide)).trans <|
  (V2_of m c main_arg14 (by decide)).trans <| (V1_of m c main_arg14 (by decide)).trans rfl

/-! ## The proof data family and the thread state -/

/-- Each product's proof data at its region's entry contents: a literal match on the pipeline's number. -/
def pdats : (p : Fin 2) → (c : Dev nD) → Dat τ (Elt F) Unit ℕ (UR sig nD τ) ℕ (Pipeline.pin (pcfgs (F := F)) adm p) c
  | ⟨0, _⟩ => fun c => dat0 (Vr5 m) c
  | ⟨1, _⟩ => fun c => dat1 (Vr6 m) c
abbrev 𝒱₀ : Variants := Variants.none
/-- No core owes another anything. -/
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
/-- A host stretch as a segment from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the `owes`. -/
abbrev Tₙ (c : Dev nD) : sProp 𝕄 := iprop(StableHlo.held (c : Thread nD τ) (Pipeline.ucRefs τ sig) (W8 m c) ∗ ∃ r, prngReg c r)

/-! ## The two products as segments -/

set_option backward.isDefEq.respectTransparency.types false in
/-- Region 0 over the thread state: entered from every unscoped buffer at the contents before it, left with its
    arrays at what the write-backs leave and every other buffer as entered; the generator register into the
    invariant and out; the accumulator's contents forgotten at the exit; nothing owed; no semaphore of its own. -/
def reg0 : Pipeline.RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr5 m) c).loose
  hwaits := Pipeline.hwaits_of_owed_zero _ _ _ _ L lv 0 fun _ _ => rfl
  pre c := iprop(StableHlo.held (c : Thread nD τ) (Pipeline.ucRefs τ sig) (V5 m c) ∗ R c)
  post c := iprop(StableHlo.held (c : Thread nD τ) (Pipeline.ucRefs τ sig) (W6 m c) ∗ R c)
  X c := iprop(∃ r, prngReg c r)
  Y c := iprop(∃ r, prngReg c r)
  Z c := Pipeline.unscopedRest (Ix := Unit) (Name := ℕ) (U := UR sig nD τ) (Lvl := ℕ) spec0 c (Vr5 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr5 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none]
    refine (show (pdats m 0 c).Φ (Fin.last _) ⊢ Pipeline.ΦA spec0 c from Phi0_last (Vr5 m) c).trans ?_
    unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr5 m c) (Vr6 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left with its
    arrays at what the write-backs leave and every other buffer as entered; the generator register into the
    invariant and out; the accumulator's contents forgotten at the exit; nothing owed; no semaphore of its own. -/
def reg1 : Pipeline.RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr6 m) c).loose
  hwaits := Pipeline.hwaits_of_owed_zero _ _ _ _ L lv 1 fun _ _ => rfl
  pre c := iprop(StableHlo.held (c : Thread nD τ) (Pipeline.ucRefs τ sig) (W6 m c) ∗ R c)
  post c := iprop(StableHlo.held (c : Thread nD τ) (Pipeline.ucRefs τ sig) (W7 m c) ∗ R c)
  X c := iprop(∃ r, prngReg c r)
  Y c := iprop(∃ r, prngReg c r)
  Z c := Pipeline.unscopedRest (Ix := Unit) (Name := ℕ) (U := UR sig nD τ) (Lvl := ℕ) spec1 c (Vr6 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr6 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m 1 c).Φ (Fin.last _) ⊢ Pipeline.ΦA spec1 c from Phi1_last (Vr6 m) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr6 m c) (Vr7 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The program as segments, and the run -/

abbrev segs : List (Pipeline.Seg (pcfgs (F := F)) adm (pdats m) () defs₀ 𝒱₀ L lv) :=
  [ .host (hseg hostOps0 hostOps0_sub hostOps0_fresh (V0 m)),
    .host (hseg hostOps0_1 hostOps0_1_sub hostOps0_1_fresh (V1 m)),
    .host (hseg hostOps0_2 hostOps0_2_sub hostOps0_2_fresh (V2 m)),
    .host (hseg hostOps0_3 hostOps0_3_sub hostOps0_3_fresh (V3 m)),
    .host (hseg hostOps0_4 hostOps0_4_sub hostOps0_4_fresh (V4 m)),
    .region (reg0 m),
    .region (reg1 m),
    .host (hseg hostOps2 hostOps2_sub hostOps2_fresh (W7 m)) ]
theorem main_run (c : Dev nD) : main (F := F) c = Pipeline.Seg.run (segs m) := (main_chain c).trans (by chain_rfl)

set_option backward.isDefEq.respectTransparency.types false in
/-- THE RUN. From any memory with zero counters, every weakly fair execution of the program on the TensorCores
    terminates, nothing faulting, and in every final state each unscoped buffer holds the last boundary's contents. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W8 m c b) :=
  Pipeline.θ_run_regions_kit (pcfgs (F := F)) adm (pdats m) () cellOf_inj emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ R c)) (Tₙ := Tₙ m)
    (hch := ⟨fun _ => .rfl, fun _ => .rfl, fun _ => .rfl, fun _ => .rfl, fun _ => .rfl, fun _ => .rfl, fun _ => .rfl, fun _ => .rfl,
      fun c => by
        show (iprop(StableHlo.held (c : Thread nD τ) (Pipeline.ucRefs τ sig) (W8 m c) ∗ R c) : sProp 𝕄)
          ⊢ iprop(Tₙ m c ∗ ∃ W, owes (c : Thread nD τ) (0 : CellTallies nD τ sig Unit) W)
        iintro ⟨Hh, Hp, Ho⟩
        isplitl [Hh Hp]
        · isplitl [Hh]; · iexact Hh
          iexact Hp
        iexact Ho⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m c b)
    (hfin := fun c s' => by
      iintro ⟨⟨Hh, -⟩, HSI⟩
      unfold StableHlo.held
      imodintro
      iapply (pointsTo_read_all (Pipeline.ucRefs τ sig) (fun b => (((c : Thread nD τ)).1, b)) (W8 m c) s')
      isplitl [Hh] <;> iassumption)
    (hQ := fun s h => h)

/-- THE FRAME: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨(h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c),
    (h c _ (mem_uc main_arg13 (by decide))).trans (W8_main_arg13 m c),
    (h c _ (mem_uc main_arg14 (by decide))).trans (W8_main_arg14 m c)⟩) (run_all m ρ)

/-- THE RESULT: beside the frame, the result buffer ends at the last boundary's contents. -/
theorem run_result : θ_run defs (onTc (τ := τ) (main (F := F))) ⟨m, fun _ => 0, ρ⟩ (fun r => ∀ c : Dev nD,
      r.2.mem ((c.tc : Thread nD τ).loc main_v32) = W8 m c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  (θ_run defs _ _).mono (fun r h c => ⟨h c _ (mem_uc main_v32 (by decide)), (h c _ (mem_uc main_arg0 (by decide))).trans (W8_main_arg0 m c),
    (h c _ (mem_uc main_arg1 (by decide))).trans (W8_main_arg1 m c),
    (h c _ (mem_uc main_arg2 (by decide))).trans (W8_main_arg2 m c),
    (h c _ (mem_uc main_arg3 (by decide))).trans (W8_main_arg3 m c),
    (h c _ (mem_uc main_arg4 (by decide))).trans (W8_main_arg4 m c),
    (h c _ (mem_uc main_arg5 (by decide))).trans (W8_main_arg5 m c),
    (h c _ (mem_uc main_arg6 (by decide))).trans (W8_main_arg6 m c),
    (h c _ (mem_uc main_arg7 (by decide))).trans (W8_main_arg7 m c),
    (h c _ (mem_uc main_arg8 (by decide))).trans (W8_main_arg8 m c),
    (h c _ (mem_uc main_arg9 (by decide))).trans (W8_main_arg9 m c),
    (h c _ (mem_uc main_arg10 (by decide))).trans (W8_main_arg10 m c),
    (h c _ (mem_uc main_arg11 (by decide))).trans (W8_main_arg11 m c),
    (h c _ (mem_uc main_arg12 (by decide))).trans (W8_main_arg12 m c),
    (h c _ (mem_uc main_arg13 (by decide))).trans (W8_main_arg13 m c),
    (h c _ (mem_uc main_arg14 (by decide))).trans (W8_main_arg14 m c)⟩) (run_all m ρ)

end Cert.KernelIdeal.Reg

end
-- ==== Proof.IdealSide.Cases0.lean ====
/-
  What each case of the first kernel's body leaves, as values: the accumulator after a point with k = 0 is
  zero plus the product of the two blocks; after any other point it is what the point before left plus the product;
  at the last k the output block is the accumulator narrowed to the output's format.
-/
import proofs.«173439_j75874892251349_2_alg».proof.Proof.IdealSide.Acc0
import Idealize.ShloMosaic.Lib.Pipeline.Value

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout0_A_eq (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : cond0_0 i) (hc1 : ¬cond0_1 i) (x0 : Vec F S1024x256 .bf16) (x1 : Vec F S4224x256 .bf16) :
    sout0_A c i arg2 harg2 arg3 harg3 arg4 harg4 arg5 harg5 hc0 hc1 x0 x1 = k0_pay2 (k0_pay1 (F := F)) x0 x1 := by
  unfold sout0_A
  rw [View.read_writes_eq_canon _ _ _ (scover0_A c i arg2 harg2 arg3 harg3 arg4 harg4 arg5 harg5 hc0 hc1 x0 x1)]
  unfold kernelRun0_A
  dsimp only
  sl_unfold_words
  rw [View.canon_cons_unit_zero (S := S1024x4224) hz2, View.readCov_unit_zero (S := S1024x4224) _ hz2]
  simp only [View.readAt_eq_ld, harg2.read_unread, harg3.read_unread, View.ld_unit_zero (S := S1024x256) hz2, View.ld_unit_zero (S := S4224x256) hz2]

theorem sout0_B_eq (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : ¬cond0_1 i) (x0 : Vec F S1024x256 .bf16) (x1 : Vec F S4224x256 .bf16) (xs0 : Vec F S1024x4224 .f32) :
    sout0_B c i arg2 harg2 arg3 harg3 arg4 harg4 arg5 harg5 hc0 hc1 x0 x1 xs0 = k0_pay2 xs0 x0 x1 := by
  unfold sout0_B
  rw [View.read_writes_eq_canon _ _ _ (scover0_B c i arg2 harg2 arg3 harg3 arg4 harg4 arg5 harg5 hc0 hc1 x0 x1 xs0)]
  unfold kernelRun0_B
  dsimp only
  rw [View.canon_unit_zero hz2]
  simp only [View.readAt_eq_ld, harg5.read_unread, harg2.read_unread, harg3.read_unread, View.ld_unit_zero (S := S1024x4224) hz2, View.ld_unit_zero (S := S1024x256) hz2, View.ld_unit_zero (S := S4224x256) hz2]

theorem sout0_C_eq (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) :
    sout0_C c i arg2 harg2 arg3 harg3 arg4 harg4 arg5 harg5 hc0 hc1 x0 x1 xs0 = k0_pay2 xs0 x0 x1 := by
  unfold sout0_C
  rw [View.read_writes_eq_canon _ _ _ (scover0_C c i arg2 harg2 arg3 harg3 arg4 harg4 arg5 harg5 hc0 hc1 x0 x1 xs0)]
  unfold kernelRun0_C
  dsimp only
  sl_unfold_words
  rw [View.canon_unit_zero hz2]
  simp only [View.readAt_eq_ld, harg5.read_unread, harg2.read_unread, harg3.read_unread, View.ld_unit_zero (S := S1024x4224) hz2, View.ld_unit_zero (S := S1024x256) hz2, View.ld_unit_zero (S := S4224x256) hz2]

theorem out0_C_eq (c : Dev nD) (i : grid0.Coords) (arg2 : Memref sig .tc .vmem S1024x256 .bf16) (harg2 : arg2.IsWhole) (arg3 : Memref sig .tc .vmem S4224x256 .bf16) (harg3 : arg3.IsWhole) (arg4 : Memref sig .tc .vmem S1024x4224 .bf16) (harg4 : arg4.IsWhole) (arg5 : Memref sig .tc .vmem S1024x4224 .f32) (harg5 : arg5.IsWhole) (hc0 : ¬cond0_0 i) (hc1 : cond0_1 i) (x0 : Vec F S1024x256 .bf16) (x1 : Vec F S4224x256 .bf16) (xs0 : Vec F S1024x4224 .f32) :
    out0_C c i arg2 harg2 arg3 harg3 arg4 harg4 arg5 harg5 hc0 hc1 x0 x1 xs0 = k0_pay3 (k0_pay2 xs0 x0 x1) := by
  unfold out0_C
  rw [View.read_writes_eq_canon _ _ _ (cover0_C c i arg2 harg2 arg3 harg3 arg4 harg4 arg5 harg5 hc0 hc1 x0 x1 xs0)]
  unfold kernelRun0_C
  dsimp only
  sl_unfold_words
  rw [View.canon_unit_zero hz2, View.readCov_unit_zero (S := S1024x4224) _ hz2]
  simp only [View.readAt_eq_ld, harg5.read_unread, harg2.read_unread, harg3.read_unread, View.ld_unit_zero (S := S1024x4224) hz2, View.ld_unit_zero (S := S1024x256) hz2, View.ld_unit_zero (S := S4224x256) hz2]

end Cert.KernelIdeal.Reg

end
-- ==== Proof.IdealSide.Steps0.lean ====
/-
  The first product's accumulator from one grid point to the next, as values: at a point with k = 0 it is zero plus
  the product of the two blocks; at any other point it is what the point before left plus the product; and at the
  last k the output block is the accumulator in the output's format.
-/
import proofs.«173439_j75874892251349_2_alg».proof.Proof.IdealSide.Cases0

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at point `t`. -/
abbrev accAfter0 (c : Dev nD) (t : Fin cfg0.N) : Vec F S1024x4224 .f32 := (outsAt0 V c t.val t.isLt).2

set_option maxHeartbeats 1000000 in
theorem acc0_first (c : Dev nD) (t : Fin cfg0.N) (h0 : t.val % 16 = 0) :
    accAfter0 V c t = k0_pay2 (k0_pay1 (F := F)) (iblk0 V c 0 t) (iblk0 V c 1 t) := by
  have h1 : ¬t.val % 16 = 15 := by omega
  unfold accAfter0
  rw [outsAt0_A V c t h0 h1]
  dsimp only
  rw [sout0_A_eq]

set_option maxHeartbeats 1000000 in
theorem acc0_next (c : Dev nD) (t : Fin cfg0.N) (h0 : ¬t.val % 16 = 0) :
    accAfter0 V c t = k0_pay2 ((outsAt0 V c (t.val - 1) (Nat.lt_of_le_of_lt (Nat.sub_le _ _) t.isLt)).2) (iblk0 V c 0 t) (iblk0 V c 1 t) := by
  unfold accAfter0
  by_cases h1 : t.val % 16 = 15
  · rw [outsAt0_C V c t h0 h1]
    dsimp only
    rw [sout0_C_eq]
  · rw [outsAt0_B V c t h0 h1]
    dsimp only
    rw [sout0_B_eq]

theorem out0_last (c : Dev nD) (t : Fin cfg0.N) (h1 : t.val % 16 = 15) :
    (outsAt0 V c t.val t.isLt).1 = k0_pay3 (accAfter0 V c t) := by
  have h0 : ¬t.val % 16 = 0 := by omega
  unfold accAfter0
  rw [outsAt0_C V c t h0 h1]
  dsimp only
  rw [out0_C_eq, sout0_C_eq]

end Cert.KernelIdeal.Reg

end
-- ==== Proof.PayloadValue.lean ====
/-
  THE TWO KERNEL BODIES' STORED VALUES, READ AT AN INDEX, at the ideal instance.

  Each body keeps a float accumulator block. Its first store clears the block (all zeros); its second adds to the
  block the product of the step's two operand blocks, contracted along their common second axis,
    new[p, q] = old[p, q] + Σ_l x[p, l] * v[q, l];
  its third writes the block out: unchanged up to the change of float format (the identity on extended reals) in the
  first body, plus the bias row in the second. The shape casts in the bodies are casts to the same shape.
-/
import proofs.«173439_j75874892251349_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.PayloadValue

open Cert.KernelIdeal Cert.KernelIdeal.Gen Idealize.ShloMosaic Idealize.ShloMosaic.ValueIdx
open scoped BigOperators

/-! ## The first body: blocks 1024 x 256 and 4224 x 256 into 1024 x 4224 -/

/-- The cleared accumulator. -/
theorem k0_pay1_apply (p : Fin 1024) (q : Fin 4224) : k0_pay1 (F := Ideal) (ix2 p q) = 0 := by
  unfold k0_pay1
  simp only [shapeCast_self]
  exact Ideal.ofBits_zero_f32

theorem k0_lhs_0 (i : S1024x4224.Idx) (c : dot_S1024x256_S4224x256_S1024x4224_1_1_0_0_n_n.contr.Idx) :
    (dot_S1024x256_S4224x256_S1024x4224_1_1_0_0_n_n.lhsIdx i c 0).val = (i 0).val := by
  unfold DotDims.lhsIdx
  rw [dif_neg (show ¬(0 : Fin S1024x256.rank) ∈ dot_S1024x256_S4224x256_S1024x4224_1_1_0_0_n_n.lhsBatch by decide),
    dif_pos (show (0 : Fin S1024x256.rank) ∈ dot_S1024x256_S4224x256_S1024x4224_1_1_0_0_n_n.lhsNonContracting by decide)]
  rfl
theorem k0_lhs_1 (i : S1024x4224.Idx) (c : dot_S1024x256_S4224x256_S1024x4224_1_1_0_0_n_n.contr.Idx) :
    (dot_S1024x256_S4224x256_S1024x4224_1_1_0_0_n_n.lhsIdx i c 1).val = (c ⟨0, by decide⟩).val :=
  dot_S1024x256_S4224x256_S1024x4224_1_1_0_0_n_n.lhsIdx_val_of_single rfl i c
theorem k0_rhs_0 (i : S1024x4224.Idx) (c : dot_S1024x256_S4224x256_S1024x4224_1_1_0_0_n_n.contr.Idx) :
    (dot_S1024x256_S4224x256_S1024x4224_1_1_0_0_n_n.rhsIdx i c 0).val = (i 1).val := by
  unfold DotDims.rhsIdx
  rw [dif_neg (show ¬(0 : Fin S4224x256.rank) ∈ dot_S1024x256_S4224x256_S1024x4224_1_1_0_0_n_n.rhsBatch by decide),
    dif_pos (show (0 : Fin S4224x256.rank) ∈ dot_S1024x256_S4224x256_S1024x4224_1_1_0_0_n_n.rhsNonContracting by decide)]
  rfl
theorem k0_rhs_1 (i : S1024x4224.Idx) (c : dot_S1024x256_S4224x256_S1024x4224_1_1_0_0_n_n.contr.Idx) :
    (dot_S1024x256_S4224x256_S1024x4224_1_1_0_0_n_n.rhsIdx i c 1).val = (c ⟨0, by decide⟩).val :=
  dot_S1024x256_S4224x256_S1024x4224_1_1_0_0_n_n.rhsIdx_val_of_single rfl i c

/-- The product of the two operand blocks at (p, q): row p of x against row q of v. -/
theorem k0_product (x : FVec Ideal S1024x256 .bf16) (v : FVec Ideal S4224x256 .bf16) (p : Fin 1024) (q : Fin 4224) :
    FloatOps.matmul dot_S1024x256_S4224x256_S1024x4224_1_1_0_0_n_n none x v
        (constant (F := Ideal) S1024x4224 .f32 0x00000000#32) (ix2 p q)
      = ∑ l : Fin 256, x (ix2 p l) * v (ix2 q l) := by
  refine (Ideal.matmul_constant_zero_apply dot_S1024x256_S4224x256_S1024x4224_1_1_0_0_n_n none x v (ix2 p q)).trans ?_
  rw [← Equiv.sum_comp (contrEquiv1 dot_S1024x256_S4224x256_S1024x4224_1_1_0_0_n_n 256 rfl rfl).symm]
  refine Finset.sum_congr rfl fun k _ => ?_
  have hk := contrEquiv1_symm_val dot_S1024x256_S4224x256_S1024x4224_1_1_0_0_n_n 256 rfl rfl k
  have el : dot_S1024x256_S4224x256_S1024x4224_1_1_0_0_n_n.lhsIdx (ix2 p q)
      ((contrEquiv1 dot_S1024x256_S4224x256_S1024x4224_1_1_0_0_n_n 256 rfl rfl).symm k) = ix2 p k :=
    funext fun a => Fin.ext (by
      match a with
      | ⟨0, _⟩ => exact k0_lhs_0 _ _
      | ⟨1, _⟩ => exact (k0_lhs_1 _ _).trans hk)
  have er : dot_S1024x256_S4224x256_S1024x4224_1_1_0_0_n_n.rhsIdx (ix2 p q)
      ((contrEquiv1 dot_S1024x256_S4224x256_S1024x4224_1_1_0_0_n_n 256 rfl rfl).symm k) = ix2 q k :=
    funext fun a => Fin.ext (by
      match a with
      | ⟨0, _⟩ => exact k0_rhs_0 _ _
      | ⟨1, _⟩ => exact (k0_rhs_1 _ _).trans hk)
  rw [el, er]

/-- The accumulation step. -/
theorem k0_pay2_apply (acc : Vec Ideal S1024x4224 .f32) (x : Vec Ideal S1024x256 .bf16) (v : Vec Ideal S4224x256 .bf16)
    (p : Fin 1024) (q : Fin 4224) :
    k0_pay2 (F := Ideal) acc x v (ix2 p q) = acc (ix2 p q) + ∑ l : Fin 256, x (ix2 p l) * v (ix2 q l) := by
  unfold k0_pay2
  simp only [shapeCast_self]
  exact congrArg (acc (ix2 p q) + ·) (k0_product x v p q)

/-- The block written out: the accumulator, the change of float format being the identity. -/
theorem k0_pay3_apply (acc : Vec Ideal S1024x4224 .f32) (p : Fin 1024) (q : Fin 4224) :
    k0_pay3 (F := Ideal) acc (ix2 p q) = acc (ix2 p q) := rfl

/-! ## The second body: blocks 512 x 384 and 4096 x 384 into 512 x 4096, then the bias row -/

/-- The cleared accumulator. -/
theorem k1_pay1_apply (p : Fin 512) (q : Fin 4096) : k1_pay1 (F := Ideal) (ix2 p q) = 0 := by
  unfold k1_pay1
  simp only [shapeCast_self]
  exact Ideal.ofBits_zero_f32

theorem k1_lhs_0 (i : S512x4096.Idx) (c : dot_S512x384_S4096x384_S512x4096_1_1_0_0_n_n.contr.Idx) :
    (dot_S512x384_S4096x384_S512x4096_1_1_0_0_n_n.lhsIdx i c 0).val = (i 0).val := by
  unfold DotDims.lhsIdx
  rw [dif_neg (show ¬(0 : Fin S512x384.rank) ∈ dot_S512x384_S4096x384_S512x4096_1_1_0_0_n_n.lhsBatch by decide),
    dif_pos (show (0 : Fin S512x384.rank) ∈ dot_S512x384_S4096x384_S512x4096_1_1_0_0_n_n.lhsNonContracting by decide)]
  rfl
theorem k1_lhs_1 (i : S512x4096.Idx) (c : dot_S512x384_S4096x384_S512x4096_1_1_0_0_n_n.contr.Idx) :
    (dot_S512x384_S4096x384_S512x4096_1_1_0_0_n_n.lhsIdx i c 1).val = (c ⟨0, by decide⟩).val :=
  dot_S512x384_S4096x384_S512x4096_1_1_0_0_n_n.lhsIdx_val_of_single rfl i c
theorem k1_rhs_0 (i : S512x4096.Idx) (c : dot_S512x384_S4096x384_S512x4096_1_1_0_0_n_n.contr.Idx) :
    (dot_S512x384_S4096x384_S512x4096_1_1_0_0_n_n.rhsIdx i c 0).val = (i 1).val := by
  unfold DotDims.rhsIdx
  rw [dif_neg (show ¬(0 : Fin S4096x384.rank) ∈ dot_S512x384_S4096x384_S512x4096_1_1_0_0_n_n.rhsBatch by decide),
    dif_pos (show (0 : Fin S4096x384.rank) ∈ dot_S512x384_S4096x384_S512x4096_1_1_0_0_n_n.rhsNonContracting by decide)]
  rfl
theorem k1_rhs_1 (i : S512x4096.Idx) (c : dot_S512x384_S4096x384_S512x4096_1_1_0_0_n_n.contr.Idx) :
    (dot_S512x384_S4096x384_S512x4096_1_1_0_0_n_n.rhsIdx i c 1).val = (c ⟨0, by decide⟩).val :=
  dot_S512x384_S4096x384_S512x4096_1_1_0_0_n_n.rhsIdx_val_of_single rfl i c

/-- The product of the two operand blocks at (p, q): row p of y against row q of u. -/
theorem k1_product (y : FVec Ideal S512x384 .bf16) (u : FVec Ideal S4096x384 .bf16) (p : Fin 512) (q : Fin 4096) :
    FloatOps.matmul dot_S512x384_S4096x384_S512x4096_1_1_0_0_n_n none y u
        (constant (F := Ideal) S512x4096 .f32 0x00000000#32) (ix2 p q)
      = ∑ l : Fin 384, y (ix2 p l) * u (ix2 q l) := by
  refine (Ideal.matmul_constant_zero_apply dot_S512x384_S4096x384_S512x4096_1_1_0_0_n_n none y u (ix2 p q)).trans ?_
  rw [← Equiv.sum_comp (contrEquiv1 dot_S512x384_S4096x384_S512x4096_1_1_0_0_n_n 384 rfl rfl).symm]
  refine Finset.sum_congr rfl fun k _ => ?_
  have hk := contrEquiv1_symm_val dot_S512x384_S4096x384_S512x4096_1_1_0_0_n_n 384 rfl rfl k
  have el : dot_S512x384_S4096x384_S512x4096_1_1_0_0_n_n.lhsIdx (ix2 p q)
      ((contrEquiv1 dot_S512x384_S4096x384_S512x4096_1_1_0_0_n_n 384 rfl rfl).symm k) = ix2 p k :=
    funext fun a => Fin.ext (by
      match a with
      | ⟨0, _⟩ => exact k1_lhs_0 _ _
      | ⟨1, _⟩ => exact (k1_lhs_1 _ _).trans hk)
  have er : dot_S512x384_S4096x384_S512x4096_1_1_0_0_n_n.rhsIdx (ix2 p q)
      ((contrEquiv1 dot_S512x384_S4096x384_S512x4096_1_1_0_0_n_n 384 rfl rfl).symm k) = ix2 q k :=
    funext fun a => Fin.ext (by
      match a with
      | ⟨0, _⟩ => exact k1_rhs_0 _ _
      | ⟨1, _⟩ => exact (k1_rhs_1 _ _).trans hk)
  rw [el, er]

/-- The accumulation step. -/
theorem k1_pay2_apply (acc : Vec Ideal S512x4096 .f32) (y : Vec Ideal S512x384 .bf16) (u : Vec Ideal S4096x384 .bf16)
    (p : Fin 512) (q : Fin 4096) :
    k1_pay2 (F := Ideal) acc y u (ix2 p q) = acc (ix2 p q) + ∑ l : Fin 384, y (ix2 p l) * u (ix2 q l) := by
  unfold k1_pay2
  simp only [shapeCast_self]
  exact congrArg (acc (ix2 p q) + ·) (k1_product y u p q)

/-- The block written out: the accumulator plus the bias row, the same row for every p. -/
theorem k1_pay3_apply (acc : Vec Ideal S512x4096 .f32) (bias : Vec Ideal S1x4096 .f32) (p : Fin 512) (q : Fin 4096) :
    k1_pay3 (F := Ideal) acc bias (ix2 p q) = acc (ix2 p q) + bias (ix2 (0 : Fin 1) q) := by
  unfold k1_pay3
  simp only [shapeCast_self]
  refine congrArg (acc (ix2 p q) + ·) ?_
  refine broadcastTo_apply bias broadcasts_S1x4096_S512x4096 (ix2 p q) (ix2 (0 : Fin 1) q) (fun a => ?_)
  match a with
  | ⟨0, _⟩ => show 0 = if (1 : Nat) = 1 then 0 else _; rw [if_pos rfl]
  | ⟨1, _⟩ => show q.val = if (4096 : Nat) = 1 then 0 else q.val; rw [if_neg (by decide)]

end Cert.PayloadValue

end
-- ==== Proof.BlockReads0.lean ====
/-
  THE FIRST PRODUCT'S BLOCKS. Its grid is 4 x 16 with the second coordinate moving fastest: grid point t has
  coordinates (t / 16, t % 16). At point t the first operand's window holds the 1024 x 256 block of the
  [4096, 4096] array at block position (t / 16, t % 16), the second operand's window the 4224 x 256 block of the
  [4224, 4096] array at block position (0, t % 16), and the result's window the 1024 x 4224 block of the
  [4096, 4224] array at block position (t / 16, 0), written back at the last point of each row of the grid
  (t % 16 = 15). A block's entry at a coordinate inside the block is the array's entry at
  block position * block size + coordinate; the result's blocks written back cover the whole array.
-/
import proofs.«173439_j75874892251349_2_alg».proof.Proof.Gen.KernelIdeal.Points
import Idealize.ShloMosaic.Lib.Pipeline.Value
import Idealize.ShloMosaic.Lib.ValueIdx

noncomputable section

namespace Cert.BlockReads0

open Cert.KernelIdeal Cert.KernelIdeal.Gen Idealize.ShloMosaic Idealize.ShloMosaic.ValueIdx

/-- The grid has 64 points. -/
theorem N0 : cfg0.N = 64 := by decide

theorem t_lt (t : Fin cfg0.N) : t.val < 64 := lt_of_lt_of_eq t.isLt N0

/-- The printed index maps, decided over the grid: the block position of each window at point t. -/
theorem idx_facts : ∀ t : Fin cfg0.N, win0_0.index t (0 : Fin 2) = t.val / 16 ∧ win0_0.index t (1 : Fin 2) = t.val % 16
    ∧ win0_1.index t (0 : Fin 2) = 0 ∧ win0_1.index t (1 : Fin 2) = t.val % 16
    ∧ win0_2.index t (0 : Fin 2) = t.val / 16 ∧ win0_2.index t (1 : Fin 2) = 0 :=
  (by decide +kernel : ∀ t : Fin grid0.N, _)

/-- The first operand's block at point t, read at (p, l): rows 1024 (t / 16) .., columns 256 (t % 16) ... -/
theorem blk0_0_read (t : Fin cfg0.N) (a : ((cfg0.win 0).blk t).view.ty.Contents (Elt Ideal)) (p : Fin 1024) (l : Fin 256) :
    ((cfg0.win 0).blk t).view.read (Elt Ideal) a (ix2 p l)
      = a (ix2 (⟨1024 * (t.val / 16) + p.val, by have := t_lt t; omega⟩ : Fin 4096)
          (⟨256 * (t.val % 16) + l.val, by omega⟩ : Fin 4096)) := by
  obtain ⟨e00, e01, -, -, -, -⟩ := idx_facts t
  rw [View.read_apply]
  show a _ = a _
  congr 1
  funext d
  apply Fin.ext
  match d with
  | ⟨0, _⟩ => show win0_0.index t (0 : Fin 2) * 1024 + 1 * p.val = 1024 * (t.val / 16) + p.val; rw [e00]; omega
  | ⟨1, _⟩ => show win0_0.index t (1 : Fin 2) * 256 + 1 * l.val = 256 * (t.val % 16) + l.val; rw [e01]; omega

/-- The second operand's block at point t, read at (q, l): all 4224 rows, columns 256 (t % 16) ... -/
theorem blk0_1_read (t : Fin cfg0.N) (a : ((cfg0.win 1).blk t).view.ty.Contents (Elt Ideal)) (q : Fin 4224) (l : Fin 256) :
    ((cfg0.win 1).blk t).view.read (Elt Ideal) a (ix2 q l)
      = a (ix2 q (⟨256 * (t.val % 16) + l.val, by omega⟩ : Fin 4096)) := by
  obtain ⟨-, -, e10, e11, -, -⟩ := idx_facts t
  rw [View.read_apply]
  show a _ = a _
  congr 1
  funext d
  apply Fin.ext
  match d with
  | ⟨0, _⟩ => show win0_1.index t (0 : Fin 2) * 4224 + 1 * q.val = q.val; rw [e10]; omega
  | ⟨1, _⟩ => show win0_1.index t (1 : Fin 2) * 256 + 1 * l.val = 256 * (t.val % 16) + l.val; rw [e11]; omega

/-- The result's block at point t, read at (p, q): rows 1024 (t / 16) .., all 4224 columns. -/
theorem blk0_2_read (t : Fin cfg0.N) (a : ((cfg0.win 2).blk t).view.ty.Contents (Elt Ideal)) (p : Fin 1024) (q : Fin 4224) :
    ((cfg0.win 2).blk t).view.read (Elt Ideal) a (ix2 p q)
      = a (ix2 (⟨1024 * (t.val / 16) + p.val, by have := t_lt t; omega⟩ : Fin 4096) q) := by
  obtain ⟨-, -, -, -, e20, e21⟩ := idx_facts t
  rw [View.read_apply]
  show a _ = a _
  congr 1
  funext d
  apply Fin.ext
  match d with
  | ⟨0, _⟩ => show win0_2.index t (0 : Fin 2) * 1024 + 1 * p.val = 1024 * (t.val / 16) + p.val; rw [e20]; omega
  | ⟨1, _⟩ => show win0_2.index t (1 : Fin 2) * 4224 + 1 * q.val = q.val; rw [e21]; omega

/-- An index of the [4096, 4224] array is in point t's result block iff its row is one of the block's 1024 rows. -/
theorem mem_blk0_2 (t : Fin cfg0.N) (i : S4096x4224.Idx) :
    i ∈ ((cfg0.win 2).blk t).view.set ↔ 1024 * (t.val / 16) ≤ (i 0).val ∧ (i 0).val < 1024 * (t.val / 16) + 1024 := by
  obtain ⟨-, -, -, -, e20, e21⟩ := idx_facts t
  have key : i ∈ ((cfg0.win 2).blk t).view.set ↔ ∀ a : Fin 2, win0_2.index t a * S1024x4224.size a ≤ (i a).val
      ∧ (i a).val < win0_2.index t a * S1024x4224.size a + S1024x4224.size a := by
    show i ∈ ((View.whole main_v30).slice (win0_2.rect t)).set ↔ _
    rw [View.set_slice_whole, Rect.mem_set_unit]
    exact Iff.rfl
  rw [key]
  have hi1 : (i 1).val < 4224 := idx2_lt1 i
  constructor
  · intro h
    have b0 : win0_2.index t (0 : Fin 2) * 1024 ≤ (i 0).val ∧ (i 0).val < win0_2.index t (0 : Fin 2) * 1024 + 1024 := h 0
    rw [e20] at b0
    omega
  · intro h a
    match a with
    | ⟨0, _⟩ =>
      show win0_2.index t (0 : Fin 2) * 1024 ≤ (i 0).val ∧ (i 0).val < win0_2.index t (0 : Fin 2) * 1024 + 1024
      rw [e20]; omega
    | ⟨1, _⟩ =>
      show win0_2.index t (1 : Fin 2) * 4224 ≤ (i 1).val ∧ (i 1).val < win0_2.index t (1 : Fin 2) * 4224 + 4224
      rw [e21]; omega

/-- Every index of the [4096, 4224] array is in a block that is written back: the last point of its row of the grid. -/
theorem cover0_2 (i : S4096x4224.Idx) :
    ∃ t : Fin cfg0.N, (cfg0.win 2).flush t = true ∧ i ∈ ((cfg0.win 2).blk t).view.set := by
  have hi0 : (i 0).val < 4096 := idx2_lt0 i
  refine ⟨⟨16 * ((i 0).val / 1024) + 15, by rw [N0]; omega⟩, ?_, ?_⟩
  · exact (flush0_2 _).2 (show (16 * ((i 0).val / 1024) + 15) % 16 = 15 by omega)
  · rw [mem_blk0_2]
    show 1024 * ((16 * ((i 0).val / 1024) + 15) / 16) ≤ (i 0).val
      ∧ (i 0).val < 1024 * ((16 * ((i 0).val / 1024) + 15) / 16) + 1024
    omega

end Cert.BlockReads0

end
-- ==== Proof.LibBlockSum.lean ====
/-
  Blocked sums. A sum over `a * b` consecutive indices taken block by block — `a` consecutive blocks of `b`
  indices each — is the whole sum. Stated over the naturals below a bound, over `Fin`-indexed families, and at the
  two literal sizes 16 × 256 = 4096 and 11 × 384 = 4224.
-/
import Mathlib.Algebra.BigOperators.Fin
import Mathlib.Algebra.BigOperators.Intervals

namespace Cert.LibBlockSum

open Finset

variable {M : Type*} [AddCommMonoid M]

/-- The sum of `f` over the first `a * b` naturals, taken as `a` consecutive blocks of `b`, is the whole sum. -/
theorem sum_range_blocks (a b : ℕ) (f : ℕ → M) :
    ∑ j ∈ range a, ∑ l ∈ range b, f (b * j + l) = ∑ i ∈ range (a * b), f i := by
  induction a with
  | zero => simp
  | succ a ih =>
    rw [Finset.sum_range_succ, ih, Nat.succ_mul, Finset.sum_range_add, Nat.mul_comm b a]

/-- The same over `Fin`-indexed blocks: block `j` of `a`, position `l` of `b` inside it, is index `b * j + l`. -/
theorem sum_fin_blocks (a b : ℕ) (f : ℕ → M) :
    ∑ j : Fin a, ∑ l : Fin b, f (b * j.val + l.val) = ∑ i : Fin (a * b), f i.val := by
  rw [Fin.sum_univ_eq_sum_range (fun i => f i) (a * b), ← sum_range_blocks a b f,
    ← Fin.sum_univ_eq_sum_range (fun j => ∑ l ∈ range b, f (b * j + l)) a]
  exact Finset.sum_congr rfl fun j _ => Fin.sum_univ_eq_sum_range (fun l => f (b * j.val + l)) b

/-- Position `l` of block `j` lies below `a * b`. -/
theorem block_index_lt {a b j l : ℕ} (hj : j < a) (hl : l < b) : b * j + l < a * b :=
  calc b * j + l < b * j + b := Nat.add_lt_add_left hl _
    _ = b * (j + 1) := (Nat.mul_succ b j).symm
    _ ≤ b * a := Nat.mul_le_mul_left b hj
    _ = a * b := Nat.mul_comm b a

/-- A family over `Fin n` with `n = a * b`, summed block by block, is summed whole. -/
theorem sum_fin_blocks_of_eq {n : ℕ} (a b : ℕ) (hn : a * b = n) (g : Fin n → M) :
    ∑ j : Fin a, ∑ l : Fin b, g ⟨b * j.val + l.val, hn ▸ block_index_lt j.isLt l.isLt⟩ = ∑ i : Fin n, g i := by
  subst hn
  have h := sum_fin_blocks a b (fun k => if hk : k < a * b then g ⟨k, hk⟩ else 0)
  refine Eq.trans (Finset.sum_congr rfl fun j _ => Finset.sum_congr rfl fun l _ => ?_)
    (h.trans (Finset.sum_congr rfl fun i _ => ?_))
  · rw [dif_pos (block_index_lt j.isLt l.isLt)]
  · rw [dif_pos i.isLt]

/-- 16 blocks of 256 make 4096. -/
theorem sum_blocks_16_256 (g : Fin 4096 → M) :
    ∑ j : Fin 16, ∑ l : Fin 256, g ⟨256 * j.val + l.val, by omega⟩ = ∑ i : Fin 4096, g i :=
  sum_fin_blocks_of_eq 16 256 rfl g

/-- 11 blocks of 384 make 4224. -/
theorem sum_blocks_11_384 (g : Fin 4224 → M) :
    ∑ j : Fin 11, ∑ l : Fin 384, g ⟨384 * j.val + l.val, by omega⟩ = ∑ i : Fin 4224, g i :=
  sum_fin_blocks_of_eq 11 384 rfl g

end Cert.LibBlockSum
-- ==== Proof.LibAccumulate.lean ====
/-
  Accumulated sums. A quantity that starts as 0 + f 0 and has f (n + 1) added at step n + 1 is, after step n, the
  sum of f over the first n + 1 naturals. Stated for any commutative additive monoid (the extended reals are one),
  unbounded and for a recursion that only runs below a bound; then for an accumulation over the consecutive blocks of
  a blocked index range, whose last value is the whole sum (16 blocks of 256, 11 blocks of 384).
-/
import proofs.«173439_j75874892251349_2_alg».proof.Proof.LibBlockSum

namespace Cert.LibAccumulate

open Finset

variable {M : Type*} [AddCommMonoid M]

/-- g 0 = 0 + f 0 and g (n + 1) = g n + f (n + 1) give g n = Σ_{j ≤ n} f j. -/
theorem partial_sums (f g : ℕ → M) (h0 : g 0 = 0 + f 0) (hs : ∀ n, g (n + 1) = g n + f (n + 1)) (n : ℕ) :
    g n = ∑ j ∈ range (n + 1), f j := by
  induction n with
  | zero => rw [h0, zero_add, Finset.sum_range_one]
  | succ n ih => rw [hs, ih, Finset.sum_range_succ f (n + 1)]

/-- The same when the recursion is only known below a bound N. -/
theorem partial_sums_lt (N : ℕ) (f g : ℕ → M) (h0 : g 0 = 0 + f 0)
    (hs : ∀ n, n + 1 < N → g (n + 1) = g n + f (n + 1)) (n : ℕ) (hn : n < N) :
    g n = ∑ j ∈ range (n + 1), f j := by
  induction n with
  | zero => rw [h0, zero_add, Finset.sum_range_one]
  | succ n ih => rw [hs n hn, ih (by omega), Finset.sum_range_succ f (n + 1)]

/-- After the last step the accumulated value is the sum over all N steps. -/
theorem total_sum (N : ℕ) (f g : ℕ → M) (h0 : g 0 = 0 + f 0)
    (hs : ∀ n, n + 1 < N → g (n + 1) = g n + f (n + 1)) (n : ℕ) (hn : n + 1 = N) :
    g n = ∑ j : Fin N, f j.val := by
  rw [partial_sums_lt N f g h0 hs n (by omega), hn, Fin.sum_univ_eq_sum_range (fun j => f j) N]

/-- The same with the steps and the accumulated values indexed by Fin N. -/
theorem total_sum_fin (N : ℕ) (f g : Fin N → M) (n : ℕ) (hn : n + 1 = N)
    (h0 : g ⟨0, by omega⟩ = 0 + f ⟨0, by omega⟩)
    (hs : ∀ (k : ℕ) (hk : k + 1 < N), g ⟨k + 1, hk⟩ = g ⟨k, by omega⟩ + f ⟨k + 1, hk⟩) :
    g ⟨n, by omega⟩ = ∑ j : Fin N, f j := by
  have key := total_sum N (fun k => if hk : k < N then f ⟨k, hk⟩ else 0) (fun k => if hk : k < N then g ⟨k, hk⟩ else 0)
    (by rw [dif_pos (by omega), dif_pos (by omega)]; exact h0)
    (fun k hk => by rw [dif_pos hk, dif_pos (by omega), dif_pos hk]; exact hs k hk) n hn
  rw [dif_pos (by omega)] at key
  rw [key]
  exact Finset.sum_congr rfl fun j _ => by rw [dif_pos j.isLt]

/-- Partial value of the accumulation indexed by Fin N: after step k it is the sum of the first k + 1 terms. -/
theorem partial_sums_fin (N : ℕ) (f g : Fin N → M) (hN : 0 < N) (h0 : g ⟨0, hN⟩ = 0 + f ⟨0, hN⟩)
    (hs : ∀ (k : ℕ) (hk : k + 1 < N), g ⟨k + 1, hk⟩ = g ⟨k, by omega⟩ + f ⟨k + 1, hk⟩) (k : Fin N) :
    g k = ∑ j ∈ range (k.val + 1), (if hj : j < N then f ⟨j, hj⟩ else 0) := by
  have key := partial_sums_lt N (fun k => if hk : k < N then f ⟨k, hk⟩ else 0)
    (fun k => if hk : k < N then g ⟨k, hk⟩ else 0)
    (by rw [dif_pos hN, dif_pos hN]; exact h0)
    (fun k hk => by rw [dif_pos hk, dif_pos (by omega), dif_pos hk]; exact hs k hk) k.val k.isLt
  rw [dif_pos k.isLt] at key
  exact key

/-! ## Accumulating the blocks of a blocked range -/

/-- An accumulation over the a blocks of b consecutive indices of a family over Fin n, n = a * b: starting from
    0 + (block 0's sum) and adding block k + 1's sum at step k + 1, the value after the last step is the whole sum. -/
theorem total_of_blocks {n : ℕ} (a b : ℕ) (hn : a * b = n) (F : Fin n → M) (g : Fin a → M) (m : ℕ) (hm : m + 1 = a)
    (h0 : g ⟨0, by omega⟩ = 0 + ∑ l : Fin b, F ⟨b * 0 + l.val, hn ▸ LibBlockSum.block_index_lt (by omega) l.isLt⟩)
    (hs : ∀ (k : ℕ) (hk : k + 1 < a), g ⟨k + 1, hk⟩
      = g ⟨k, by omega⟩ + ∑ l : Fin b, F ⟨b * (k + 1) + l.val, hn ▸ LibBlockSum.block_index_lt hk l.isLt⟩) :
    g ⟨m, by omega⟩ = ∑ i : Fin n, F i := by
  rw [← LibBlockSum.sum_fin_blocks_of_eq a b hn F]
  exact total_sum_fin a (fun j => ∑ l : Fin b, F ⟨b * j.val + l.val, hn ▸ LibBlockSum.block_index_lt j.isLt l.isLt⟩) g
    m hm h0 hs

/-- Sixteen blocks of 256: the sixteenth accumulated value is the sum over all 4096 indices. -/
theorem total_16_256 (F : Fin 4096 → M) (g : Fin 16 → M)
    (h0 : g 0 = 0 + ∑ l : Fin 256, F ⟨256 * 0 + l.val, by omega⟩)
    (hs : ∀ (k : ℕ) (hk : k + 1 < 16), g ⟨k + 1, hk⟩
      = g ⟨k, by omega⟩ + ∑ l : Fin 256, F ⟨256 * (k + 1) + l.val, by omega⟩) :
    g 15 = ∑ i : Fin 4096, F i :=
  total_of_blocks 16 256 rfl F g 15 rfl h0 hs

/-- Eleven blocks of 384: the eleventh accumulated value is the sum over all 4224 indices. -/
theorem total_11_384 (F : Fin 4224 → M) (g : Fin 11 → M)
    (h0 : g 0 = 0 + ∑ l : Fin 384, F ⟨384 * 0 + l.val, by omega⟩)
    (hs : ∀ (k : ℕ) (hk : k + 1 < 11), g ⟨k + 1, hk⟩
      = g ⟨k, by omega⟩ + ∑ l : Fin 384, F ⟨384 * (k + 1) + l.val, by omega⟩) :
    g 10 = ∑ i : Fin 4224, F i :=
  total_of_blocks 11 384 rfl F g 10 rfl h0 hs

end Cert.LibAccumulate
-- ==== Proof.LowRankSpec.lean ====
/-
  THE SPECIFICATION, stated without either program: a linear layer whose weight is kept in factored form.

  The weight is the sum of three low-rank products,
    W = (U_top · diag s_head) · Vh_top  +  (U_tail · diag S_tail) · Vh_tail  +  (B · diag (relu D) · R) · Vh_tail_r,
  with s_head = relu (S_top * alpha + beta) and B = U_tail_r · diag S_tail_r, and the layer's result is
    result[b, s, o] = (Σ_i x[b, s, i] * W[o, i]) + bias[o]                                   (the function "G" below).
  The same number can be computed WITHOUT forming W: stack the three left factors side by side (and 124 zero
  columns) into one [4096, 4224] array, stack the three right factors on top of each other (and 124 zero rows)
  into one [4224, 4096] array, and take two products, first Y = x · Vh_allᵀ and then Y · U_allᵀ + bias.
  This module names both computations index by index over literal shapes; every array is a function from an
  index to an extended real.
-/
import Idealize.ShloMosaic.PureOps.Ideal
import Idealize.ShloMosaic.Lib.ValueIdx

noncomputable section

open Idealize.ShloMosaic Idealize.ShloMosaic.ValueIdx
open scoped BigOperators

namespace Cert.LowRank

/-! ## The two products of the factored computation, for any operands -/

/-- The first product: row m of X against row r of V, Y[m, r] = Σ_i X[m, i] * V[r, i]. -/
def yOf (X : (⟨2, ![4096, 4096]⟩ : Shape).Idx → EReal) (V : (⟨2, ![4224, 4096]⟩ : Shape).Idx → EReal) :
    (⟨2, ![4096, 4224]⟩ : Shape).Idx → EReal :=
  fun j => ∑ i : Fin 4096, X (ix2 (j 0) i) * V (ix2 (j 1) i)

theorem yOf_apply (X : (⟨2, ![4096, 4096]⟩ : Shape).Idx → EReal) (V : (⟨2, ![4224, 4096]⟩ : Shape).Idx → EReal)
    (m : Fin 4096) (r : Fin 4224) :
    yOf X V (ix2 m r) = ∑ i : Fin 4096, X (ix2 m i) * V (ix2 r i) := rfl

/-- The second product and the bias: out[m, o] = (Σ_r Y[m, r] * U[o, r]) + B[0, o]. -/
def outOf (Y : (⟨2, ![4096, 4224]⟩ : Shape).Idx → EReal) (U : (⟨2, ![4096, 4224]⟩ : Shape).Idx → EReal)
    (B : (⟨2, ![1, 4096]⟩ : Shape).Idx → EReal) : (⟨2, ![4096, 4096]⟩ : Shape).Idx → EReal :=
  fun j => (∑ r : Fin 4224, Y (ix2 (j 0) r) * U (ix2 (j 1) r)) + B (ix2 (0 : Fin 1) (j 1))

theorem outOf_apply (Y : (⟨2, ![4096, 4224]⟩ : Shape).Idx → EReal) (U : (⟨2, ![4096, 4224]⟩ : Shape).Idx → EReal)
    (B : (⟨2, ![1, 4096]⟩ : Shape).Idx → EReal) (m o : Fin 4096) :
    outOf Y U B (ix2 m o) = (∑ r : Fin 4224, Y (ix2 m r) * U (ix2 o r)) + B (ix2 (0 : Fin 1) o) := rfl

/-! ## The fifteen inputs -/

/-- The layer's fifteen arrays, in the order the programs take them. -/
structure Inputs where
  x : (⟨3, ![4, 1024, 4096]⟩ : Shape).Idx → EReal
  uTop : (⟨2, ![4096, 64]⟩ : Shape).Idx → EReal
  sTop : (⟨1, ![64]⟩ : Shape).Idx → EReal
  vhTop : (⟨2, ![64, 4096]⟩ : Shape).Idx → EReal
  uTail : (⟨2, ![4096, 4032]⟩ : Shape).Idx → EReal
  sTail : (⟨1, ![4032]⟩ : Shape).Idx → EReal
  vhTail : (⟨2, ![4032, 4096]⟩ : Shape).Idx → EReal
  uTailR : (⟨2, ![4096, 4]⟩ : Shape).Idx → EReal
  sTailR : (⟨1, ![4]⟩ : Shape).Idx → EReal
  vhTailR : (⟨2, ![4, 4096]⟩ : Shape).Idx → EReal
  alpha : (⟨1, ![64]⟩ : Shape).Idx → EReal
  beta : (⟨1, ![64]⟩ : Shape).Idx → EReal
  dGate : (⟨1, ![4]⟩ : Shape).Idx → EReal
  rMix : (⟨2, ![4, 4]⟩ : Shape).Idx → EReal
  bias : (⟨1, ![4096]⟩ : Shape).Idx → EReal

variable (a : Inputs)

/-! ## The scaled left factors -/

/-- The adapted head singular values, relu (S_top * alpha + beta). -/
def sHead (r : Fin 64) : EReal := max (a.sTop (ix1 r) * a.alpha (ix1 r) + a.beta (ix1 r)) 0
/-- The head's left factor with its columns scaled. -/
def uHead (o : Fin 4096) (r : Fin 64) : EReal := a.uTop (ix2 o r) * sHead a r
/-- The tail's left factor with its columns scaled by the frozen singular values. -/
def uTailS (o : Fin 4096) (r : Fin 4032) : EReal := a.uTail (ix2 o r) * a.sTail (ix1 r)
/-- The correction's left factor, columns scaled by the singular values and by relu D. -/
def bScaled (o : Fin 4096) (r : Fin 4) : EReal := (a.uTailR (ix2 o r) * a.sTailR (ix1 r)) * max (a.dGate (ix1 r)) 0
/-- The correction's left factor after the 4 x 4 mixing matrix. -/
def uDelta (o : Fin 4096) (j : Fin 4) : EReal := ∑ r : Fin 4, bScaled a o r * a.rMix (ix2 r j)

/-! ## The stacked factors -/

/-- Row o of the stacked left factor: columns 0..63 the head, 64..4095 the tail, 4096..4099 the correction, the rest zero. -/
def uAllAt (o : Fin 4096) (c : Fin 4224) : EReal :=
  if h : c.val < 64 then uHead a o ⟨c.val, h⟩
  else if h2 : c.val < 4096 then uTailS a o ⟨c.val - 64, by omega⟩
  else if h3 : c.val < 4100 then uDelta a o ⟨c.val - 4096, by omega⟩
  else 0
/-- The stacked left factor as an array [4096, 4224]. -/
def uAll : (⟨2, ![4096, 4224]⟩ : Shape).Idx → EReal := fun j => uAllAt a (j 0) (j 1)
theorem uAll_apply (o : Fin 4096) (c : Fin 4224) : uAll a (ix2 o c) = uAllAt a o c := rfl

/-- Row c of the stacked right factor: rows 0..63 the head's, 64..4095 the tail's, 4096..4099 the correction's, the rest zero. -/
def vhAllAt (c : Fin 4224) (i : Fin 4096) : EReal :=
  if h : c.val < 64 then a.vhTop (ix2 (⟨c.val, h⟩ : Fin 64) i)
  else if h2 : c.val < 4096 then a.vhTail (ix2 (⟨c.val - 64, by omega⟩ : Fin 4032) i)
  else if h3 : c.val < 4100 then a.vhTailR (ix2 (⟨c.val - 4096, by omega⟩ : Fin 4) i)
  else 0
/-- The stacked right factor as an array [4224, 4096]. -/
def vhAll : (⟨2, ![4224, 4096]⟩ : Shape).Idx → EReal := fun j => vhAllAt a (j 0) (j 1)
theorem vhAll_apply (c : Fin 4224) (i : Fin 4096) : vhAll a (ix2 c i) = vhAllAt a c i := rfl

/-- The input with its two leading axes merged: row m = 1024 * b + s. -/
def xFlat : (⟨2, ![4096, 4096]⟩ : Shape).Idx → EReal :=
  fun j => a.x (ix3 (⟨(j 0).val / 1024, by have := idx2_lt0 j; omega⟩ : Fin 4)
    (⟨(j 0).val % 1024, Nat.mod_lt _ (by decide)⟩ : Fin 1024) (j 1))
theorem xFlat_apply (m i : Fin 4096) :
    xFlat a (ix2 m i) = a.x (ix3 (⟨m.val / 1024, by omega⟩ : Fin 4) (⟨m.val % 1024, Nat.mod_lt _ (by decide)⟩ : Fin 1024) i) := rfl

/-- The bias as a one-row array. -/
def bias2d : (⟨2, ![1, 4096]⟩ : Shape).Idx → EReal := fun j => a.bias (ix1 (j 1))
theorem bias2d_apply (z : Fin 1) (o : Fin 4096) : bias2d a (ix2 z o) = a.bias (ix1 o) := rfl

/-- The factored computation's result as an array [4096, 4096] (row m = 1024 * b + s). -/
def factoredOut : (⟨2, ![4096, 4096]⟩ : Shape).Idx → EReal :=
  outOf (yOf (xFlat a) (vhAll a)) (uAll a) (bias2d a)

/-! ## The reference: the effective weight, then one product -/

def wHead (o i : Fin 4096) : EReal := ∑ r : Fin 64, uHead a o r * a.vhTop (ix2 r i)
def wTail (o i : Fin 4096) : EReal := ∑ r : Fin 4032, uTailS a o r * a.vhTail (ix2 r i)
def wDelta (o i : Fin 4096) : EReal := ∑ j : Fin 4, uDelta a o j * a.vhTailR (ix2 j i)
/-- The effective weight, (head + tail) + correction. -/
def wEff (o i : Fin 4096) : EReal := (wHead a o i + wTail a o i) + wDelta a o i
/-- The layer's result at (b, s, o). -/
def refAt (b : Fin 4) (s : Fin 1024) (o : Fin 4096) : EReal :=
  (∑ i : Fin 4096, a.x (ix3 b s i) * wEff a o i) + a.bias (ix1 o)
/-- THE SPECIFICATION: the layer's result as one function of the fifteen inputs. -/
def G : (⟨3, ![4, 1024, 4096]⟩ : Shape).Idx → EReal := fun j => refAt a (j 0) (j 1) (j 2)
theorem G_apply (b : Fin 4) (s : Fin 1024) (o : Fin 4096) : G a (ix3 b s o) = refAt a b s o := rfl

/-! ## Every entry a real number -/

/-- Every entry of the array is (the coercion of) a real number. -/
def IsReal {ι : Type} (f : ι → EReal) : Prop := ∀ i, ∃ v : ℝ, f i = (v : EReal)

/-- Every entry of every input is a real number. -/
structure Inputs.Finite : Prop where
  x : IsReal a.x
  uTop : IsReal a.uTop
  sTop : IsReal a.sTop
  vhTop : IsReal a.vhTop
  uTail : IsReal a.uTail
  sTail : IsReal a.sTail
  vhTail : IsReal a.vhTail
  uTailR : IsReal a.uTailR
  sTailR : IsReal a.sTailR
  vhTailR : IsReal a.vhTailR
  alpha : IsReal a.alpha
  beta : IsReal a.beta
  dGate : IsReal a.dGate
  rMix : IsReal a.rMix
  bias : IsReal a.bias

end Cert.LowRank

end
-- ==== Proof.IdealSide.Final0.lean ====
/-
  The first product as one function of its factor arrays. For a row block b and a position (p, q) inside the
  output block, the accumulator after the points (b, 0), …, (b, k) holds the partial sums of the 16 block products;
  after the last one it is the whole contraction, ∑ over all 4096 indices. The point (b, 15) writes the block back and
  those points' blocks cover the output array: so after the run the array is the product, index by index.
-/
import proofs.«173439_j75874892251349_2_alg».proof.Proof.IdealSide.Steps0
import proofs.«173439_j75874892251349_2_alg».proof.Proof.PayloadValue
import proofs.«173439_j75874892251349_2_alg».proof.Proof.BlockReads0
import proofs.«173439_j75874892251349_2_alg».proof.Proof.LibAccumulate
import proofs.«173439_j75874892251349_2_alg».proof.Proof.LowRankSpec
import Idealize.ShloMosaic.Lib.Pipeline.Value
import Idealize.ShloMosaic.Lib.ValueIdx

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.PayloadValue Cert.BlockReads0 Cert.LibAccumulate

variable (V : (c : Dev nD) → (b : Ref sig .tc) → Buf (Elt Ideal) ((c : Thread nD τ).loc b))

/-- The factor arrays as the region finds them. -/
abbrev lhs0 (c : Dev nD) : S4096x4096.Idx → EReal := V c (Pipeline.arrRef spec0 0)
abbrev rhs0 (c : Dev nD) : S4224x4096.Idx → EReal := V c (Pipeline.arrRef spec0 1)

theorem ix2_congr {n0 n1 : Nat} {a a' : Fin n0} {b b' : Fin n1} (ha : a.val = a'.val) (hb : b.val = b'.val) :
    ix2 a b = ix2 a' b' := by rw [Fin.ext ha, Fin.ext hb]

theorem pt_lt0 (b k : ℕ) (hb : b < 4) (hk : k < 16) : 16 * b + k < cfg0.N :=
  lt_of_lt_of_eq (by omega : 16 * b + k < 64) N_0.symm

/-- One term of the contraction: row `r` of the left factor against row `q` of the right factor at index `i`. -/
abbrev term0 (c : Dev nD) (r : Fin 4096) (q : Fin 4224) (i : Fin 4096) : EReal := lhs0 V c (ix2 r i) * rhs0 V c (ix2 q i)

theorem outsAt0_congr (c : Dev nD) {n n' : ℕ} (e : n = n') (h : n < cfg0.N) (h' : n' < cfg0.N) :
    outsAt0 V c n h = outsAt0 V c n' h' := by subst e; rfl

set_option maxHeartbeats 1600000 in
/-- THE CONTRACTION. After the last point of row block `b` the accumulator holds, at (p, q), the whole sum. -/
theorem acc0_total (c : Dev nD) (b : ℕ) (hb : b < 4) (p : Fin 1024) (q : Fin 4224) (r : Fin 4096) (hr : r.val = 1024 * b + p.val) :
    accAfter0 V c ⟨16 * b + 15, pt_lt0 b 15 hb (by omega)⟩ (ix2 p q) = ∑ i : Fin 4096, term0 V c r q i := by
  refine total_16_256 (term0 V c r q)
    (fun k => accAfter0 V c ⟨16 * b + k.val, pt_lt0 b k.val hb k.isLt⟩ (ix2 p q)) ?_ ?_
  · show accAfter0 V c ⟨16 * b + 0, _⟩ (ix2 p q) = _
    rw [acc0_first V c _ (by show (16 * b + 0) % 16 = 0; omega), k0_pay2_apply, k0_pay1_apply]
    congr 1
    refine Finset.sum_congr rfl fun l _ => ?_
    unfold iblk0
    rw [blk0_0_read, blk0_1_read]
    refine congrArg₂ (· * ·) (congrArg _ (ix2_congr ?_ ?_)) (congrArg _ (ix2_congr ?_ ?_)) <;> first | rfl | (dsimp only; omega) | omega
  · intro k hk
    show accAfter0 V c ⟨16 * b + (k + 1), _⟩ (ix2 p q) = accAfter0 V c ⟨16 * b + k, _⟩ (ix2 p q) + _
    rw [acc0_next V c _ (by show ¬(16 * b + (k + 1)) % 16 = 0; omega), k0_pay2_apply]
    congr 1
    refine Finset.sum_congr rfl fun l _ => ?_
    unfold iblk0
    rw [blk0_0_read, blk0_1_read]
    refine congrArg₂ (· * ·) (congrArg _ (ix2_congr ?_ ?_)) (congrArg _ (ix2_congr ?_ ?_)) <;> first | rfl | (dsimp only; omega) | omega

set_option maxHeartbeats 1600000 in
/-- What a write-back point writes back is its block of the product. -/
theorem flushed0_eq (c : Dev nD) (t : Fin cfg0.N) (hf : (cfg0.win 2).flush t = true) :
    (dat0 V c).flushed 2 t = ((cfg0.win 2).blk t).view.read (Elt Ideal) (Cert.LowRank.yOf (lhs0 V c) (rhs0 V c)) := by
  have hl : t.val % 16 = 15 := (flush0_2 t).mp hf
  have hlt := t_lt t
  show (cfg0.win 2).cut (grid0.coords t) ((dat0 V c).after 2 t) = _
  rw [after0_2, out0_last V c t hl]
  funext j
  obtain ⟨p, q, rfl⟩ : ∃ (p : Fin 1024) (q : Fin 4224), j = ix2 p q := ⟨j 0, j 1, eq_ix2 j⟩
  rw [blk0_2_read, Cert.LowRank.yOf_apply]
  show k0_pay3 (accAfter0 V c t) (ix2 p q) = _
  rw [k0_pay3_apply]
  have et : t = ⟨16 * (t.val / 16) + 15, pt_lt0 (t.val / 16) 15 (by omega) (by omega)⟩ := Fin.ext (by dsimp only; omega)
  have hacc := acc0_total V c (t.val / 16) (by omega) p q ⟨1024 * (t.val / 16) + p.val, by have := p.isLt; omega⟩ rfl
  rw [← et] at hacc
  rw [hacc]

/-- THE ARRAY AFTER THE RUN: the product, index by index. -/
theorem final0 (c : Dev nD) : (dat0 V c).arrAt 2 cfg0.N = (Cert.LowRank.yOf (lhs0 V c) (rhs0 V c)) :=
  (dat0 V c).arrAt_eq_of_cover 2 (Cert.LowRank.yOf (lhs0 V c) (rhs0 V c)) (flushed0_eq V c) cover0_2

end Cert.KernelIdeal.Reg

end
-- ==== Proof.IdealSide.Cases1.lean ====
/-
  What each case of the second kernel's body leaves, as values: the accumulator after a point with k = 0 is
  zero plus the product of the two blocks; after any other point it is what the point before left plus the product;
  at the last k the output block is the accumulator plus the bias row.
-/
import proofs.«173439_j75874892251349_2_alg».proof.Proof.IdealSide.Acc1
import Idealize.ShloMosaic.Lib.Pipeline.Value

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

theorem hz2 : (![0, 0] : Fin 2 → Nat) = fun _ => 0 := funext fun a => by fin_cases a <;> rfl

theorem sout1_A_eq (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : cond1_0 i) (hc1 : ¬cond1_1 i) (x0 : Vec F S512x384 .bf16) (x1 : Vec F S4096x384 .bf16) (x2 : Vec F S1x4096 .f32) :
    sout1_A c i arg2 harg2 arg3 harg3 arg4 harg4 arg5 harg5 arg6 harg6 hc0 hc1 x0 x1 x2 = k1_pay2 (k1_pay1 (F := F)) x0 x1 := by
  unfold sout1_A
  rw [View.read_writes_eq_canon _ _ _ (scover1_A c i arg2 harg2 arg3 harg3 arg4 harg4 arg5 harg5 arg6 harg6 hc0 hc1 x0 x1 x2)]
  unfold kernelRun1_A
  dsimp only
  sl_unfold_words
  rw [View.canon_cons_unit_zero (S := S512x4096) hz2, View.readCov_unit_zero (S := S512x4096) _ hz2]
  simp only [View.readAt_eq_ld, harg2.read_unread, harg3.read_unread, View.ld_unit_zero (S := S512x384) hz2, View.ld_unit_zero (S := S4096x384) hz2]

theorem sout1_B_eq (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : ¬cond1_1 i) (x0 : Vec F S512x384 .bf16) (x1 : Vec F S4096x384 .bf16) (x2 : Vec F S1x4096 .f32) (xs0 : Vec F S512x4096 .f32) :
    sout1_B c i arg2 harg2 arg3 harg3 arg4 harg4 arg5 harg5 arg6 harg6 hc0 hc1 x0 x1 x2 xs0 = k1_pay2 xs0 x0 x1 := by
  unfold sout1_B
  rw [View.read_writes_eq_canon _ _ _ (scover1_B c i arg2 harg2 arg3 harg3 arg4 harg4 arg5 harg5 arg6 harg6 hc0 hc1 x0 x1 x2 xs0)]
  unfold kernelRun1_B
  dsimp only
  rw [View.canon_unit_zero hz2]
  simp only [View.readAt_eq_ld, harg6.read_unread, harg2.read_unread, harg3.read_unread, View.ld_unit_zero (S := S512x4096) hz2, View.ld_unit_zero (S := S512x384) hz2, View.ld_unit_zero (S := S4096x384) hz2]

theorem sout1_C_eq (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) :
    sout1_C c i arg2 harg2 arg3 harg3 arg4 harg4 arg5 harg5 arg6 harg6 hc0 hc1 x0 x1 x2 xs0 = k1_pay2 xs0 x0 x1 := by
  unfold sout1_C
  rw [View.read_writes_eq_canon _ _ _ (scover1_C c i arg2 harg2 arg3 harg3 arg4 harg4 arg5 harg5 arg6 harg6 hc0 hc1 x0 x1 x2 xs0)]
  unfold kernelRun1_C
  dsimp only
  sl_unfold_words
  rw [View.canon_unit_zero hz2]
  simp only [View.readAt_eq_ld, harg6.read_unread, harg2.read_unread, harg3.read_unread, View.ld_unit_zero (S := S512x4096) hz2, View.ld_unit_zero (S := S512x384) hz2, View.ld_unit_zero (S := S4096x384) hz2]

theorem out1_C_eq (c : Dev nD) (i : grid1.Coords) (arg2 : Memref sig .tc .vmem S512x384 .bf16) (harg2 : arg2.IsWhole) (arg3 : Memref sig .tc .vmem S4096x384 .bf16) (harg3 : arg3.IsWhole) (arg4 : Memref sig .tc .vmem S1x4096 .f32) (harg4 : arg4.IsWhole) (arg5 : Memref sig .tc .vmem S512x4096 .f32) (harg5 : arg5.IsWhole) (arg6 : Memref sig .tc .vmem S512x4096 .f32) (harg6 : arg6.IsWhole) (hc0 : ¬cond1_0 i) (hc1 : cond1_1 i) (x0 : Vec F S512x384 .bf16) (x1 : Vec F S4096x384 .bf16) (x2 : Vec F S1x4096 .f32) (xs0 : Vec F S512x4096 .f32) :
    out1_C c i arg2 harg2 arg3 harg3 arg4 harg4 arg5 harg5 arg6 harg6 hc0 hc1 x0 x1 x2 xs0 = k1_pay3 (k1_pay2 xs0 x0 x1) x2 := by
  unfold out1_C
  rw [View.read_writes_eq_canon _ _ _ (cover1_C c i arg2 harg2 arg3 harg3 arg4 harg4 arg5 harg5 arg6 harg6 hc0 hc1 x0 x1 x2 xs0)]
  unfold kernelRun1_C
  dsimp only
  sl_unfold_words
  rw [View.canon_unit_zero hz2, View.readCov_unit_zero (S := S512x4096) _ hz2]
  simp only [View.readAt_eq_ld, harg6.read_unread, harg2.read_unread, harg3.read_unread, harg4.read_unread, View.ld_unit_zero (S := S512x4096) hz2, View.ld_unit_zero (S := S512x384) hz2, View.ld_unit_zero (S := S4096x384) hz2, View.ld_unit_zero (S := S1x4096) hz2]

end Cert.KernelIdeal.Reg

end
-- ==== Proof.IdealSide.Steps1.lean ====
/-
  The second product's accumulator from one grid point to the next, as values: at a point with k = 0 it is zero plus
  the product of the two blocks; at any other point it is what the point before left plus the product; and at the
  last k the output block is the accumulator plus the bias row.
-/
import proofs.«173439_j75874892251349_2_alg».proof.Proof.IdealSide.Cases1

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- The accumulator after the body at point `t`. -/
abbrev accAfter1 (c : Dev nD) (t : Fin cfg1.N) : Vec F S512x4096 .f32 := (outsAt1 V c t.val t.isLt).2

set_option maxHeartbeats 1000000 in
theorem acc1_first (c : Dev nD) (t : Fin cfg1.N) (h0 : t.val % 11 = 0) :
    accAfter1 V c t = k1_pay2 (k1_pay1 (F := F)) (iblk1 V c 0 t) (iblk1 V c 1 t) := by
  have h1 : ¬t.val % 11 = 10 := by omega
  unfold accAfter1
  rw [outsAt1_A V c t h0 h1]
  dsimp only
  rw [sout1_A_eq]

set_option maxHeartbeats 1000000 in
theorem acc1_next (c : Dev nD) (t : Fin cfg1.N) (h0 : ¬t.val % 11 = 0) :
    accAfter1 V c t = k1_pay2 ((outsAt1 V c (t.val - 1) (Nat.lt_of_le_of_lt (Nat.sub_le _ _) t.isLt)).2) (iblk1 V c 0 t) (iblk1 V c 1 t) := by
  unfold accAfter1
  by_cases h1 : t.val % 11 = 10
  · rw [outsAt1_C V c t h0 h1]
    dsimp only
    rw [sout1_C_eq]
  · rw [outsAt1_B V c t h0 h1]
    dsimp only
    rw [sout1_B_eq]

theorem out1_last (c : Dev nD) (t : Fin cfg1.N) (h1 : t.val % 11 = 10) :
    (outsAt1 V c t.val t.isLt).1 = k1_pay3 (accAfter1 V c t) (iblk1 V c 2 t) := by
  have h0 : ¬t.val % 11 = 0 := by omega
  unfold accAfter1
  rw [outsAt1_C V c t h0 h1]
  dsimp only
  rw [out1_C_eq, sout1_C_eq]

end Cert.KernelIdeal.Reg

end
-- ==== Proof.BlockReads1.lean ====
/-
  The second kernel region's windows, read through: at grid point t of the 8 x 11 grid (row block t / 11, contraction
  block t % 11), an element of a window's block is the element of the window's array at block index times block
  size plus the coordinate inside the block. The intermediate's blocks are 512 x 384 at (t / 11, t % 11), the left
  factor's are 4096 x 384 at (0, t % 11), the bias is one whole block, and the output's are 512 x 4096 at
  (t / 11, 0), written back at the last contraction block of each row block; the output's blocks cover its array.
-/
import proofs.«173439_j75874892251349_2_alg».proof.Proof.Gen.KernelIdeal.Points
import proofs.«173439_j75874892251349_2_alg».proof.Proof.Gen.KernelIdeal.Launch
import Idealize.ShloMosaic.Lib.Pipeline.Value
import Idealize.ShloMosaic.Lib.ValueIdx

noncomputable section

namespace Cert.BlockReads1

open Cert.KernelIdeal Cert.KernelIdeal.Gen Idealize.ShloMosaic Idealize.ShloMosaic.TcCoe Idealize.SL.Sem
open Idealize.ShloMosaic.ValueIdx

/-- The grid has 88 points. -/
theorem t_lt (t : Fin cfg1.N) : t.val < 88 := by
  have h : cfg1.N = 88 := Gen.N_1
  have := t.isLt
  omega

/-- The printed index maps, decided over the grid: which block of its array each window is on at point `t`. -/
theorem idx_facts1 : ∀ t : Fin cfg1.N,
    win1_0.index t (0 : Fin 2) = t.val / 11 ∧ win1_0.index t (1 : Fin 2) = t.val % 11
    ∧ win1_1.index t (0 : Fin 2) = 0 ∧ win1_1.index t (1 : Fin 2) = t.val % 11
    ∧ win1_2.index t (0 : Fin 2) = 0 ∧ win1_2.index t (1 : Fin 2) = 0
    ∧ win1_3.index t (0 : Fin 2) = t.val / 11 ∧ win1_3.index t (1 : Fin 2) = 0 :=
  (by decide +kernel : ∀ t : Fin grid1.N, _)

variable (t : Fin cfg1.N)

/-- The intermediate's block at point `t`, at (p, l): the array at (512 * (t / 11) + p, 384 * (t % 11) + l). -/
theorem blk1_0_read (a : ((cfg1.win 0).blk t).view.ty.Contents (Elt Ideal)) (p : Fin 512) (l : Fin 384) :
    ((cfg1.win 0).blk t).view.read (Elt Ideal) a (ix2 p l)
      = a (ix2 (⟨512 * (t.val / 11) + p.val, by have := t_lt t; omega⟩ : Fin 4096) (⟨384 * (t.val % 11) + l.val, by have := t_lt t; omega⟩ : Fin 4224)) := by
  obtain ⟨e00, e01, e10, e11, e20, e21, e30, e31⟩ := idx_facts1 t
  rw [View.read_apply]
  show a (((cfg1.win 0).blk t).view.emb (ix2 p l)) = a _
  refine congrArg a (funext fun ax => Fin.ext ?_)
  match ax with
  | ⟨0, _⟩ => show win1_0.index t (0 : Fin 2) * 512 + 1 * p.val = 512 * (t.val / 11) + p.val; omega
  | ⟨1, _⟩ => show win1_0.index t (1 : Fin 2) * 384 + 1 * l.val = 384 * (t.val % 11) + l.val; omega

/-- The left factor's block at point `t`, at (q, l): the array at (q, 384 * (t % 11) + l). -/
theorem blk1_1_read (a : ((cfg1.win 1).blk t).view.ty.Contents (Elt Ideal)) (q : Fin 4096) (l : Fin 384) :
    ((cfg1.win 1).blk t).view.read (Elt Ideal) a (ix2 q l)
      = a (ix2 q (⟨384 * (t.val % 11) + l.val, by have := t_lt t; omega⟩ : Fin 4224)) := by
  obtain ⟨e00, e01, e10, e11, e20, e21, e30, e31⟩ := idx_facts1 t
  rw [View.read_apply]
  show a (((cfg1.win 1).blk t).view.emb (ix2 q l)) = a _
  refine congrArg a (funext fun ax => Fin.ext ?_)
  match ax with
  | ⟨0, _⟩ => show win1_1.index t (0 : Fin 2) * 4096 + 1 * q.val = q.val; omega
  | ⟨1, _⟩ => show win1_1.index t (1 : Fin 2) * 384 + 1 * l.val = 384 * (t.val % 11) + l.val; omega

/-- The bias's one block is its whole array. -/
theorem blk1_2_read (a : ((cfg1.win 2).blk t).view.ty.Contents (Elt Ideal)) (z : Fin 1) (q : Fin 4096) :
    ((cfg1.win 2).blk t).view.read (Elt Ideal) a (ix2 z q)
      = a (ix2 z q) := by
  obtain ⟨e00, e01, e10, e11, e20, e21, e30, e31⟩ := idx_facts1 t
  rw [View.read_apply]
  show a (((cfg1.win 2).blk t).view.emb (ix2 z q)) = a _
  refine congrArg a (funext fun ax => Fin.ext ?_)
  match ax with
  | ⟨0, _⟩ => show win1_2.index t (0 : Fin 2) * 1 + 1 * z.val = z.val; omega
  | ⟨1, _⟩ => show win1_2.index t (1 : Fin 2) * 4096 + 1 * q.val = q.val; omega

/-- The output's block at point `t`, at (p, q): the array at (512 * (t / 11) + p, q). -/
theorem blk1_3_read (a : ((cfg1.win 3).blk t).view.ty.Contents (Elt Ideal)) (p : Fin 512) (q : Fin 4096) :
    ((cfg1.win 3).blk t).view.read (Elt Ideal) a (ix2 p q)
      = a (ix2 (⟨512 * (t.val / 11) + p.val, by have := t_lt t; omega⟩ : Fin 4096) q) := by
  obtain ⟨e00, e01, e10, e11, e20, e21, e30, e31⟩ := idx_facts1 t
  rw [View.read_apply]
  show a (((cfg1.win 3).blk t).view.emb (ix2 p q)) = a _
  refine congrArg a (funext fun ax => Fin.ext ?_)
  match ax with
  | ⟨0, _⟩ => show win1_3.index t (0 : Fin 2) * 512 + 1 * p.val = 512 * (t.val / 11) + p.val; omega
  | ⟨1, _⟩ => show win1_3.index t (1 : Fin 2) * 4096 + 1 * q.val = q.val; omega

/-- An index of the output array is in point `t`'s block iff its row is in the block's 512 rows. -/
theorem mem_blk1_3 (i : S4096x4096.Idx) :
    i ∈ ((cfg1.win 3).blk t).view.set ↔ 512 * (t.val / 11) ≤ (i 0).val ∧ (i 0).val < 512 * (t.val / 11) + 512 := by
  obtain ⟨e00, e01, e10, e11, e20, e21, e30, e31⟩ := idx_facts1 t
  have h1 : (i 1).val < 4096 := (i 1).isLt
  show i ∈ ((View.whole main_v31).slice (win1_3.rect t)).set ↔ _
  rw [View.set_slice_whole, Rect.mem_set_unit]
  constructor
  · intro h
    have b0 : win1_3.index t (0 : Fin 2) * 512 ≤ (i 0).val ∧ (i 0).val < win1_3.index t (0 : Fin 2) * 512 + 512 := h 0
    omega
  · intro h ax
    match ax with
    | ⟨0, _⟩ => show win1_3.index t (0 : Fin 2) * 512 ≤ (i 0).val ∧ (i 0).val < win1_3.index t (0 : Fin 2) * 512 + 512; omega
    | ⟨1, _⟩ => show win1_3.index t (1 : Fin 2) * 4096 ≤ (i 1).val ∧ (i 1).val < win1_3.index t (1 : Fin 2) * 4096 + 4096; omega

/-- Every index of the output array is in the block of a point that writes its block back: the last contraction
    block of the index's row block. -/
theorem cover1_3 (i : S4096x4096.Idx) :
    ∃ t : Fin cfg1.N, (cfg1.win 3).flush t = true ∧ i ∈ ((cfg1.win 3).blk t).view.set := by
  have hi0 : (i 0).val < 4096 := (i 0).isLt
  have hN : cfg1.N = 88 := Gen.N_1
  refine ⟨⟨11 * ((i 0).val / 512) + 10, by rw [hN]; omega⟩, (Gen.flush1_3 _).mpr ?_, (mem_blk1_3 _ i).mpr ?_⟩
  · show (11 * ((i 0).val / 512) + 10) % 11 = 10
    omega
  · show 512 * ((11 * ((i 0).val / 512) + 10) / 11) ≤ (i 0).val ∧ (i 0).val < 512 * ((11 * ((i 0).val / 512) + 10) / 11) + 512
    omega

end Cert.BlockReads1

end
-- ==== Proof.IdealSide.Final1.lean ====
/-
  The second product as one function of its factor arrays. For a row block b and a position (p, q) inside the
  output block, the accumulator after the points (b, 0), …, (b, k) holds the partial sums of the 11 block products;
  after the last one it is the whole contraction, ∑ over all 4224 indices. The point (b, 10) writes the block back, the
  bias row added, and
  those points' blocks cover the output array: so after the run the array is the product plus the bias row, index by index.
-/
import proofs.«173439_j75874892251349_2_alg».proof.Proof.IdealSide.Steps1
import proofs.«173439_j75874892251349_2_alg».proof.Proof.PayloadValue
import proofs.«173439_j75874892251349_2_alg».proof.Proof.BlockReads1
import proofs.«173439_j75874892251349_2_alg».proof.Proof.LibAccumulate
import proofs.«173439_j75874892251349_2_alg».proof.Proof.LowRankSpec
import Idealize.ShloMosaic.Lib.Pipeline.Value
import Idealize.ShloMosaic.Lib.ValueIdx

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.PayloadValue Cert.BlockReads1 Cert.LibAccumulate

variable (V : (c : Dev nD) → (b : Ref sig .tc) → Buf (Elt Ideal) ((c : Thread nD τ).loc b))

/-- The factor arrays as the region finds them. -/
abbrev lhs1 (c : Dev nD) : S4096x4224.Idx → EReal := V c (Pipeline.arrRef spec1 0)
abbrev rhs1 (c : Dev nD) : S4096x4224.Idx → EReal := V c (Pipeline.arrRef spec1 1)
abbrev row1 (c : Dev nD) : S1x4096.Idx → EReal := V c (Pipeline.arrRef spec1 2)

theorem ix2_congr {n0 n1 : Nat} {a a' : Fin n0} {b b' : Fin n1} (ha : a.val = a'.val) (hb : b.val = b'.val) :
    ix2 a b = ix2 a' b' := by rw [Fin.ext ha, Fin.ext hb]

theorem pt_lt1 (b k : ℕ) (hb : b < 8) (hk : k < 11) : 11 * b + k < cfg1.N :=
  lt_of_lt_of_eq (by omega : 11 * b + k < 88) N_1.symm

/-- One term of the contraction: row `r` of the left factor against row `q` of the right factor at index `i`. -/
abbrev term1 (c : Dev nD) (r : Fin 4096) (q : Fin 4096) (i : Fin 4224) : EReal := lhs1 V c (ix2 r i) * rhs1 V c (ix2 q i)

theorem outsAt1_congr (c : Dev nD) {n n' : ℕ} (e : n = n') (h : n < cfg1.N) (h' : n' < cfg1.N) :
    outsAt1 V c n h = outsAt1 V c n' h' := by subst e; rfl

set_option maxHeartbeats 1600000 in
/-- THE CONTRACTION. After the last point of row block `b` the accumulator holds, at (p, q), the whole sum. -/
theorem acc1_total (c : Dev nD) (b : ℕ) (hb : b < 8) (p : Fin 512) (q : Fin 4096) (r : Fin 4096) (hr : r.val = 512 * b + p.val) :
    accAfter1 V c ⟨11 * b + 10, pt_lt1 b 10 hb (by omega)⟩ (ix2 p q) = ∑ i : Fin 4224, term1 V c r q i := by
  refine total_11_384 (term1 V c r q)
    (fun k => accAfter1 V c ⟨11 * b + k.val, pt_lt1 b k.val hb k.isLt⟩ (ix2 p q)) ?_ ?_
  · show accAfter1 V c ⟨11 * b + 0, _⟩ (ix2 p q) = _
    rw [acc1_first V c _ (by show (11 * b + 0) % 11 = 0; omega), k1_pay2_apply, k1_pay1_apply]
    congr 1
    refine Finset.sum_congr rfl fun l _ => ?_
    unfold iblk1
    rw [blk1_0_read, blk1_1_read]
    refine congrArg₂ (· * ·) (congrArg _ (ix2_congr ?_ ?_)) (congrArg _ (ix2_congr ?_ ?_)) <;> first | rfl | (dsimp only; omega) | omega
  · intro k hk
    show accAfter1 V c ⟨11 * b + (k + 1), _⟩ (ix2 p q) = accAfter1 V c ⟨11 * b + k, _⟩ (ix2 p q) + _
    rw [acc1_next V c _ (by show ¬(11 * b + (k + 1)) % 11 = 0; omega), k1_pay2_apply]
    congr 1
    refine Finset.sum_congr rfl fun l _ => ?_
    unfold iblk1
    rw [blk1_0_read, blk1_1_read]
    refine congrArg₂ (· * ·) (congrArg _ (ix2_congr ?_ ?_)) (congrArg _ (ix2_congr ?_ ?_)) <;> first | rfl | (dsimp only; omega) | omega

set_option maxHeartbeats 1600000 in
/-- What a write-back point writes back is its block of the product. -/
theorem flushed1_eq (c : Dev nD) (t : Fin cfg1.N) (hf : (cfg1.win 3).flush t = true) :
    (dat1 V c).flushed 3 t = ((cfg1.win 3).blk t).view.read (Elt Ideal) (Cert.LowRank.outOf (lhs1 V c) (rhs1 V c) (row1 V c)) := by
  have hl : t.val % 11 = 10 := (flush1_3 t).mp hf
  have hlt := t_lt t
  show (cfg1.win 3).cut (grid1.coords t) ((dat1 V c).after 3 t) = _
  rw [after1_3, out1_last V c t hl]
  funext j
  obtain ⟨p, q, rfl⟩ : ∃ (p : Fin 512) (q : Fin 4096), j = ix2 p q := ⟨j 0, j 1, eq_ix2 j⟩
  rw [blk1_3_read, Cert.LowRank.outOf_apply]
  show k1_pay3 (accAfter1 V c t) (iblk1 V c 2 t) (ix2 p q) = _
  rw [k1_pay3_apply]
  have et : t = ⟨11 * (t.val / 11) + 10, pt_lt1 (t.val / 11) 10 (by omega) (by omega)⟩ := Fin.ext (by dsimp only; omega)
  have hacc := acc1_total V c (t.val / 11) (by omega) p q ⟨512 * (t.val / 11) + p.val, by have := p.isLt; omega⟩ rfl
  rw [← et] at hacc
  rw [hacc]
  unfold iblk1
  rw [blk1_2_read]

/-- THE ARRAY AFTER THE RUN: the product plus the bias row, index by index. -/
theorem final1 (c : Dev nD) : (dat1 V c).arrAt 3 cfg1.N = (Cert.LowRank.outOf (lhs1 V c) (rhs1 V c) (row1 V c)) :=
  (dat1 V c).arrAt_eq_of_cover 3 (Cert.LowRank.outOf (lhs1 V c) (rhs1 V c) (row1 V c)) (flushed1_eq V c) cover1_3

end Cert.KernelIdeal.Reg

end
-- ==== Proof.KernelInputs.lean ====
/-
  The launch memory's fifteen argument arrays, read as the specification's inputs.
-/
import proofs.«173439_j75874892251349_2_alg».proof.Proof.Gen.KernelIdeal.Regions
import proofs.«173439_j75874892251349_2_alg».proof.Proof.LowRankSpec

noncomputable section

namespace Cert.KernelHost

open Cert.KernelIdeal Cert.KernelIdeal.Gen Idealize.ShloMosaic Idealize.ShloMosaic.TcCoe Idealize.SL.Sem

variable (m : (ℓ : Loc nD τ sig) → Buf (Elt Ideal) ℓ)

/-- The fifteen arrays a core holds in its argument buffers at launch, in the order the program takes them:
    the input, the three factor triples (left factor, singular values, right factor), the two adaptation
    vectors of the head's singular values, the gate and the mixing matrix of the correction, and the bias. -/
def inputs (c : Dev nD) : Cert.LowRank.Inputs where
  x := m ((c : Thread nD τ).loc main_arg0)
  uTop := m ((c : Thread nD τ).loc main_arg1)
  sTop := m ((c : Thread nD τ).loc main_arg2)
  vhTop := m ((c : Thread nD τ).loc main_arg3)
  uTail := m ((c : Thread nD τ).loc main_arg4)
  sTail := m ((c : Thread nD τ).loc main_arg5)
  vhTail := m ((c : Thread nD τ).loc main_arg6)
  uTailR := m ((c : Thread nD τ).loc main_arg7)
  sTailR := m ((c : Thread nD τ).loc main_arg8)
  vhTailR := m ((c : Thread nD τ).loc main_arg9)
  alpha := m ((c : Thread nD τ).loc main_arg10)
  beta := m ((c : Thread nD τ).loc main_arg11)
  dGate := m ((c : Thread nD τ).loc main_arg12)
  rMix := m ((c : Thread nD τ).loc main_arg13)
  bias := m ((c : Thread nD τ).loc main_arg14)

end Cert.KernelHost

end
-- ==== Proof.KernelHostIn.lean ====
/-
  What the first kernel region finds in the flattened-input buffer and what the second finds in the bias buffer,
  as functions of the launch arguments: the input with its two leading axes merged (row m = 1024 * b + s, a change
  of float format being the identity on extended reals), and the bias as a one-row array.
-/
import proofs.«173439_j75874892251349_2_alg».proof.Proof.KernelInputs
import Idealize.ShloMosaic.Lib.ValueIdx
import Idealize.ShloMosaic.Lib.Pipeline.Value
import Idealize.ShloMosaic.PureOps.Ideal.Laws
import Idealize.ShloMosaic.Lib.ValueLayout
import Idealize.ShloMosaic.Lib.IdealHost
import Idealize.ShloMosaic.Lib.StableHlo.Run

noncomputable section

namespace Cert.KernelHost

open Cert.KernelIdeal Cert.KernelIdeal.Gen Idealize.ShloMosaic Idealize.ShloMosaic.TcCoe Idealize.SL.Sem Idealize.ShloMosaic.StableHlo
open Idealize.ShloMosaic.ValueIdx

variable (m : (ℓ : Loc nD τ sig) → Buf (Elt Ideal) ℓ)

/-- The flattened-input buffer holds the operations' term: the input recast to [4096, 4096], then narrowed. -/
theorem V5_v28_term (c : Dev nD) :
    (Gen.V5 (F := Ideal) m c main_v28 : S4096x4096.Idx → EReal)
      = truncf (F := Ideal) .bf16 (shapeCast S4096x4096 (m ((c : Thread nD τ).loc main_arg0) : S4x1024x4096.Idx → EReal) shapeCasts_S4x1024x4096_S4096x4096) bitsLt_bf16_f32 := by
  dsimp only [Gen.V5, Gen.V4, Gen.V3, Gen.V2, Gen.V1, Gen.V0]
  simp only [Gen.hostOps0_4]
  after_results
  rfl

/-- A [4, 1024, 4096] array recast to [4096, 4096] reads, at (p, q), the operand at (p / 1024, p % 1024, q): the two
    indices have the same row-major position. -/
theorem shapeCast_merge_lead_apply {α : Type} (x : S4x1024x4096.Idx → α) (h : S4x1024x4096.ShapeCasts S4096x4096)
    (p q : Fin 4096) :
    shapeCast S4096x4096 x h (ix2 p q)
      = x (ix3 (⟨p.val / 1024, by omega⟩ : Fin 4) (⟨p.val % 1024, Nat.mod_lt _ (by decide)⟩ : Fin 1024) q) := by
  refine shapeCast_apply x h _ _ ?_
  rw [Shape.rowMajor_val_three, Shape.rowMajor_val_two]
  show (p.val / 1024 * 1024 + p.val % 1024) * 4096 + q.val = p.val * 4096 + q.val
  omega

/-- The first region's input window reads the specification's flattened input. -/
theorem V5_main_v28 (c : Dev nD) :
    (Gen.V5 (F := Ideal) m c main_v28 : S4096x4096.Idx → EReal) = Cert.LowRank.xFlat (inputs m c) := by
  rw [V5_v28_term]
  funext j
  obtain ⟨p, q, rfl⟩ : ∃ (p : Fin 4096) (q : Fin 4096), j = ix2 p q := ⟨j 0, j 1, eq_ix2 j⟩
  rw [Cert.LowRank.xFlat_apply]
  exact (truncf_apply _ bitsLt_bf16_f32 (ix2 p q)).trans (shapeCast_merge_lead_apply _ _ p q)

/-- The bias buffer holds the operations' term: the bias recast to one row. -/
theorem V5_v29_term (c : Dev nD) :
    (Gen.V5 (F := Ideal) m c main_v29 : S1x4096.Idx → EReal)
      = shapeCast S1x4096 (m ((c : Thread nD τ).loc main_arg14) : S4096.Idx → EReal) shapeCasts_S4096_S1x4096 := by
  dsimp only [Gen.V5, Gen.V4, Gen.V3, Gen.V2, Gen.V1, Gen.V0]
  simp only [Gen.hostOps0_4]
  after_results
  rfl

/-- The second region's bias window reads the specification's one-row bias. -/
theorem V5_main_v29 (c : Dev nD) :
    (Gen.V5 (F := Ideal) m c main_v29 : S1x4096.Idx → EReal) = Cert.LowRank.bias2d (inputs m c) := by
  rw [V5_v29_term]
  funext j
  obtain ⟨z, o, rfl⟩ : ∃ (z : Fin 1) (o : Fin 4096), j = ix2 z o := ⟨j 0, j 1, eq_ix2 j⟩
  rw [Cert.LowRank.bias2d_apply]
  exact shapeCast_a_1a_apply _ _ z o

end Cert.KernelHost

end
-- ==== Proof.LibConcat4.lean ====
/-
  Layout operations of two-dimensional arrays read at an index, for any extents:
  * four arrays stacked along the rows (axis 0), or side by side along the columns (axis 1), read at (r, c): the
    piece whose span holds the coordinate, at the coordinate less the extents of the pieces before it;
  * a vector [n] broadcast first to one row [1, n] and then down the rows to [a, n], read at (p, q): the vector at q;
  * a scalar broadcast to any shape, read anywhere: the scalar.
-/
import Idealize.ShloMosaic.Lib.Pipeline.Value
import Idealize.ShloMosaic.Lib.ValueIdx

namespace Cert.LibConcat4

open Idealize.ShloMosaic Idealize.ShloMosaic.ValueIdx

variable {α : Type}

/-- Four arrays of one width stacked along the ROWS, read at row `r`: the first whose rows reach `r`, at `r` less the
    rows of the arrays above it. -/
theorem concatenate4_rows_apply {n0 n1 n2 n3 N w : ℕ}
    (x0 : (⟨2, ![n0, w]⟩ : Shape).Idx → α) (x1 : (⟨2, ![n1, w]⟩ : Shape).Idx → α)
    (x2 : (⟨2, ![n2, w]⟩ : Shape).Idx → α) (x3 : (⟨2, ![n3, w]⟩ : Shape).Idx → α)
    (h : Shape.Concatenates [⟨2, ![n0, w]⟩, ⟨2, ![n1, w]⟩, ⟨2, ![n2, w]⟩, ⟨2, ![n3, w]⟩] ⟨2, ![N, w]⟩ 0)
    (hN : n0 + n1 + n2 + n3 = N) (r : Fin N) (i : Fin w) :
    concatenate ⟨2, ![N, w]⟩ 0
        [⟨⟨2, ![n0, w]⟩, x0⟩, ⟨⟨2, ![n1, w]⟩, x1⟩, ⟨⟨2, ![n2, w]⟩, x2⟩, ⟨⟨2, ![n3, w]⟩, x3⟩] h (ix2 r i)
      = if h0 : r.val < n0 then x0 (ix2 ⟨r.val, h0⟩ i)
        else if h1 : r.val < n0 + n1 then x1 (ix2 ⟨r.val - n0, by omega⟩ i)
        else if h2 : r.val < n0 + n1 + n2 then x2 (ix2 ⟨r.val - (n0 + n1), by omega⟩ i)
        else x3 (ix2 ⟨r.val - (n0 + n1 + n2), by have := r.isLt; omega⟩ i) := by
  have hoff : ∀ (s : ℕ) (q : Fin s), ∀ b : Fin 2, Fin.cast (rfl : 2 = 2) b ≠ (0 : Fin 2) →
      ((ix2 q i : (⟨2, ![s, w]⟩ : Shape).Idx) b).val = ((ix2 r i : (⟨2, ![N, w]⟩ : Shape).Idx) (Fin.cast rfl b)).val :=
    fun s q b hb => by
      match b with
      | ⟨0, _⟩ => exact absurd rfl hb
      | ⟨1, _⟩ => rfl
  have key := concatenate_apply_piece (t := ⟨2, ![N, w]⟩) (0 : Fin 2)
    [⟨⟨2, ![n0, w]⟩, x0⟩, ⟨⟨2, ![n1, w]⟩, x1⟩, ⟨⟨2, ![n2, w]⟩, x2⟩, ⟨⟨2, ![n3, w]⟩, x3⟩] h (ix2 r i)
  by_cases h0 : r.val < n0
  · rw [dif_pos h0]
    exact key 0 (by show (0 : ℕ) < 4; omega) ⟨2, ![n0, w]⟩ x0 rfl rfl 0 rfl
      (ix2 ⟨r.val, h0⟩ i) (hoff n0 _) (by show 0 + r.val = r.val; omega)
  rw [dif_neg h0]
  by_cases h1 : r.val < n0 + n1
  · rw [dif_pos h1]
    exact key 1 (by show (1 : ℕ) < 4; omega) ⟨2, ![n1, w]⟩ x1 rfl rfl n0
      (by show n0 + 0 = n0; omega) (ix2 ⟨r.val - n0, by omega⟩ i) (hoff n1 _)
      (by show n0 + (r.val - n0) = r.val; omega)
  rw [dif_neg h1]
  by_cases h2 : r.val < n0 + n1 + n2
  · rw [dif_pos h2]
    exact key 2 (by show (2 : ℕ) < 4; omega) ⟨2, ![n2, w]⟩ x2 rfl rfl (n0 + n1)
      (by show n0 + (n1 + 0) = n0 + n1; omega) (ix2 ⟨r.val - (n0 + n1), by omega⟩ i) (hoff n2 _)
      (by show n0 + n1 + (r.val - (n0 + n1)) = r.val; omega)
  rw [dif_neg h2]
  exact key 3 (by show (3 : ℕ) < 4; omega) ⟨2, ![n3, w]⟩ x3 rfl rfl (n0 + n1 + n2)
    (by show n0 + (n1 + (n2 + 0)) = n0 + n1 + n2; omega)
    (ix2 ⟨r.val - (n0 + n1 + n2), by have := r.isLt; omega⟩ i) (hoff n3 _)
    (by show n0 + n1 + n2 + (r.val - (n0 + n1 + n2)) = r.val; omega)

/-- Four arrays of one height put side by side along the COLUMNS, read at column `c`: the first whose columns reach
    `c`, at `c` less the columns of the arrays to its left. -/
theorem concatenate4_cols_apply {n0 n1 n2 n3 N a : ℕ}
    (x0 : (⟨2, ![a, n0]⟩ : Shape).Idx → α) (x1 : (⟨2, ![a, n1]⟩ : Shape).Idx → α)
    (x2 : (⟨2, ![a, n2]⟩ : Shape).Idx → α) (x3 : (⟨2, ![a, n3]⟩ : Shape).Idx → α)
    (h : Shape.Concatenates [⟨2, ![a, n0]⟩, ⟨2, ![a, n1]⟩, ⟨2, ![a, n2]⟩, ⟨2, ![a, n3]⟩] ⟨2, ![a, N]⟩ 1)
    (hN : n0 + n1 + n2 + n3 = N) (o : Fin a) (c : Fin N) :
    concatenate ⟨2, ![a, N]⟩ 1
        [⟨⟨2, ![a, n0]⟩, x0⟩, ⟨⟨2, ![a, n1]⟩, x1⟩, ⟨⟨2, ![a, n2]⟩, x2⟩, ⟨⟨2, ![a, n3]⟩, x3⟩] h (ix2 o c)
      = if h0 : c.val < n0 then x0 (ix2 o ⟨c.val, h0⟩)
        else if h1 : c.val < n0 + n1 then x1 (ix2 o ⟨c.val - n0, by omega⟩)
        else if h2 : c.val < n0 + n1 + n2 then x2 (ix2 o ⟨c.val - (n0 + n1), by omega⟩)
        else x3 (ix2 o ⟨c.val - (n0 + n1 + n2), by have := c.isLt; omega⟩) := by
  have hoff : ∀ (s : ℕ) (q : Fin s), ∀ b : Fin 2, Fin.cast (rfl : 2 = 2) b ≠ (1 : Fin 2) →
      ((ix2 o q : (⟨2, ![a, s]⟩ : Shape).Idx) b).val = ((ix2 o c : (⟨2, ![a, N]⟩ : Shape).Idx) (Fin.cast rfl b)).val :=
    fun s q b hb => by
      match b with
      | ⟨0, _⟩ => rfl
      | ⟨1, _⟩ => exact absurd rfl hb
  have key := concatenate_apply_piece (t := ⟨2, ![a, N]⟩) (1 : Fin 2)
    [⟨⟨2, ![a, n0]⟩, x0⟩, ⟨⟨2, ![a, n1]⟩, x1⟩, ⟨⟨2, ![a, n2]⟩, x2⟩, ⟨⟨2, ![a, n3]⟩, x3⟩] h (ix2 o c)
  by_cases h0 : c.val < n0
  · rw [dif_pos h0]
    exact key 0 (by show (0 : ℕ) < 4; omega) ⟨2, ![a, n0]⟩ x0 rfl rfl 0 rfl
      (ix2 o ⟨c.val, h0⟩) (hoff n0 _) (by show 0 + c.val = c.val; omega)
  rw [dif_neg h0]
  by_cases h1 : c.val < n0 + n1
  · rw [dif_pos h1]
    exact key 1 (by show (1 : ℕ) < 4; omega) ⟨2, ![a, n1]⟩ x1 rfl rfl n0
      (by show n0 + 0 = n0; omega) (ix2 o ⟨c.val - n0, by omega⟩) (hoff n1 _)
      (by show n0 + (c.val - n0) = c.val; omega)
  rw [dif_neg h1]
  by_cases h2 : c.val < n0 + n1 + n2
  · rw [dif_pos h2]
    exact key 2 (by show (2 : ℕ) < 4; omega) ⟨2, ![a, n2]⟩ x2 rfl rfl (n0 + n1)
      (by show n0 + (n1 + 0) = n0 + n1; omega) (ix2 o ⟨c.val - (n0 + n1), by omega⟩) (hoff n2 _)
      (by show n0 + n1 + (c.val - (n0 + n1)) = c.val; omega)
  rw [dif_neg h2]
  exact key 3 (by show (3 : ℕ) < 4; omega) ⟨2, ![a, n3]⟩ x3 rfl rfl (n0 + n1 + n2)
    (by show n0 + (n1 + (n2 + 0)) = n0 + n1 + n2; omega)
    (ix2 o ⟨c.val - (n0 + n1 + n2), by have := c.isLt; omega⟩) (hoff n3 _)
    (by show n0 + n1 + n2 + (c.val - (n0 + n1 + n2)) = c.val; omega)

/-- A vector [n] broadcast to one row [1, n], then down the rows to [a, n], reads at (p, q) the vector at q. -/
theorem broadcastInDim_vec_rows_apply {n a : ℕ} (x : (⟨1, ![n]⟩ : Shape).Idx → α)
    (h1 : (⟨1, ![n]⟩ : Shape).BroadcastsInDim ⟨2, ![1, n]⟩ (![1] : Fin 1 → Fin 2))
    (h2 : (⟨2, ![1, n]⟩ : Shape).BroadcastsInDim ⟨2, ![a, n]⟩ (![0, 1] : Fin 2 → Fin 2))
    (p : Fin a) (q : Fin n) :
    broadcastInDim ⟨2, ![a, n]⟩ ![0, 1] h2 (broadcastInDim ⟨2, ![1, n]⟩ ![1] h1 x) (ix2 p q) = x (ix1 q) := by
  have hq : ∀ z : ℕ, q.val = if n = 1 then 0 else q.val := fun _ => by
    by_cases hn : n = 1
    · rw [if_pos hn]; have := q.isLt; omega
    · rw [if_neg hn]
  refine (broadcastInDim_apply _ h2 _ (ix2 p q) (ix2 (0 : Fin 1) q) (fun b => ?_)).trans
    (broadcastInDim_apply _ h1 x (ix2 (0 : Fin 1) q) (ix1 q) (fun b => ?_))
  · match b with
    | ⟨0, _⟩ => show 0 = if (1 : ℕ) = 1 then 0 else p.val; rw [if_pos rfl]
    | ⟨1, _⟩ => exact hq 0
  · match b with
    | ⟨0, _⟩ => exact hq 0

/-- A scalar broadcast to any shape reads, at every index, the scalar. -/
theorem broadcastInDim_scalar_apply {t : Shape} (x : (⟨0, ![]⟩ : Shape).Idx → α)
    (h : (⟨0, ![]⟩ : Shape).BroadcastsInDim t (![] : Fin 0 → Fin t.rank)) (j : t.Idx) :
    broadcastInDim t ![] h x j = x ix0 :=
  broadcastInDim_apply _ h x j ix0 (fun b => b.elim0)

end Cert.LibConcat4
-- ==== Proof.KernelHostVh.lean ====
/-
  What the first kernel region finds in its stacked right-factor buffer, as a function of the launch arguments:
  the three right factors stacked along the rows above 124 rows of zeros (a change of float format being the
  identity on extended reals).
-/
import proofs.«173439_j75874892251349_2_alg».proof.Proof.KernelInputs
import proofs.«173439_j75874892251349_2_alg».proof.Proof.LibConcat4
import Idealize.ShloMosaic.Lib.ValueIdx
import Idealize.ShloMosaic.Lib.Pipeline.Value
import Idealize.ShloMosaic.PureOps.Ideal.Laws
import Idealize.ShloMosaic.Lib.ValueLayout
import Idealize.ShloMosaic.Lib.IdealHost
import Idealize.ShloMosaic.Lib.StableHlo.Run

noncomputable section

namespace Cert.KernelHost

open Cert.KernelIdeal Cert.KernelIdeal.Gen Idealize.ShloMosaic Idealize.ShloMosaic.TcCoe Idealize.SL.Sem Idealize.ShloMosaic.StableHlo
open Idealize.ShloMosaic.ValueIdx
open Cert.LibConcat4

variable (m : (ℓ : Loc nD τ sig) → Buf (Elt Ideal) ℓ)

/-- The stacked right-factor buffer holds the operations' term: the three narrowed factors and a block of zeros,
    concatenated along the rows. -/
theorem V5_v26_term (c : Dev nD) :
    (Gen.V5 (F := Ideal) m c main_v26 : S4224x4096.Idx → EReal)
      = concatenate S4224x4096 0
          [⟨S64x4096, truncf (F := Ideal) .bf16 (m ((c : Thread nD τ).loc main_arg3) : S64x4096.Idx → EReal) bitsLt_bf16_f32⟩,
           ⟨S4032x4096, truncf (F := Ideal) .bf16 (m ((c : Thread nD τ).loc main_arg6) : S4032x4096.Idx → EReal) bitsLt_bf16_f32⟩,
           ⟨S4x4096, truncf (F := Ideal) .bf16 (m ((c : Thread nD τ).loc main_arg9) : S4x4096.Idx → EReal) bitsLt_bf16_f32⟩,
           ⟨S124x4096, broadcastInDim S124x4096 ![] bcast_S_S124x4096 (constant (F := Ideal) S_ .bf16 0x0000#16)⟩]
          concatenates_S64x4096_S4032x4096_S4x4096_S124x4096_S4224x4096_d0 := by
  dsimp only [Gen.V5, Gen.V4, Gen.V3, Gen.V2, Gen.V1, Gen.V0]
  simp only [Gen.hostOps0_4]
  after_results
  rfl

/-- The first region's right-factor window reads the specification's stacked right factor. -/
theorem V5_main_v26 (c : Dev nD) :
    (Gen.V5 (F := Ideal) m c main_v26 : S4224x4096.Idx → EReal) = Cert.LowRank.vhAll (inputs m c) := by
  rw [V5_v26_term]
  funext j
  obtain ⟨r, i, rfl⟩ : ∃ (r : Fin 4224) (i : Fin 4096), j = ix2 r i := ⟨j 0, j 1, eq_ix2 j⟩
  rw [Cert.LowRank.vhAll_apply]
  refine (concatenate4_rows_apply _ _ _ _ concatenates_S64x4096_S4032x4096_S4x4096_S124x4096_S4224x4096_d0 rfl r i).trans ?_
  unfold Cert.LowRank.vhAllAt
  by_cases h0 : r.val < 64
  · rw [dif_pos h0, dif_pos h0]; rfl
  rw [dif_neg h0, dif_neg h0]
  by_cases h1 : r.val < 4096
  · rw [dif_pos (show r.val < 64 + 4032 from h1), dif_pos h1]; rfl
  rw [dif_neg (show ¬ r.val < 64 + 4032 from h1), dif_neg h1]
  by_cases h2 : r.val < 4100
  · rw [dif_pos (show r.val < 64 + 4032 + 4 from h2), dif_pos h2]; rfl
  rw [dif_neg (show ¬ r.val < 64 + 4032 + 4 from h2), dif_neg h2]
  exact (broadcastInDim_scalar_apply _ bcast_S_S124x4096 _).trans Ideal.ofBits_zero_bf16

end Cert.KernelHost

end
-- ==== Proof.KernelHostU.lean ====
/-
  What the second kernel region finds in its stacked left-factor buffer, as a function of the launch arguments:
  the head's left factor with column r scaled by relu (S_top * alpha + beta)[r], the tail's with column r scaled by
  S_tail[r], the correction's (columns scaled by its singular values and by relu D, then multiplied by the 4 x 4
  mixing matrix), and 124 columns of zeros, side by side (a change of float format being the identity on extended
  reals).
-/
import proofs.«173439_j75874892251349_2_alg».proof.Proof.KernelInputs
import proofs.«173439_j75874892251349_2_alg».proof.Proof.LibConcat4
import Idealize.ShloMosaic.Lib.ValueIdx
import Idealize.ShloMosaic.Lib.Pipeline.Value
import Idealize.ShloMosaic.PureOps.Ideal.Laws
import Idealize.ShloMosaic.Lib.ValueLayout
import Idealize.ShloMosaic.Lib.IdealHost
import Idealize.ShloMosaic.Lib.StableHlo.Run

noncomputable section

namespace Cert.KernelHost

open Cert.KernelIdeal Cert.KernelIdeal.Gen Idealize.ShloMosaic Idealize.ShloMosaic.TcCoe Idealize.SL.Sem Idealize.ShloMosaic.StableHlo
open Idealize.ShloMosaic.ValueIdx
open Cert.LibConcat4

/-! ## The four column blocks as the program computes them -/

/-- relu (S_top * alpha + beta), as the program computes it. -/
def sHeadVec (x2 x10 x11 : FVec Ideal S64 .f32) : FVec Ideal S64 .f32 :=
  maximumf (F := Ideal) (addf (F := Ideal) (mulf (F := Ideal) x2 x10) x11)
    (broadcastInDim S64 ![] bcast_S_S64 (constant (F := Ideal) S_ .f32 0x00000000#32))

/-- The head's columns: U_top with column r scaled by the adapted singular value. -/
def headCols (x1 : FVec Ideal S4096x64 .f32) (x2 x10 x11 : FVec Ideal S64 .f32) : FVec Ideal S4096x64 .bf16 :=
  truncf (F := Ideal) .bf16
    (mulf (F := Ideal) x1
      (broadcastInDim S4096x64 ![0, 1] bcast_S1x64_S4096x64_0_1
        (broadcastInDim S1x64 ![1] bcast_S64_S1x64_1 (sHeadVec x2 x10 x11))))
    bitsLt_bf16_f32

/-- The tail's columns: U_tail with column r scaled by S_tail[r]. -/
def tailCols (x4 : FVec Ideal S4096x4032 .f32) (x5 : FVec Ideal S4032 .f32) : FVec Ideal S4096x4032 .bf16 :=
  truncf (F := Ideal) .bf16
    (mulf (F := Ideal) x4
      (broadcastInDim S4096x4032 ![0, 1] bcast_S1x4032_S4096x4032_0_1
        (broadcastInDim S1x4032 ![1] bcast_S4032_S1x4032_1 x5)))
    bitsLt_bf16_f32

/-- relu D, as the program computes it. -/
def reluD (x12 : FVec Ideal S4 .f32) : FVec Ideal S4 .f32 :=
  maximumf (F := Ideal) x12 (broadcastInDim S4 ![] bcast_S_S4 (constant (F := Ideal) S_ .f32 0x00000000#32))

/-- The correction's left factor before mixing: U_tail_r with column r scaled by S_tail_r[r] and by relu D[r]. -/
def bScaledVec (x7 : FVec Ideal S4096x4 .f32) (x8 x12 : FVec Ideal S4 .f32) : FVec Ideal S4096x4 .f32 :=
  mulf (F := Ideal)
    (mulf (F := Ideal) x7
      (broadcastInDim S4096x4 ![0, 1] bcast_S1x4_S4096x4_0_1 (broadcastInDim S1x4 ![1] bcast_S4_S1x4_1 x8)))
    (broadcastInDim S4096x4 ![0, 1] bcast_S1x4_S4096x4_0_1 (broadcastInDim S1x4 ![1] bcast_S4_S1x4_1 (reluD x12)))

/-- The correction's columns: the scaled factor times the mixing matrix. -/
def deltaCols (x7 : FVec Ideal S4096x4 .f32) (x8 x12 : FVec Ideal S4 .f32) (x13 : FVec Ideal S4x4 .f32) : FVec Ideal S4096x4 .bf16 :=
  truncf (F := Ideal) .bf16
    (Host.dotGeneral (F := Ideal) dot_S4096x4_S4x4_S4096x4_1_0_0_1_n_n none (bScaledVec x7 x8 x12) x13)
    bitsLt_bf16_f32

/-- The padding columns: zeros. -/
def zeroCols : FVec Ideal S4096x124 .bf16 :=
  broadcastInDim S4096x124 ![] bcast_S_S4096x124 (constant (F := Ideal) S_ .bf16 0x0000#16)

/-! ## The blocks read at an index -/

theorem sHeadVec_apply (x2 x10 x11 : FVec Ideal S64 .f32) (r : Fin 64) :
    sHeadVec x2 x10 x11 (ix1 r) = max (x2 (ix1 r) * x10 (ix1 r) + x11 (ix1 r)) 0 := by
  have hz : broadcastInDim S64 ![] bcast_S_S64 (constant (F := Ideal) S_ .f32 0x00000000#32) (ix1 r) = 0 :=
    (broadcastInDim_scalar_apply _ bcast_S_S64 _).trans Ideal.ofBits_zero_f32
  show max (x2 (ix1 r) * x10 (ix1 r) + x11 (ix1 r))
    (broadcastInDim S64 ![] bcast_S_S64 (constant (F := Ideal) S_ .f32 0x00000000#32) (ix1 r)) = _
  rw [hz]

theorem headCols_apply (x1 : FVec Ideal S4096x64 .f32) (x2 x10 x11 : FVec Ideal S64 .f32) (o : Fin 4096) (r : Fin 64) :
    headCols x1 x2 x10 x11 (ix2 o r) = x1 (ix2 o r) * max (x2 (ix1 r) * x10 (ix1 r) + x11 (ix1 r)) 0 := by
  have hb : broadcastInDim S4096x64 ![0, 1] bcast_S1x64_S4096x64_0_1
      (broadcastInDim S1x64 ![1] bcast_S64_S1x64_1 (sHeadVec x2 x10 x11)) (ix2 o r) = sHeadVec x2 x10 x11 (ix1 r) :=
    broadcastInDim_vec_rows_apply _ _ _ o r
  show x1 (ix2 o r) * broadcastInDim S4096x64 ![0, 1] bcast_S1x64_S4096x64_0_1
      (broadcastInDim S1x64 ![1] bcast_S64_S1x64_1 (sHeadVec x2 x10 x11)) (ix2 o r) = _
  rw [hb, sHeadVec_apply]

theorem tailCols_apply (x4 : FVec Ideal S4096x4032 .f32) (x5 : FVec Ideal S4032 .f32) (o : Fin 4096) (r : Fin 4032) :
    tailCols x4 x5 (ix2 o r) = x4 (ix2 o r) * x5 (ix1 r) := by
  have hb : broadcastInDim S4096x4032 ![0, 1] bcast_S1x4032_S4096x4032_0_1
      (broadcastInDim S1x4032 ![1] bcast_S4032_S1x4032_1 x5) (ix2 o r) = x5 (ix1 r) :=
    broadcastInDim_vec_rows_apply _ _ _ o r
  show x4 (ix2 o r) * broadcastInDim S4096x4032 ![0, 1] bcast_S1x4032_S4096x4032_0_1
      (broadcastInDim S1x4032 ![1] bcast_S4032_S1x4032_1 x5) (ix2 o r) = _
  rw [hb]

theorem reluD_apply (x12 : FVec Ideal S4 .f32) (r : Fin 4) : reluD x12 (ix1 r) = max (x12 (ix1 r)) 0 := by
  have hz : broadcastInDim S4 ![] bcast_S_S4 (constant (F := Ideal) S_ .f32 0x00000000#32) (ix1 r) = 0 :=
    (broadcastInDim_scalar_apply _ bcast_S_S4 _).trans Ideal.ofBits_zero_f32
  show max (x12 (ix1 r)) (broadcastInDim S4 ![] bcast_S_S4 (constant (F := Ideal) S_ .f32 0x00000000#32) (ix1 r)) = _
  rw [hz]

theorem bScaledVec_apply (x7 : FVec Ideal S4096x4 .f32) (x8 x12 : FVec Ideal S4 .f32) (o : Fin 4096) (r : Fin 4) :
    bScaledVec x7 x8 x12 (ix2 o r) = (x7 (ix2 o r) * x8 (ix1 r)) * max (x12 (ix1 r)) 0 := by
  have h8 : broadcastInDim S4096x4 ![0, 1] bcast_S1x4_S4096x4_0_1 (broadcastInDim S1x4 ![1] bcast_S4_S1x4_1 x8) (ix2 o r)
      = x8 (ix1 r) := broadcastInDim_vec_rows_apply _ _ _ o r
  have h12 : broadcastInDim S4096x4 ![0, 1] bcast_S1x4_S4096x4_0_1 (broadcastInDim S1x4 ![1] bcast_S4_S1x4_1 (reluD x12)) (ix2 o r)
      = reluD x12 (ix1 r) := broadcastInDim_vec_rows_apply _ _ _ o r
  show (x7 (ix2 o r) * broadcastInDim S4096x4 ![0, 1] bcast_S1x4_S4096x4_0_1 (broadcastInDim S1x4 ![1] bcast_S4_S1x4_1 x8) (ix2 o r))
      * broadcastInDim S4096x4 ![0, 1] bcast_S1x4_S4096x4_0_1 (broadcastInDim S1x4 ![1] bcast_S4_S1x4_1 (reluD x12)) (ix2 o r) = _
  rw [h8, h12, reluD_apply]

theorem zeroCols_apply (j : S4096x124.Idx) : zeroCols j = 0 :=
  (broadcastInDim_scalar_apply _ bcast_S_S4096x124 _).trans Ideal.ofBits_zero_bf16

/-! ### The 4096 x 4 by 4 x 4 product at an index -/

theorem mix_lhs_0 (i : S4096x4.Idx) (q : dot_S4096x4_S4x4_S4096x4_1_0_0_1_n_n.contr.Idx) :
    (dot_S4096x4_S4x4_S4096x4_1_0_0_1_n_n.lhsIdx i q 0).val = (i 0).val := by
  unfold DotDims.lhsIdx
  rw [dif_neg (show ¬(0 : Fin S4096x4.rank) ∈ dot_S4096x4_S4x4_S4096x4_1_0_0_1_n_n.lhsBatch by decide), dif_pos (show (0 : Fin S4096x4.rank) ∈ dot_S4096x4_S4x4_S4096x4_1_0_0_1_n_n.lhsNonContracting by decide)]
  rfl
theorem mix_lhs_1 (i : S4096x4.Idx) (q : dot_S4096x4_S4x4_S4096x4_1_0_0_1_n_n.contr.Idx) :
    (dot_S4096x4_S4x4_S4096x4_1_0_0_1_n_n.lhsIdx i q 1).val = (q ⟨0, by decide⟩).val :=
  dot_S4096x4_S4x4_S4096x4_1_0_0_1_n_n.lhsIdx_val_of_single rfl i q
theorem mix_rhs_0 (i : S4096x4.Idx) (q : dot_S4096x4_S4x4_S4096x4_1_0_0_1_n_n.contr.Idx) :
    (dot_S4096x4_S4x4_S4096x4_1_0_0_1_n_n.rhsIdx i q 0).val = (q ⟨0, by decide⟩).val :=
  dot_S4096x4_S4x4_S4096x4_1_0_0_1_n_n.rhsIdx_val_of_single rfl i q
theorem mix_rhs_1 (i : S4096x4.Idx) (q : dot_S4096x4_S4x4_S4096x4_1_0_0_1_n_n.contr.Idx) :
    (dot_S4096x4_S4x4_S4096x4_1_0_0_1_n_n.rhsIdx i q 1).val = (i 1).val := by
  unfold DotDims.rhsIdx
  rw [dif_neg (show ¬(1 : Fin S4x4.rank) ∈ dot_S4096x4_S4x4_S4096x4_1_0_0_1_n_n.rhsBatch by decide), dif_pos (show (1 : Fin S4x4.rank) ∈ dot_S4096x4_S4x4_S4096x4_1_0_0_1_n_n.rhsNonContracting by decide)]
  rfl

/-- The small product at (o, j): the sum over the four contracted columns. -/
theorem mix_apply (y : FVec Ideal S4096x4 .f32) (x13 : FVec Ideal S4x4 .f32) (o : Fin 4096) (j : Fin 4) :
    Host.dotGeneral (F := Ideal) dot_S4096x4_S4x4_S4096x4_1_0_0_1_n_n none y x13 (ix2 o j)
      = ∑ k : Fin 4, y (ix2 o k) * x13 (ix2 k j) := by
  simp only [Host.dotGeneral]
  rw [Ideal.dotGeneral_apply, ← Equiv.sum_comp (ValueIdx.contrEquiv1 dot_S4096x4_S4x4_S4096x4_1_0_0_1_n_n 4 rfl rfl).symm]
  refine Finset.sum_congr rfl fun k _ => ?_
  have hk := ValueIdx.contrEquiv1_symm_val dot_S4096x4_S4x4_S4096x4_1_0_0_1_n_n 4 rfl rfl k
  have el : dot_S4096x4_S4x4_S4096x4_1_0_0_1_n_n.lhsIdx (ix2 o j) ((ValueIdx.contrEquiv1 dot_S4096x4_S4x4_S4096x4_1_0_0_1_n_n 4 rfl rfl).symm k) = ix2 o k := funext fun a => Fin.ext (by
    match a with
    | ⟨0, _⟩ => exact mix_lhs_0 _ _
    | ⟨1, _⟩ => exact (mix_lhs_1 _ _).trans hk)
  have er : dot_S4096x4_S4x4_S4096x4_1_0_0_1_n_n.rhsIdx (ix2 o j) ((ValueIdx.contrEquiv1 dot_S4096x4_S4x4_S4096x4_1_0_0_1_n_n 4 rfl rfl).symm k) = ix2 k j := funext fun a => Fin.ext (by
    match a with
    | ⟨0, _⟩ => exact (mix_rhs_0 _ _).trans hk
    | ⟨1, _⟩ => exact mix_rhs_1 _ _)
  rw [el, er]

theorem deltaCols_apply (x7 : FVec Ideal S4096x4 .f32) (x8 x12 : FVec Ideal S4 .f32) (x13 : FVec Ideal S4x4 .f32)
    (o : Fin 4096) (j : Fin 4) :
    deltaCols x7 x8 x12 x13 (ix2 o j)
      = ∑ k : Fin 4, ((x7 (ix2 o k) * x8 (ix1 k)) * max (x12 (ix1 k)) 0) * x13 (ix2 k j) := by
  show Host.dotGeneral (F := Ideal) dot_S4096x4_S4x4_S4096x4_1_0_0_1_n_n none (bScaledVec x7 x8 x12) x13 (ix2 o j) = _
  rw [mix_apply]
  exact Finset.sum_congr rfl fun k _ => by rw [bScaledVec_apply]

/-! ## The buffer -/

variable (m : (ℓ : Loc nD τ sig) → Buf (Elt Ideal) ℓ)

/-- The stacked left-factor buffer holds the operations' term: the four column blocks concatenated along the columns. -/
theorem V5_v21_term (c : Dev nD) :
    (Gen.V5 (F := Ideal) m c main_v21 : S4096x4224.Idx → EReal)
      = concatenate S4096x4224 1
          [⟨S4096x64, headCols (m ((c : Thread nD τ).loc main_arg1)) (m ((c : Thread nD τ).loc main_arg2)) (m ((c : Thread nD τ).loc main_arg10)) (m ((c : Thread nD τ).loc main_arg11))⟩,
           ⟨S4096x4032, tailCols (m ((c : Thread nD τ).loc main_arg4)) (m ((c : Thread nD τ).loc main_arg5))⟩,
           ⟨S4096x4, deltaCols (m ((c : Thread nD τ).loc main_arg7)) (m ((c : Thread nD τ).loc main_arg8)) (m ((c : Thread nD τ).loc main_arg12)) (m ((c : Thread nD τ).loc main_arg13))⟩,
           ⟨S4096x124, zeroCols⟩]
          concatenates_S4096x64_S4096x4032_S4096x4_S4096x124_S4096x4224_d1 := by
  dsimp only [Gen.V5, Gen.V4, Gen.V3, Gen.V2, Gen.V1, Gen.V0]
  simp only [Gen.hostOps0, Gen.hostOps0_1, Gen.hostOps0_2, Gen.hostOps0_3, Gen.hostOps0_4]
  after_results
  rfl

/-- The second region's left-factor window reads the specification's stacked left factor. -/
theorem V5_main_v21 (c : Dev nD) :
    (Gen.V5 (F := Ideal) m c main_v21 : S4096x4224.Idx → EReal) = Cert.LowRank.uAll (inputs m c) := by
  rw [V5_v21_term]
  funext j
  obtain ⟨o, q, rfl⟩ : ∃ (o : Fin 4096) (q : Fin 4224), j = ix2 o q := ⟨j 0, j 1, eq_ix2 j⟩
  rw [Cert.LowRank.uAll_apply]
  refine (concatenate4_cols_apply _ _ _ _ concatenates_S4096x64_S4096x4032_S4096x4_S4096x124_S4096x4224_d1 rfl o q).trans ?_
  unfold Cert.LowRank.uAllAt
  by_cases h0 : q.val < 64
  · rw [dif_pos h0, dif_pos h0, headCols_apply]; rfl
  rw [dif_neg h0, dif_neg h0]
  by_cases h1 : q.val < 4096
  · rw [dif_pos (show q.val < 64 + 4032 from h1), dif_pos h1, tailCols_apply]; rfl
  rw [dif_neg (show ¬ q.val < 64 + 4032 from h1), dif_neg h1]
  by_cases h2 : q.val < 4100
  · rw [dif_pos (show q.val < 64 + 4032 + 4 from h2), dif_pos h2, deltaCols_apply]; rfl
  rw [dif_neg (show ¬ q.val < 64 + 4032 + 4 from h2), dif_neg h2]
  exact zeroCols_apply _

end Cert.KernelHost

end
-- ==== Proof.KernelHostOut.lean ====
/-
  The program's last host operation: the second region's [4096, 4096] result recast to [4, 1024, 4096]. Entry
  (b, s, o) of the result is entry (1024 * b + s, o) of what the region left, whatever the buffers hold.
-/
import proofs.«173439_j75874892251349_2_alg».proof.Proof.KernelInputs
import Idealize.ShloMosaic.Lib.ValueIdx
import Idealize.ShloMosaic.Lib.Pipeline.Value
import Idealize.ShloMosaic.PureOps.Ideal.Laws
import Idealize.ShloMosaic.Lib.ValueLayout
import Idealize.ShloMosaic.Lib.IdealHost
import Idealize.ShloMosaic.Lib.StableHlo.Run

noncomputable section

namespace Cert.KernelHost

open Cert.KernelIdeal Cert.KernelIdeal.Gen Idealize.ShloMosaic Idealize.ShloMosaic.TcCoe Idealize.SL.Sem Idealize.ShloMosaic.StableHlo
open Idealize.ShloMosaic.ValueIdx

/-- A [4096, 4096] array recast to [4, 1024, 4096] reads, at (b, s, o), the operand at (1024 * b + s, o): the two
    indices have the same row-major position. -/
theorem shapeCast_split_lead_apply {α : Type} (x : S4096x4096.Idx → α) (h : S4096x4096.ShapeCasts S4x1024x4096)
    (b : Fin 4) (s : Fin 1024) (o : Fin 4096) :
    shapeCast S4x1024x4096 x h (ix3 b s o) = x (ix2 (⟨1024 * b.val + s.val, by omega⟩ : Fin 4096) o) := by
  refine shapeCast_apply x h _ _ ?_
  rw [Shape.rowMajor_val_three, Shape.rowMajor_val_two]
  show (1024 * b.val + s.val) * 4096 + o.val = (b.val * 1024 + s.val) * 4096 + o.val
  omega

/-- After the last host operation, from any contents `X` of the buffers: the result buffer at (b, s, o) is the
    second region's output buffer at (1024 * b + s, o). -/
theorem after_hostOps2_main_v32 (X : Valuation τ sig (Elt Ideal)) (b : Fin 4) (s : Fin 1024) (o : Fin 4096) :
    (StableHlo.after (Gen.hostOps2 (F := Ideal)) X (Proc.devRef .tc main_v32) : S4x1024x4096.Idx → EReal) (ix3 b s o)
      = (X (Proc.devRef .tc main_v31) : S4096x4096.Idx → EReal) (ix2 (⟨1024 * b.val + s.val, by omega⟩ : Fin 4096) o) := by
  have e : (StableHlo.after (Gen.hostOps2 (F := Ideal)) X (Proc.devRef .tc main_v32) : S4x1024x4096.Idx → EReal)
      = shapeCast S4x1024x4096 (X (Proc.devRef .tc main_v31) : S4096x4096.Idx → EReal) shapeCasts_S4096x4096_S4x1024x4096 := by
    simp only [Gen.hostOps2]
    after_results
    rfl
  rw [e]
  exact shapeCast_split_lead_apply _ _ b s o

variable (m : (ℓ : Loc nD τ sig) → Buf (Elt Ideal) ℓ) (outs : Gen.Outs (F := Ideal))

/-- The same over the generated valuations: the result after the whole program, from what the second region left. -/
theorem V8_main_v32 (c : Dev nD) (b : Fin 4) (s : Fin 1024) (o : Fin 4096) :
    (Gen.V8 m outs c main_v32 : S4x1024x4096.Idx → EReal) (ix3 b s o)
      = (Gen.V7 m outs c main_v31 : S4096x4096.Idx → EReal) (ix2 (⟨1024 * b.val + s.val, by omega⟩ : Fin 4096) o) :=
  after_hostOps2_main_v32 (Gen.V7 m outs c) b s o

end Cert.KernelHost

end
-- ==== Proof.LowRankAlgebra.lean ====
/-
  THE ALGEBRA: the factored computation equals the reference's, when every input entry is a real number.

  With X the input row, and each low-rank group given by a left factor U (one row of it) and a right factor V,
    Σ_r (Σ_i X i * V r i) * U r  =  Σ_i X i * (Σ_r U r * V r i)
  is an exchange of two finite sums plus distributivity. On the extended reals distributivity fails at the infinities,
  so the law is proved for real numbers and transferred along the coercion: an entry that is a real number is the
  coercion of that number, and the coercion commutes with products, sums, finite sums and max _ 0.
  The stacked sum over 4224 columns splits into the three groups' sums and a block of zeros that contributes nothing.
-/
import proofs.«173439_j75874892251349_2_alg».proof.Proof.LowRankSpec

noncomputable section

open Idealize.ShloMosaic Idealize.ShloMosaic.ValueIdx
open scoped BigOperators

namespace Cert.LowRank

/-! ## Real-valued extended reals -/

/-- The coercion commutes with a finite sum. -/
theorem coe_sum {ι : Type} (s : Finset ι) (f : ι → ℝ) : ((∑ i ∈ s, f i : ℝ) : EReal) = ∑ i ∈ s, (f i : EReal) := by
  classical
  induction s using Finset.induction_on with
  | empty => simp
  | insert i s hi ih => rw [Finset.sum_insert hi, Finset.sum_insert hi, EReal.coe_add, ih]

/-- The extended real is (the coercion of) a real number. -/
def IsR (z : EReal) : Prop := ∃ v : ℝ, z = (v : EReal)

theorem IsR.mul {x y : EReal} (hx : IsR x) (hy : IsR y) : IsR (x * y) := by
  obtain ⟨v, rfl⟩ := hx; obtain ⟨w, rfl⟩ := hy; exact ⟨v * w, (EReal.coe_mul v w).symm⟩
theorem IsR.add {x y : EReal} (hx : IsR x) (hy : IsR y) : IsR (x + y) := by
  obtain ⟨v, rfl⟩ := hx; obtain ⟨w, rfl⟩ := hy; exact ⟨v + w, (EReal.coe_add v w).symm⟩
theorem IsR.relu {x : EReal} (hx : IsR x) : IsR (max x 0) := by
  obtain ⟨v, rfl⟩ := hx; exact ⟨max v 0, by rw [EReal.coe_strictMono.monotone.map_max, EReal.coe_zero]⟩
theorem IsR.sum {ι : Type} [Fintype ι] {f : ι → EReal} (hf : ∀ i, IsR (f i)) : IsR (∑ i, f i) := by
  choose g hg using hf
  exact ⟨∑ i, g i, by rw [coe_sum]; exact Finset.sum_congr rfl fun i _ => hg i⟩

/-! ## The law for three low-rank groups, over abstract finite index types -/

/-- In the real numbers. -/
theorem three_groups_real {I A B C : Type} [Fintype I] [Fintype A] [Fintype B] [Fintype C]
    (X : I → ℝ) (VA : A → I → ℝ) (UA : A → ℝ) (VB : B → I → ℝ) (UB : B → ℝ) (VC : C → I → ℝ) (UC : C → ℝ) :
    ((∑ r, (∑ i, X i * VA r i) * UA r) + ∑ r, (∑ i, X i * VB r i) * UB r) + ∑ r, (∑ i, X i * VC r i) * UC r
      = ∑ i, X i * (((∑ r, UA r * VA r i) + ∑ r, UB r * VB r i) + ∑ r, UC r * VC r i) := by
  have key : ∀ {R : Type} [Fintype R] (V : R → I → ℝ) (U : R → ℝ),
      ∑ r, (∑ i, X i * V r i) * U r = ∑ i, X i * ∑ r, U r * V r i := by
    intro R _ V U
    simp only [Finset.sum_mul, Finset.mul_sum]
    rw [Finset.sum_comm]
    refine Finset.sum_congr rfl fun i _ => Finset.sum_congr rfl fun r _ => ?_
    ring
  rw [key, key, key, ← Finset.sum_add_distrib, ← Finset.sum_add_distrib]
  refine Finset.sum_congr rfl fun i _ => ?_
  ring

/-- On the extended reals, for real-valued operands. -/
theorem three_groups {I A B C : Type} [Fintype I] [Fintype A] [Fintype B] [Fintype C]
    (X : I → EReal) (VA : A → I → EReal) (UA : A → EReal) (VB : B → I → EReal) (UB : B → EReal)
    (VC : C → I → EReal) (UC : C → EReal)
    (hX : ∀ i, IsR (X i)) (hVA : ∀ r i, IsR (VA r i)) (hUA : ∀ r, IsR (UA r)) (hVB : ∀ r i, IsR (VB r i))
    (hUB : ∀ r, IsR (UB r)) (hVC : ∀ r i, IsR (VC r i)) (hUC : ∀ r, IsR (UC r)) :
    ((∑ r, (∑ i, X i * VA r i) * UA r) + ∑ r, (∑ i, X i * VB r i) * UB r) + ∑ r, (∑ i, X i * VC r i) * UC r
      = ∑ i, X i * (((∑ r, UA r * VA r i) + ∑ r, UB r * VB r i) + ∑ r, UC r * VC r i) := by
  choose X' hX' using hX
  choose VA' hVA' using hVA
  choose UA' hUA' using hUA
  choose VB' hVB' using hVB
  choose UB' hUB' using hUB
  choose VC' hVC' using hVC
  choose UC' hUC' using hUC
  simp only [hX', hVA', hUA', hVB', hUB', hVC', hUC', ← EReal.coe_mul, ← coe_sum, ← EReal.coe_add]
  exact congrArg _ (three_groups_real X' VA' UA' VB' UB' VC' UC')

/-! ## A sum over four consecutive blocks -/

/-- A sum over Fin n with n = n1 + n2 + n3 + n4 is the four blocks' sums. -/
theorem sum_four_blocks {M : Type} [AddCommMonoid M] {n : ℕ} (n1 n2 n3 n4 : ℕ) (hn : n = n1 + n2 + n3 + n4)
    (F : Fin n → M) :
    ∑ c, F c = (((∑ r : Fin n1, F ⟨r.val, by have := r.isLt; omega⟩)
      + ∑ r : Fin n2, F ⟨n1 + r.val, by have := r.isLt; omega⟩)
      + ∑ r : Fin n3, F ⟨n1 + n2 + r.val, by have := r.isLt; omega⟩)
      + ∑ r : Fin n4, F ⟨n1 + n2 + n3 + r.val, by have := r.isLt; omega⟩ := by
  subst hn
  rw [Fin.sum_univ_add, Fin.sum_univ_add, Fin.sum_univ_add]
  rfl

end Cert.LowRank

end
-- ==== Proof.LowRankLaw.lean ====
/-
  THE LAW FOR THIS LAYER: the factored computation's result at row m = 1024 * b + s and column o is the
  reference's at (b, s, o), when every input entry is a real number.

  The stacked sum over the 4224 columns of the stacked factors splits into the head's 64, the tail's 4032, the
  correction's 4 and 124 zero columns; on each block the stacked factors read the group's own factors, and the zero
  block contributes nothing. What remains is the three-group law of the abstract module, whose operands are
  real-valued because the inputs are and because products, sums and max _ 0 of real numbers are real.
-/
import proofs.«173439_j75874892251349_2_alg».proof.Proof.LowRankAlgebra

noncomputable section

open Idealize.ShloMosaic Idealize.ShloMosaic.ValueIdx
open scoped BigOperators

namespace Cert.LowRank

variable (a : Inputs)

/-! ## The stacked factors on each block of columns -/

theorem uAllAt_lt_64 (o : Fin 4096) (c : Fin 4224) (h : c.val < 64) : uAllAt a o c = uHead a o ⟨c.val, h⟩ := by
  unfold uAllAt; exact dif_pos h
theorem uAllAt_lt_4096 (o : Fin 4096) (c : Fin 4224) (h1 : ¬c.val < 64) (h2 : c.val < 4096) :
    uAllAt a o c = uTailS a o ⟨c.val - 64, by omega⟩ := by
  unfold uAllAt; rw [dif_neg h1, dif_pos h2]
theorem uAllAt_lt_4100 (o : Fin 4096) (c : Fin 4224) (h2 : ¬c.val < 4096) (h3 : c.val < 4100) :
    uAllAt a o c = uDelta a o ⟨c.val - 4096, by omega⟩ := by
  unfold uAllAt; rw [dif_neg (by omega), dif_neg h2, dif_pos h3]
theorem uAllAt_ge_4100 (o : Fin 4096) (c : Fin 4224) (h3 : ¬c.val < 4100) : uAllAt a o c = 0 := by
  unfold uAllAt; rw [dif_neg (by omega), dif_neg (by omega), dif_neg h3]

theorem vhAllAt_lt_64 (c : Fin 4224) (i : Fin 4096) (h : c.val < 64) :
    vhAllAt a c i = a.vhTop (ix2 (⟨c.val, h⟩ : Fin 64) i) := by
  unfold vhAllAt; exact dif_pos h
theorem vhAllAt_lt_4096 (c : Fin 4224) (i : Fin 4096) (h1 : ¬c.val < 64) (h2 : c.val < 4096) :
    vhAllAt a c i = a.vhTail (ix2 (⟨c.val - 64, by omega⟩ : Fin 4032) i) := by
  unfold vhAllAt; rw [dif_neg h1, dif_pos h2]
theorem vhAllAt_lt_4100 (c : Fin 4224) (i : Fin 4096) (h2 : ¬c.val < 4096) (h3 : c.val < 4100) :
    vhAllAt a c i = a.vhTailR (ix2 (⟨c.val - 4096, by omega⟩ : Fin 4) i) := by
  unfold vhAllAt; rw [dif_neg (by omega), dif_neg h2, dif_pos h3]
theorem vhAllAt_ge_4100 (c : Fin 4224) (i : Fin 4096) (h3 : ¬c.val < 4100) : vhAllAt a c i = 0 := by
  unfold vhAllAt; rw [dif_neg (by omega), dif_neg (by omega), dif_neg h3]

/-- Columns 0..63 are the head. -/
theorem uAllAt_head (o : Fin 4096) (r : Fin 64) (h : r.val < 4224) : uAllAt a o ⟨r.val, h⟩ = uHead a o r :=
  uAllAt_lt_64 a o ⟨r.val, h⟩ r.isLt
theorem vhAllAt_head (r : Fin 64) (i : Fin 4096) (h : r.val < 4224) : vhAllAt a ⟨r.val, h⟩ i = a.vhTop (ix2 r i) :=
  vhAllAt_lt_64 a ⟨r.val, h⟩ i r.isLt

/-- Columns 64..4095 are the tail. -/
theorem uAllAt_tail (o : Fin 4096) (r : Fin 4032) (h : 64 + r.val < 4224) :
    uAllAt a o ⟨64 + r.val, h⟩ = uTailS a o r := by
  have hr := r.isLt
  rw [uAllAt_lt_4096 a o ⟨64 + r.val, h⟩ (show ¬(64 + r.val < 64) by omega) (show 64 + r.val < 4096 by omega)]
  exact congrArg (uTailS a o) (Fin.ext (show 64 + r.val - 64 = r.val by omega))
theorem vhAllAt_tail (r : Fin 4032) (i : Fin 4096) (h : 64 + r.val < 4224) :
    vhAllAt a ⟨64 + r.val, h⟩ i = a.vhTail (ix2 r i) := by
  have hr := r.isLt
  rw [vhAllAt_lt_4096 a ⟨64 + r.val, h⟩ i (show ¬(64 + r.val < 64) by omega) (show 64 + r.val < 4096 by omega)]
  exact congrArg (fun q : Fin 4032 => a.vhTail (ix2 q i)) (Fin.ext (show 64 + r.val - 64 = r.val by omega))

/-- Columns 4096..4099 are the correction. -/
theorem uAllAt_delta (o : Fin 4096) (r : Fin 4) (h : 64 + 4032 + r.val < 4224) :
    uAllAt a o ⟨64 + 4032 + r.val, h⟩ = uDelta a o r := by
  have hr := r.isLt
  rw [uAllAt_lt_4100 a o ⟨64 + 4032 + r.val, h⟩ (show ¬(64 + 4032 + r.val < 4096) by omega)
    (show 64 + 4032 + r.val < 4100 by omega)]
  exact congrArg (uDelta a o) (Fin.ext (show 64 + 4032 + r.val - 4096 = r.val by omega))
theorem vhAllAt_delta (r : Fin 4) (i : Fin 4096) (h : 64 + 4032 + r.val < 4224) :
    vhAllAt a ⟨64 + 4032 + r.val, h⟩ i = a.vhTailR (ix2 r i) := by
  have hr := r.isLt
  rw [vhAllAt_lt_4100 a ⟨64 + 4032 + r.val, h⟩ i (show ¬(64 + 4032 + r.val < 4096) by omega)
    (show 64 + 4032 + r.val < 4100 by omega)]
  exact congrArg (fun q : Fin 4 => a.vhTailR (ix2 q i)) (Fin.ext (show 64 + 4032 + r.val - 4096 = r.val by omega))

/-- Columns 4100..4223 are zero. -/
theorem uAllAt_pad (o : Fin 4096) (r : Fin 124) (h : 64 + 4032 + 4 + r.val < 4224) :
    uAllAt a o ⟨64 + 4032 + 4 + r.val, h⟩ = 0 :=
  uAllAt_ge_4100 a o ⟨64 + 4032 + 4 + r.val, h⟩ (show ¬(64 + 4032 + 4 + r.val < 4100) by omega)

/-! ## The scaled factors are real-valued -/

variable {a}

theorem sHead_isR (hf : a.Finite) (r : Fin 64) : IsR (sHead a r) :=
  ((IsR.mul (hf.sTop _) (hf.alpha _)).add (hf.beta _)).relu
theorem uHead_isR (hf : a.Finite) (o : Fin 4096) (r : Fin 64) : IsR (uHead a o r) :=
  IsR.mul (hf.uTop _) (sHead_isR hf r)
theorem uTailS_isR (hf : a.Finite) (o : Fin 4096) (r : Fin 4032) : IsR (uTailS a o r) :=
  IsR.mul (hf.uTail _) (hf.sTail _)
theorem bScaled_isR (hf : a.Finite) (o : Fin 4096) (r : Fin 4) : IsR (bScaled a o r) :=
  IsR.mul (IsR.mul (hf.uTailR _) (hf.sTailR _)) (IsR.relu (hf.dGate _))
theorem uDelta_isR (hf : a.Finite) (o : Fin 4096) (j : Fin 4) : IsR (uDelta a o j) :=
  IsR.sum fun r => IsR.mul (bScaled_isR hf o r) (hf.rMix _)

/-! ## The law -/

/-- THE FACTORED COMPUTATION IS THE REFERENCE'S, entry by entry, for real-valued inputs. -/
theorem factoredOut_eq (hf : a.Finite) (m o : Fin 4096) :
    factoredOut a (ix2 m o)
      = G a (ix3 (⟨m.val / 1024, by omega⟩ : Fin 4) (⟨m.val % 1024, Nat.mod_lt _ (by decide)⟩ : Fin 1024) o) := by
  show (∑ c : Fin 4224, (∑ i : Fin 4096, xFlat a (ix2 m i) * vhAllAt a c i) * uAllAt a o c) + a.bias (ix1 o)
    = (∑ i : Fin 4096, xFlat a (ix2 m i) * (((∑ r : Fin 64, uHead a o r * a.vhTop (ix2 r i))
        + ∑ r : Fin 4032, uTailS a o r * a.vhTail (ix2 r i)) + ∑ j : Fin 4, uDelta a o j * a.vhTailR (ix2 j i)))
      + a.bias (ix1 o)
  congr 1
  rw [sum_four_blocks 64 4032 4 124 rfl]
  simp only [uAllAt_head, uAllAt_tail, uAllAt_delta, uAllAt_pad, vhAllAt_head, vhAllAt_tail, vhAllAt_delta,
    mul_zero, Finset.sum_const_zero, add_zero]
  exact three_groups (fun i => xFlat a (ix2 m i)) (fun r i => a.vhTop (ix2 r i)) (fun r => uHead a o r)
    (fun r i => a.vhTail (ix2 r i)) (fun r => uTailS a o r) (fun r i => a.vhTailR (ix2 r i)) (fun r => uDelta a o r)
    (fun i => hf.x _) (fun r i => hf.vhTop _) (fun r => uHead_isR hf o r) (fun r i => hf.vhTail _)
    (fun r => uTailS_isR hf o r) (fun r i => hf.vhTailR _) (fun r => uDelta_isR hf o r)

/-- The same with the row given by its two coordinates: row 1024 * b + s is (b, s). -/
theorem factoredOut_eq_G (hf : a.Finite) (b : Fin 4) (s : Fin 1024) (o : Fin 4096) :
    factoredOut a (ix2 (⟨1024 * b.val + s.val, by have := b.isLt; have := s.isLt; omega⟩ : Fin 4096) o)
      = G a (ix3 b s o) := by
  have hb := b.isLt
  have hs := s.isLt
  rw [factoredOut_eq hf]
  have e1 : (⟨(1024 * b.val + s.val) / 1024, by omega⟩ : Fin 4) = b :=
    Fin.ext (show (1024 * b.val + s.val) / 1024 = b.val by omega)
  have e2 : (⟨(1024 * b.val + s.val) % 1024, Nat.mod_lt _ (by decide)⟩ : Fin 1024) = s :=
    Fin.ext (show (1024 * b.val + s.val) % 1024 = s.val by omega)
  show G a (ix3 (⟨(1024 * b.val + s.val) / 1024, _⟩ : Fin 4) (⟨(1024 * b.val + s.val) % 1024, _⟩ : Fin 1024) o) = _
  rw [e1, e2]

end Cert.LowRank

end
-- ==== Proof.IdealSide.Result.lean ====
/-
  The idealized kernel's result as a function of its arguments. The first product's output array is the flattened
  input against the stacked right factor; the second's is that against the stacked left factor, plus the bias row;
  the final reshape reads it back at (b, s, o) from row 1024 b + s. For finite inputs this is the dense product
  of the input with the effective weight, plus the bias: the specification.
-/
import proofs.«173439_j75874892251349_2_alg».proof.Proof.IdealSide.Regs
import proofs.«173439_j75874892251349_2_alg».proof.Proof.IdealSide.Final0
import proofs.«173439_j75874892251349_2_alg».proof.Proof.IdealSide.Final1
import proofs.«173439_j75874892251349_2_alg».proof.Proof.KernelInputs
import proofs.«173439_j75874892251349_2_alg».proof.Proof.KernelHostIn
import proofs.«173439_j75874892251349_2_alg».proof.Proof.KernelHostVh
import proofs.«173439_j75874892251349_2_alg».proof.Proof.KernelHostU
import proofs.«173439_j75874892251349_2_alg».proof.Proof.KernelHostOut
import proofs.«173439_j75874892251349_2_alg».proof.Proof.LowRankSpec
import proofs.«173439_j75874892251349_2_alg».proof.Proof.LowRankLaw

set_option maxRecDepth 16384

noncomputable section

namespace Cert.KernelIdeal.Reg

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

open Idealize.ShloMosaic.ValueIdx Cert.KernelHost

variable (m : (ℓ : Loc nD τ sig) → Buf (Elt Ideal) ℓ)

/-- The first product's output array after its region: the flattened input against the stacked right factor. -/
theorem W6_main_v30 (c : Dev nD) :
    (W6 m c (Proc.devRef .tc main_v30) : S4096x4224.Idx → EReal)
      = Cert.LowRank.yOf (Cert.LowRank.xFlat (inputs m c)) (Cert.LowRank.vhAll (inputs m c)) := by
  have h := (W6_arr m c 2).trans (final0 (Vr5 m) c)
  rw [show lhs0 (Vr5 m) c = Cert.LowRank.xFlat (inputs m c) from V5_main_v28 m c,
    show rhs0 (Vr5 m) c = Cert.LowRank.vhAll (inputs m c) from V5_main_v26 m c] at h
  exact h

/-- The stacked left factor and the bias row reach the second product as the host stretches left them. -/
theorem W6_main_v21 (c : Dev nD) : (W6 m c (Proc.devRef .tc main_v21) : S4096x4224.Idx → EReal) = Cert.LowRank.uAll (inputs m c) :=
  (W6_of_ne m c main_v21 (by decide)).trans (V5_main_v21 m c)
theorem W6_main_v29 (c : Dev nD) : (W6 m c (Proc.devRef .tc main_v29) : S1x4096.Idx → EReal) = Cert.LowRank.bias2d (inputs m c) :=
  (W6_of_ne m c main_v29 (by decide)).trans (V5_main_v29 m c)

/-- The second product's output array after its region: the factored form of the result. -/
theorem W7_main_v31 (c : Dev nD) :
    (W7 m c (Proc.devRef .tc main_v31) : S4096x4096.Idx → EReal) = Cert.LowRank.factoredOut (inputs m c) := by
  have h := (W7_arr m c 3).trans (final1 (Vr6 m) c)
  rw [show lhs1 (Vr6 m) c = Cert.LowRank.yOf (Cert.LowRank.xFlat (inputs m c)) (Cert.LowRank.vhAll (inputs m c)) from W6_main_v30 m c,
    show rhs1 (Vr6 m) c = Cert.LowRank.uAll (inputs m c) from W6_main_v21 m c,
    show row1 (Vr6 m) c = Cert.LowRank.bias2d (inputs m c) from W6_main_v29 m c] at h
  exact h

/-- THE RESULT: for finite inputs the result buffer ends at the specification of the arguments. -/
theorem W8_result (c : Dev nD) (hf : (inputs m c).Finite) :
    (W8 m c (Proc.devRef .tc main_v32) : S4x1024x4096.Idx → EReal) = Cert.LowRank.G (inputs m c) := by
  funext j
  obtain ⟨b, s, o, rfl⟩ : ∃ (b : Fin 4) (s : Fin 1024) (o : Fin 4096), j = ix3 b s o := ⟨j 0, j 1, j 2, eq_ix3 j⟩
  refine (after_hostOps2_main_v32 (W7 m c) b s o).trans ?_
  rw [W7_main_v31 m c]
  exact Cert.LowRank.factoredOut_eq_G hf b s o

end Cert.KernelIdeal.Reg

end
-- ==== Proof.RefRead.lean ====
/-
  The reference program read one operation at a time: this module gathers the reference's generated run and its
  read-at-an-index lemmas, over which the reference's result is identified with the specification.

  The reference forms the effective weight W = (W_head + W_tail) + W_delta from the factors and then takes one
  product with the input. Each stage of the program is read at an index with literal coordinates and identified
  with the specification's function of the same name: the scaled left factors first, then the three low-rank
  products, their sum, the product with x, and the bias.
-/
import proofs.«173439_j75874892251349_2_alg».proof.Proof.Gen.ReferenceIdeal.Read
import proofs.«173439_j75874892251349_2_alg».proof.Proof.LowRankSpec

noncomputable section

namespace Cert.RefRead

open Cert.ReferenceIdeal Cert.ReferenceIdeal.Read Idealize.ShloMosaic Idealize.ShloMosaic.ValueIdx Cert.LowRank
open scoped BigOperators

variable (a : Inputs)

/-! ## The head -/

/-- relu (S_top * alpha + beta) at r. -/
theorem head_scale (r : Fin 64) : val_main_v2 (F := Ideal) a.sTop a.alpha a.beta (ix1 r) = sHead a r := by
  rw [val_main_v2_apply, val_main_v1_apply, val_main_v0_apply, val_main_call0_v0_apply, val_main_call0_cst_apply]
  simp only [Ideal.ofBits_def, Ideal.addf_def, Ideal.mulf_def, Ideal.maximumf_def, Ideal.ofBits_zero_f32]
  rfl

/-- The head's scaled left factor at (o, r). -/
theorem head_left (o : Fin 4096) (r : Fin 64) :
    val_main_v5 (F := Ideal) a.uTop a.sTop a.alpha a.beta (ix2 o r) = uHead a o r := by
  rw [val_main_v5_apply, val_main_v4_apply, val_main_v3_apply]
  have e : idx_main_v3 (idx_main_v4 (ix2 o r)) = ix1 r := by
    funext d; match d with | ⟨0, _⟩ => rfl
  rw [e, head_scale]
  rfl

/-- The head's product at (o, i). -/
theorem head_weight (o i : Fin 4096) :
    val_main_v6 (F := Ideal) a.uTop a.sTop a.vhTop a.alpha a.beta (ix2 o i) = wHead a o i := by
  rw [val_main_v6_apply]
  unfold wHead
  refine Finset.sum_congr rfl fun k _ => ?_
  have el : lidx_main_v6 (ix2 o i) k = ix2 o k := by
    funext d; match d with | ⟨0, _⟩ => rfl | ⟨1, _⟩ => rfl
  have er : ridx_main_v6 (ix2 o i) k = ix2 k i := by
    funext d; match d with | ⟨0, _⟩ => rfl | ⟨1, _⟩ => rfl
  rw [el, er, head_left]

/-! ## The tail -/

/-- The tail's scaled left factor at (o, r). -/
theorem tail_left (o : Fin 4096) (r : Fin 4032) :
    val_main_v9 (F := Ideal) a.uTail a.sTail (ix2 o r) = uTailS a o r := by
  rw [val_main_v9_apply, val_main_v8_apply, val_main_v7_apply]
  have e : idx_main_v7 (idx_main_v8 (ix2 o r)) = ix1 r := by
    funext d; match d with | ⟨0, _⟩ => rfl
  rw [e]
  rfl

/-- The tail's product at (o, i). -/
theorem tail_weight (o i : Fin 4096) :
    val_main_v10 (F := Ideal) a.uTail a.sTail a.vhTail (ix2 o i) = wTail a o i := by
  rw [val_main_v10_apply]
  unfold wTail
  refine Finset.sum_congr rfl fun k _ => ?_
  have el : lidx_main_v10 (ix2 o i) k = ix2 o k := by
    funext d; match d with | ⟨0, _⟩ => rfl | ⟨1, _⟩ => rfl
  have er : ridx_main_v10 (ix2 o i) k = ix2 k i := by
    funext d; match d with | ⟨0, _⟩ => rfl | ⟨1, _⟩ => rfl
  rw [el, er, tail_left]

/-! ## The correction -/

/-- The correction's left factor scaled by the singular values and by relu D, at (o, r). -/
theorem delta_scaled (o : Fin 4096) (r : Fin 4) :
    val_main_v17 (F := Ideal) a.uTailR a.sTailR a.dGate (ix2 o r) = bScaled a o r := by
  rw [val_main_v17_apply, val_main_v13_apply, val_main_v12_apply, val_main_v11_apply, val_main_v16_apply,
    val_main_v15_apply, val_main_v14_apply, val_main_call1_v0_apply, val_main_call1_cst_apply]
  have e1 : idx_main_v11 (idx_main_v12 (ix2 o r)) = ix1 r := by
    funext d; match d with | ⟨0, _⟩ => rfl
  have e2 : idx_main_v15 (idx_main_v16 (ix2 o r)) = ix1 r := by
    funext d; match d with | ⟨0, _⟩ => rfl
  rw [e1, e2]
  simp only [Ideal.ofBits_def, Ideal.mulf_def, Ideal.maximumf_def, Ideal.ofBits_zero_f32]
  rfl

/-- The correction's left factor after the mixing matrix, at (o, j). -/
theorem delta_left (o : Fin 4096) (j : Fin 4) :
    val_main_v18 (F := Ideal) a.uTailR a.sTailR a.dGate a.rMix (ix2 o j) = uDelta a o j := by
  rw [val_main_v18_apply]
  unfold uDelta
  refine Finset.sum_congr rfl fun k _ => ?_
  have el : lidx_main_v18 (ix2 o j) k = ix2 o k := by
    funext d; match d with | ⟨0, _⟩ => rfl | ⟨1, _⟩ => rfl
  have er : ridx_main_v18 (ix2 o j) k = ix2 k j := by
    funext d; match d with | ⟨0, _⟩ => rfl | ⟨1, _⟩ => rfl
  rw [el, er, delta_scaled]

/-- The correction's product at (o, i). -/
theorem delta_weight (o i : Fin 4096) :
    val_main_v19 (F := Ideal) a.uTailR a.sTailR a.vhTailR a.dGate a.rMix (ix2 o i) = wDelta a o i := by
  rw [val_main_v19_apply]
  unfold wDelta
  refine Finset.sum_congr rfl fun k _ => ?_
  have el : lidx_main_v19 (ix2 o i) k = ix2 o k := by
    funext d; match d with | ⟨0, _⟩ => rfl | ⟨1, _⟩ => rfl
  have er : ridx_main_v19 (ix2 o i) k = ix2 k i := by
    funext d; match d with | ⟨0, _⟩ => rfl | ⟨1, _⟩ => rfl
  rw [el, er, delta_left]

/-! ## The effective weight and the layer -/

/-- The effective weight at (o, i). -/
theorem eff_weight (o i : Fin 4096) :
    val_main_v21 (F := Ideal) a.uTop a.sTop a.vhTop a.uTail a.sTail a.vhTail a.uTailR a.sTailR a.vhTailR a.alpha a.beta
      a.dGate a.rMix (ix2 o i) = wEff a o i := by
  rw [val_main_v21_apply, val_main_v20_apply, head_weight, tail_weight, delta_weight]
  rfl

/-- THE REFERENCE IS THE SPECIFICATION: the last stage of the reference program, as a function of its fifteen
    arguments, is G of them. -/
theorem ref_eq_G :
    val_main_v25 (F := Ideal) a.x a.uTop a.sTop a.vhTop a.uTail a.sTail a.vhTail a.uTailR a.sTailR a.vhTailR a.alpha
      a.beta a.dGate a.rMix a.bias = G a := by
  funext j
  obtain ⟨b, s, o, rfl⟩ : ∃ (b : Fin 4) (s : Fin 1024) (o : Fin 4096), j = ix3 b s o := ⟨j 0, j 1, j 2, eq_ix3 j⟩
  rw [val_main_v25_apply, val_main_v22_apply, val_main_v24_apply, val_main_v23_apply, G_apply]
  unfold refAt
  have eb : idx_main_v23 (idx_main_v24 (ix3 b s o)) = ix1 o := by
    funext d; match d with | ⟨0, _⟩ => rfl
  rw [eb]
  simp only [Ideal.addf_def]
  congr 1
  refine Finset.sum_congr rfl fun k _ => ?_
  have el : lidx_main_v22 (ix3 b s o) k = ix3 b s k := by
    funext d; match d with | ⟨0, _⟩ => rfl | ⟨1, _⟩ => rfl | ⟨2, _⟩ => rfl
  have er : ridx_main_v22 (ix3 b s o) k = ix2 o k := by
    funext d; match d with | ⟨0, _⟩ => rfl | ⟨1, _⟩ => rfl
  rw [el, er, eff_weight]

end Cert.RefRead

end
-- ==== Proof.FiniteInputs.lean ====
/-
  FINITENESS: the precondition says that every entry of every input has absolute value below +infinity (fifteen
  "all entries" conjunctions joined by "and"). At the ideal instance an entry is an extended real, and an extended real
  whose absolute value max x (-x) is below +infinity is neither infinity: it is a real number.
-/
import proofs.«173439_j75874892251349_2_alg».proof.Pre_finite_inputs
import proofs.«173439_j75874892251349_2_alg».proof.Proof.LowRankSpec
import Idealize.ShloMosaic.Lib.ReduceAll
import Idealize.ShloMosaic.Lib.Pipeline.Value
import Idealize.ShloMosaic.PureOps.Ideal.Laws

noncomputable section

namespace Cert.FiniteInputs

open Idealize.ShloMosaic Idealize.ShloMosaic.ValueIdx Cert.LowRank

/-- The scalar shape has one index. -/
instance : Subsingleton (⟨0, ![]⟩ : Shape).Idx := ⟨fun _ _ => funext fun d => d.elim0⟩

/-- The word 0x7F800000 is +infinity. -/
theorem inf_word : Ideal.ofBits .f32 0x7F800000#32 = (⊤ : EReal) := by
  simp [Ideal.ofBits, Ideal.ieee]

/-- An extended real whose absolute value is below +infinity is a real number. -/
theorem real_of_abs_lt (x : EReal) (h : Ideal.cmp .olt (max x (-x)) (Ideal.ofBits .f32 0x7F800000#32) = 1#1) :
    ∃ v : ℝ, x = (v : EReal) := by
  rw [inf_word] at h
  have hlt : max x (-x) < ⊤ := by
    by_contra hn
    simp [Ideal.cmp, hn] at h
  induction x using EReal.rec with
  | bot => simp at hlt
  | coe v => exact ⟨v, rfl⟩
  | top => simp at hlt

/-- One conjunct of the precondition: "all entries of |x| are below +infinity" gives every entry real. -/
theorem isReal_of_all {s : Shape} {axes : List (Fin s.rank)} (x : FVec Ideal s .f32)
    (bc : (⟨0, ![]⟩ : Shape).BroadcastsInDim s (![] : Fin 0 → Fin s.rank))
    (hr : s.ReducesTo axes (⟨0, ![]⟩ : Shape)) (hu : 0 < (⟨0, ![]⟩ : Shape).numel) (init : IVec (⟨0, ![]⟩ : Shape) 1)
    (e : Host.reduce IntOp.andi (cmpf .olt (Host.absf x)
      (broadcastInDim s ![] bc (constant (F := Ideal) (⟨0, ![]⟩ : Shape) .f32 0x7F800000#32))) init hr hu ix0 = 1#1) :
    IsReal x := by
  intro i
  have hi := Host.reduce_andi_all _ init hr hu ix0 e i
  rw [cmpf_apply, broadcastInDim_apply _ bc _ i ix0 (fun d => d.elim0)] at hi
  exact real_of_abs_lt (x i) hi

/-- THE PRECONDITION GIVES FINITENESS: if the fifteen "all entries finite" tests, joined by "and", come out true,
    every entry of every input is a real number. -/
theorem finite_of_pre [Cert.Pre_finite_inputs.Facts] (a : Inputs)
    (h : Cert.Pre_finite_inputs.fn (F := Ideal) a.x a.uTop a.sTop a.vhTop a.uTail a.sTail a.vhTail a.uTailR a.sTailR
      a.vhTailR a.alpha a.beta a.dGate a.rMix a.bias = fun _ => 1#1) : a.Finite := by
  have h0 := congrFun h ix0
  dsimp only [Cert.Pre_finite_inputs.fn, Cert.Pre_finite_inputs.fn_part1, Cert.Pre_finite_inputs.fn_part2,
    Cert.Pre_finite_inputs.fn_part3, Cert.Pre_finite_inputs.fn_part4] at h0
  obtain ⟨h0, e14⟩ := IntOp.andi_eq_one.1 h0
  obtain ⟨h0, e13⟩ := IntOp.andi_eq_one.1 h0
  obtain ⟨h0, e12⟩ := IntOp.andi_eq_one.1 h0
  obtain ⟨h0, e11⟩ := IntOp.andi_eq_one.1 h0
  obtain ⟨h0, e10⟩ := IntOp.andi_eq_one.1 h0
  obtain ⟨h0, e9⟩ := IntOp.andi_eq_one.1 h0
  obtain ⟨h0, e8⟩ := IntOp.andi_eq_one.1 h0
  obtain ⟨h0, e7⟩ := IntOp.andi_eq_one.1 h0
  obtain ⟨h0, e6⟩ := IntOp.andi_eq_one.1 h0
  obtain ⟨h0, e5⟩ := IntOp.andi_eq_one.1 h0
  obtain ⟨h0, e4⟩ := IntOp.andi_eq_one.1 h0
  obtain ⟨h0, e3⟩ := IntOp.andi_eq_one.1 h0
  obtain ⟨h0, e2⟩ := IntOp.andi_eq_one.1 h0
  obtain ⟨e0, e1⟩ := IntOp.andi_eq_one.1 h0
  exact ⟨isReal_of_all _ _ _ _ _ e0, isReal_of_all _ _ _ _ _ e1, isReal_of_all _ _ _ _ _ e2, isReal_of_all _ _ _ _ _ e3,
    isReal_of_all _ _ _ _ _ e4, isReal_of_all _ _ _ _ _ e5, isReal_of_all _ _ _ _ _ e6, isReal_of_all _ _ _ _ _ e7,
    isReal_of_all _ _ _ _ _ e8, isReal_of_all _ _ _ _ _ e9, isReal_of_all _ _ _ _ _ e10, isReal_of_all _ _ _ _ _ e11,
    isReal_of_all _ _ _ _ _ e12, isReal_of_all _ _ _ _ _ e13, isReal_of_all _ _ _ _ _ e14⟩

end Cert.FiniteInputs

end
-- ==== Proof.lean ====
/-
  Two chained low-rank matrix products against one dense product.

  The kernel stacks the rank factors of the weight — the scaled head columns, the scaled tail columns, the four
  mixed columns and a block of zeros — into one left factor U_all[4096, 4224] and the matching rows into one right
  factor Vh_all[4224, 4096], and computes out = (x · Vh_allᵀ) · U_allᵀ + bias by two block-accumulated matrix
  products. The reference forms the dense weight W = U_head·Vh_top + U_tail·Vh_tail + U_delta·Vh_tail_r and computes
  x · Wᵀ + bias. Over the extended reals, for finite inputs, both are the same function of the arguments: the sum over
  the stacked rank index splits into the three products and a vanishing block, and the two finite sums exchange.
  The precondition is used exactly there: distributivity and the exchange of sums fail at infinities.
-/
import proofs.«173439_j75874892251349_2_alg».proof.Defs
import proofs.«173439_j75874892251349_2_alg».proof.Proof.Gen.Kernel
import proofs.«173439_j75874892251349_2_alg».proof.Proof.Gen.KernelIdeal
import proofs.«173439_j75874892251349_2_alg».proof.Proof.Gen.ReferenceIdeal
import proofs.«173439_j75874892251349_2_alg».proof.Proof.Gen.Pre_finite_inputs
import proofs.«173439_j75874892251349_2_alg».proof.Proof.WordSide.Regs
import proofs.«173439_j75874892251349_2_alg».proof.Proof.IdealSide.Regs
import proofs.«173439_j75874892251349_2_alg».proof.Proof.IdealSide.Result
import proofs.«173439_j75874892251349_2_alg».proof.Proof.RefRead
import proofs.«173439_j75874892251349_2_alg».proof.Proof.FiniteInputs
import proofs.«173439_j75874892251349_2_alg».proof.Proof.KernelInputs

noncomputable section

namespace Cert.Proof

open Idealize.ShloMosaic Idealize.SL.Sem

/-- The word-level kernel runs to the end, faults nowhere and leaves its arguments unchanged. -/
theorem frame_k : Cert.frame_Kernel := fun m ρ _ => Cert.Kernel.Reg.frame m ρ

/-- So does its idealization. -/
theorem frame_ki : Cert.frame_KernelIdeal := fun m ρ _ => Cert.KernelIdeal.Reg.frame m ρ

/-- The reference is a straight line of host operations: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From memories agreeing on finite arguments both programs end at the specification of those arguments: the
    kernel's two accumulated products composed with its stacked factors, the reference's dense product. -/
theorem algebraic : Cert.algebraic_KernelIdeal_ReferenceIdeal := by
  intro m ρ m' ρ' hpre hagree
  have hfin : ∀ c, (Cert.KernelHost.inputs m c).Finite := fun c => Cert.FiniteInputs.finite_of_pre _ (hpre c)
  refine ⟨fun c => Cert.LowRank.G (Cert.KernelHost.inputs m c), ?_, ?_⟩
  · exact (θ_run Cert.KernelIdeal.defs _ _).mono
      (fun r h c => ⟨(h c).1.trans (Cert.KernelIdeal.Reg.W8_result m c (hfin c)), (h c).2⟩)
      (Cert.KernelIdeal.Reg.run_result m ρ)
  · refine (θ_run Cert.ReferenceIdeal.defs _ _).mono (fun r h c => ⟨?_, (h c).2⟩)
      (Cert.ReferenceIdeal.Value.run (F := Ideal) m' ρ')
    rw [(h c).1, Cert.ReferenceIdeal.Read.val_main_v25_eq]
    obtain ⟨a0, a1, a2, a3, a4, a5, a6, a7, a8, a9, a10, a11, a12, a13, a14⟩ := hagree c
    rw [a0, a1, a2, a3, a4, a5, a6, a7, a8, a9, a10, a11, a12, a13, a14]
    exact Cert.RefRead.ref_eq_G (Cert.KernelHost.inputs m c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
